-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S3x64x64 : Shape := ⟨3, ![3, 64, 64]⟩
abbrev S3x64 : Shape := ⟨2, ![3, 64]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2000000 : S_.BroadcastsInDim S2000000 (![] : Fin 0 → Fin S2000000.rank)
  reducesTo_S2000000_S_d0 : S2000000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg4 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg4
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x64 .f32) (main_arg1 : FVec F S50000x64 .f32) (main_arg2 : FVec F S2000000 .f32) (main_arg3 : FVec F S3x64x64 .f32) (main_arg4 : FVec F S3x64 .f32) (main_arg5 : IVec S2000000 32) (main_arg6 : IVec S2000000 32) (main_arg7 : IVec S4096 32) (main_arg8 : IVec S4096 32) (main_arg9 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_v13 main_v16
-- ==== Kernel.lean ====
abbrev S100000x64 : Shape := ⟨2, ![100000, 64]⟩
abbrev S50000x64 : Shape := ⟨2, ![50000, 64]⟩
abbrev S2000000 : Shape := ⟨1, ![2000000]⟩
abbrev S3x64x64 : Shape := ⟨3, ![3, 64, 64]⟩
abbrev S3x64 : Shape := ⟨2, ![3, 64]⟩
abbrev S4096 : Shape := ⟨1, ![4096]⟩
abbrev S2000000x1 : Shape := ⟨2, ![2000000, 1]⟩
abbrev S_ : Shape := ⟨0, ![]⟩
abbrev S2000000x64 : Shape := ⟨2, ![2000000, 64]⟩
abbrev S64x3x64 : Shape := ⟨3, ![64, 3, 64]⟩
abbrev S64x192 : Shape := ⟨2, ![64, 192]⟩
abbrev S1x192 : Shape := ⟨2, ![1, 192]⟩
abbrev S100000x256 : Shape := ⟨2, ![100000, 256]⟩
abbrev S5000x64 : Shape := ⟨2, ![5000, 64]⟩
abbrev S5000x256 : Shape := ⟨2, ![5000, 256]⟩
abbrev S5000x192 : Shape := ⟨2, ![5000, 192]⟩
abbrev S5000 : Shape := ⟨1, ![5000]⟩
abbrev S5000x1 : Shape := ⟨2, ![5000, 1]⟩
abbrev S50000x256 : Shape := ⟨2, ![50000, 256]⟩
abbrev S4096x1 : Shape := ⟨2, ![4096, 1]⟩
abbrev S4096x256 : Shape := ⟨2, ![4096, 256]⟩

abbrev nBuf : Space → Nat
  | .hbm => 121
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .f32⟩
  | .hbm, ⟨3, _⟩ => ⟨S3x64x64, .f32⟩
  | .hbm, ⟨4, _⟩ => ⟨S3x64, .f32⟩
  | .hbm, ⟨5, _⟩ => ⟨S2000000, .i32⟩
  | .hbm, ⟨6, _⟩ => ⟨S2000000, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S2000000x1, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x64, .f32⟩
  | .hbm, ⟨20, _⟩ => ⟨S2000000x64, .f32⟩
  | .hbm, ⟨21, _⟩ => ⟨S2000000x64, .f32⟩
  | .hbm, ⟨22, _⟩ => ⟨S_, .f32⟩
  | .hbm, ⟨23, _⟩ => ⟨S100000x64, .f32⟩
  | .hbm, ⟨24, _⟩ => ⟨S2000000x1, .i32⟩
  | .hbm, ⟨25, _⟩ => ⟨S100000x64, .f32⟩
  | .hbm, ⟨26, _⟩ => ⟨S2000000x1, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x64, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S50000x64, .f32⟩
  | .hbm, ⟨40, _⟩ => ⟨S2000000x1, .i32⟩
  | .hbm, ⟨41, _⟩ => ⟨S50000x64, .f32⟩
  | .hbm, ⟨42, _⟩ => ⟨S64x3x64, .f32⟩
  | .hbm, ⟨43, _⟩ => ⟨S64x192, .f32⟩
  | .hbm, ⟨44, _⟩ => ⟨S64x192, .bf16⟩
  | .hbm, ⟨45, _⟩ => ⟨S1x192, .f32⟩
  | .hbm, ⟨46, _⟩ => ⟨S100000x256, .f32⟩
  | .hbm, ⟨47, _⟩ => ⟨S50000x256, .f32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x256, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x256, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .i32⟩
  | .hbm, ⟨73, _⟩ => ⟨S4096x1, .i32⟩
  | .hbm, ⟨74, _⟩ => ⟨S4096x256, .f32⟩
  | .hbm, ⟨75, _⟩ => ⟨S4096x256, .f32⟩
  | .hbm, ⟨76, _⟩ => ⟨S_, .f32⟩
  | .hbm, ⟨77, _⟩ => ⟨S4096, .f32⟩
  | .hbm, ⟨78, _⟩ => ⟨S4096x256, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S4096, .f32⟩
  | .hbm, ⟨85, _⟩ => ⟨S4096, .f32⟩
  | .hbm, ⟨86, _⟩ => ⟨S4096, .f32⟩
  | .hbm, ⟨87, _⟩ => ⟨S4096, .f32⟩
  | .hbm, ⟨88, _⟩ => ⟨S4096, .i1⟩
  | .hbm, ⟨89, _⟩ => ⟨S4096, .f32⟩
  | .hbm, ⟨90, _⟩ => ⟨S4096, .f32⟩
  | .hbm, ⟨91, _⟩ => ⟨S4096, .f32⟩
  | .hbm, ⟨92, _⟩ => ⟨S4096, .f32⟩
  | .hbm, ⟨93, _⟩ => ⟨S4096, .f32⟩
  | .hbm, ⟨94, _⟩ => ⟨S4096, .f32⟩
  | .hbm, ⟨95, _⟩ => ⟨S4096, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S4096x256, .f32⟩
  | .hbm, ⟨104, _⟩ => ⟨S_, .f32⟩
  | .hbm, ⟨105, _⟩ => ⟨S_, .f32⟩
  | .hbm, ⟨106, _⟩ => ⟨S4096x256, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S4096x256, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x192, .bf16⟩
  | .local _ .vmem, ⟨5, _⟩ => ⟨S1x192, .f32⟩
  | .local _ .vmem, ⟨6, _⟩ => ⟨S5000x256, .f32⟩
  | .local _ .vmem, ⟨7, _⟩ => ⟨S5000x256, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x192, .bf16⟩
  | .local _ .vmem, ⟨13, _⟩ => ⟨S1x192, .f32⟩
  | .local _ .vmem, ⟨14, _⟩ => ⟨S5000x256, .f32⟩
  | .local _ .vmem, ⟨15, _⟩ => ⟨S5000x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_call0_v0 : Ref sig .tc := ⟨.hbm, 82, rfl⟩
abbrev main_call0_call0_cst : Ref sig .tc := ⟨.hbm, 83, rfl⟩
abbrev main_call0_call0_v0 : Ref sig .tc := ⟨.hbm, 84, rfl⟩
abbrev main_call0_call0_v1 : Ref sig .tc := ⟨.hbm, 85, rfl⟩
abbrev main_call0_call0_v2 : Ref sig .tc := ⟨.hbm, 86, rfl⟩
abbrev main_call0_call0_v3 : Ref sig .tc := ⟨.hbm, 87, rfl⟩
abbrev main_call0_call0_v4 : Ref sig .tc := ⟨.hbm, 88, rfl⟩
abbrev main_call0_call0_v5 : Ref sig .tc := ⟨.hbm, 89, rfl⟩
abbrev main_call0_call0_v6 : Ref sig .tc := ⟨.hbm, 90, rfl⟩
abbrev main_call0_call0_v7 : Ref sig .tc := ⟨.hbm, 91, rfl⟩
abbrev main_call0_call0_v8 : Ref sig .tc := ⟨.hbm, 92, rfl⟩
abbrev main_call0_call0_v9 : Ref sig .tc := ⟨.hbm, 93, rfl⟩
abbrev main_call0_call0_v10 : Ref sig .tc := ⟨.hbm, 94, rfl⟩
abbrev main_call0_call0_v11 : Ref sig .tc := ⟨.hbm, 95, rfl⟩
abbrev main_call0_v1 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_14 : Ref sig .tc := ⟨.hbm, 104, rfl⟩
abbrev main_v63 : Ref sig .tc := ⟨.hbm, 105, rfl⟩
abbrev main_v64 : Ref sig .tc := ⟨.hbm, 106, rfl⟩
abbrev main_cst_15 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_16 : Ref sig .tc := ⟨.hbm, 111, rfl⟩
abbrev main_v68 : Ref sig .tc := ⟨.hbm, 112, rfl⟩
abbrev main_v69 : Ref sig .tc := ⟨.hbm, 113, rfl⟩
abbrev main_cst_17 : Ref sig .tc := ⟨.hbm, 114, rfl⟩
abbrev main_v70 : Ref sig .tc := ⟨.hbm, 115, rfl⟩
abbrev main_cst_18 : Ref sig .tc := ⟨.hbm, 116, rfl⟩
abbrev main_v71 : Ref sig .tc := ⟨.hbm, 117, rfl⟩
abbrev main_cst_19 : Ref sig .tc := ⟨.hbm, 118, rfl⟩
abbrev main_v72 : Ref sig .tc := ⟨.hbm, 119, rfl⟩
abbrev main_v73 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S50000x64 : S_.BroadcastsInDim S50000x64 (![] : Fin 0 → Fin S50000x64.rank)
  transposes_S3x64x64_S64x3x64_1_0_2 : S3x64x64.Transposes [1, 0, 2] S64x3x64
  shapeCasts_S64x3x64_S64x192 : S64x3x64.ShapeCasts S64x192
  bitsLt_bf16_f32 : FTy.bits .bf16 < FTy.bits .f32
  shapeCasts_S3x64_S1x192 : S3x64.ShapeCasts S1x192
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x256_S5000x64_0_0 : ∀ a, (![0, 0] : Fin 2 → Nat) a + S5000x64.size a ≤ S5000x256.size a
  slices_S5000x192_o0_0_S5000x64 : S5000x192.Slices ![0, 0] S5000x64
  reduces_S5000x64_S5000 : S5000x64.Reduces [1] S5000
  shapeCasts_S5000_S5000x1 : S5000.ShapeCasts S5000x1
  broadcasts_S5000x1_S5000x64 : S5000x1.Broadcasts S5000x64
  inb_S5000x256_S5000x64_0_64 : ∀ a, (![0, 64] : Fin 2 → Nat) a + S5000x64.size a ≤ S5000x256.size a
  slices_S5000x192_o0_64_S5000x64 : S5000x192.Slices ![0, 64] S5000x64
  inb_S5000x256_S5000x64_0_128 : ∀ a, (![0, 128] : Fin 2 → Nat) a + S5000x64.size a ≤ S5000x256.size a
  slices_S5000x192_o0_128_S5000x64 : S5000x192.Slices ![0, 128] S5000x64
  inb_S5000x256_S5000x64_0_192 : ∀ a, (![0, 192] : Fin 2 → Nat) a + S5000x64.size a ≤ S5000x256.size a
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  h_S_ : 0 < S_.numel
  reducesTo_S4096_S_d0 : S4096.ReducesTo [0] S_
  reducesTo_S4096x256_S_d0_1 : S4096x256.ReducesTo [0, 1] S_
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  dot_S5000x64_S64x192_S5000x192_1_0_0_1_n_n_wf : DotDims.WF S5000x64 S64x192 S5000x192 [1] [0] [0] [1] [] []
  gather_S100000x256_S4096x1_S4096x256_1_0_n_n_0_1_1256_wf : GatherDims.WF S100000x256 S4096x1 S4096x256 [1] [0] [] [0] [] 1 ![1, 256]
  gather_S50000x256_S4096x1_S4096x256_1_0_n_n_0_1_1256_wf : GatherDims.WF S50000x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x192.size a ≤ S64x192.size a
  hwx0_2 : ∀ i : grid0.Coords, EltTy.bits .bf16 = 32 ∨ (Rect.block (s := S64x192) S64x192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x192.size a ≤ S1x192.size a
  hwx0_3 : ∀ i : grid0.Coords, EltTy.bits .f32 = 32 ∨ (Rect.block (s := S1x192) S1x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S100000x256.size a
  hwx0_4 : ∀ i : grid0.Coords, EltTy.bits .f32 = 32 ∨ (Rect.block (s := S100000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .bf16 = 32 ∨ (Rect.block (s := S64x192) S64x192.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S64x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S3x64x64 : Shape := ⟨3, ![3, 64, 64]⟩
abbrev S3x64 : Shape := ⟨2, ![3, 64]⟩
abbrev S4096 : Shape := ⟨1, ![4096]⟩
abbrev S2000000x1 : Shape := ⟨2, ![2000000, 1]⟩
abbrev S_ : Shape := ⟨0, ![]⟩
abbrev S2000000x64 : Shape := ⟨2, ![2000000, 64]⟩
abbrev S150000x64 : Shape := ⟨2, ![150000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S150000 : Shape := ⟨1, ![150000]⟩
abbrev S150000x1 : Shape := ⟨2, ![150000, 1]⟩
abbrev S150000x256 : Shape := ⟨2, ![150000, 256]⟩
abbrev S100000x256 : Shape := ⟨2, ![100000, 256]⟩
abbrev S50000x256 : Shape := ⟨2, ![50000, 256]⟩
abbrev S4096x1 : Shape := ⟨2, ![4096, 1]⟩
abbrev S4096x256 : Shape := ⟨2, ![4096, 256]⟩

abbrev nBuf : Space → Nat
  | .hbm => 198
  | .vmem => 0
  | .smem => 0
  | _ => 0

abbrev hbmTy0_0 (i : Nat) : BufTy := match i % 128 with
  | 0 => ⟨S100000x64, .f32⟩
  | 1 => ⟨S50000x64, .f32⟩
  | 2 => ⟨S2000000, .f32⟩
  | 3 => ⟨S3x64x64, .f32⟩
  | 4 => ⟨S3x64, .f32⟩
  | 5 => ⟨S2000000, .i32⟩
  | 6 => ⟨S2000000, .i32⟩
  | 7 => ⟨S4096, .i32⟩
  | 8 => ⟨S4096, .i32⟩
  | 9 => ⟨S4096, .i32⟩
  | 10 => ⟨S2000000x1, .f32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x64, .f32⟩
  | 20 => ⟨S2000000x64, .f32⟩
  | 21 => ⟨S2000000x64, .f32⟩
  | 22 => ⟨S_, .f32⟩
  | 23 => ⟨S100000x64, .f32⟩
  | 24 => ⟨S2000000x1, .i32⟩
  | 25 => ⟨S100000x64, .f32⟩
  | 26 => ⟨S2000000x1, .f32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000x64, .f32⟩
  | 36 => ⟨S2000000x64, .f32⟩
  | 37 => ⟨S2000000x64, .f32⟩
  | 38 => ⟨S_, .f32⟩
  | 39 => ⟨S50000x64, .f32⟩
  | 40 => ⟨S2000000x1, .i32⟩
  | 41 => ⟨S50000x64, .f32⟩
  | 42 => ⟨S150000x64, .f32⟩
  | 43 => ⟨S150000x64, .f32⟩
  | 44 => ⟨S1x64x64, .f32⟩
  | 45 => ⟨S64x64, .f32⟩
  | 46 => ⟨S150000x64, .f32⟩
  | 47 => ⟨S1x64, .f32⟩
  | 48 => ⟨S64, .f32⟩
  | 49 => ⟨S1x64, .f32⟩
  | 50 => ⟨S150000x64, .f32⟩
  | 51 => ⟨S150000x64, .f32⟩
  | 52 => ⟨S_, .f32⟩
  | 53 => ⟨S_, .f32⟩
  | 54 => ⟨S150000x64, .f32⟩
  | 55 => ⟨S150000x64, .i1⟩
  | 56 => ⟨S_, .f32⟩
  | 57 => ⟨S150000x64, .f32⟩
  | 58 => ⟨S150000x64, .f32⟩
  | 59 => ⟨S150000x64, .f32⟩
  | 60 => ⟨S150000x64, .f32⟩
  | 61 => ⟨S_, .f32⟩
  | 62 => ⟨S150000, .f32⟩
  | 63 => ⟨S150000x1, .f32⟩
  | 64 => ⟨S150000x1, .f32⟩
  | 65 => ⟨S_, .f32⟩
  | 66 => ⟨S150000x1, .f32⟩
  | 67 => ⟨S150000x1, .f32⟩
  | 68 => ⟨S150000x64, .f32⟩
  | 69 => ⟨S150000x64, .f32⟩
  | 70 => ⟨S1x64x64, .f32⟩
  | 71 => ⟨S64x64, .f32⟩
  | 72 => ⟨S150000x64, .f32⟩
  | 73 => ⟨S1x64, .f32⟩
  | 74 => ⟨S64, .f32⟩
  | 75 => ⟨S1x64, .f32⟩
  | 76 => ⟨S150000x64, .f32⟩
  | 77 => ⟨S150000x64, .f32⟩
  | 78 => ⟨S_, .f32⟩
  | 79 => ⟨S_, .f32⟩
  | 80 => ⟨S150000x64, .f32⟩
  | 81 => ⟨S150000x64, .i1⟩
  | 82 => ⟨S_, .f32⟩
  | 83 => ⟨S150000x64, .f32⟩
  | 84 => ⟨S150000x64, .f32⟩
  | 85 => ⟨S150000x64, .f32⟩
  | 86 => ⟨S150000x64, .f32⟩
  | 87 => ⟨S_, .f32⟩
  | 88 => ⟨S150000, .f32⟩
  | 89 => ⟨S150000x1, .f32⟩
  | 90 => ⟨S150000x1, .f32⟩
  | 91 => ⟨S_, .f32⟩
  | 92 => ⟨S150000x1, .f32⟩
  | 93 => ⟨S150000x1, .f32⟩
  | 94 => ⟨S150000x64, .f32⟩
  | 95 => ⟨S150000x64, .f32⟩
  | 96 => ⟨S1x64x64, .f32⟩
  | 97 => ⟨S64x64, .f32⟩
  | 98 => ⟨S150000x64, .f32⟩
  | 99 => ⟨S1x64, .f32⟩
  | 100 => ⟨S64, .f32⟩
  | 101 => ⟨S1x64, .f32⟩
  | 102 => ⟨S150000x64, .f32⟩
  | 103 => ⟨S150000x64, .f32⟩
  | 104 => ⟨S_, .f32⟩
  | 105 => ⟨S_, .f32⟩
  | 106 => ⟨S150000x64, .f32⟩
  | 107 => ⟨S150000x64, .i1⟩
  | 108 => ⟨S_, .f32⟩
  | 109 => ⟨S150000x64, .f32⟩
  | 110 => ⟨S150000x64, .f32⟩
  | 111 => ⟨S150000x64, .f32⟩
  | 112 => ⟨S150000x64, .f32⟩
  | 113 => ⟨S_, .f32⟩
  | 114 => ⟨S150000, .f32⟩
  | 115 => ⟨S150000x1, .f32⟩
  | 116 => ⟨S150000x1, .f32⟩
  | 117 => ⟨S_, .f32⟩
  | 118 => ⟨S150000x1, .f32⟩
  | 119 => ⟨S150000x1, .f32⟩
  | 120 => ⟨S150000x64, .f32⟩
  | 121 => ⟨S150000x64, .f32⟩
  | 122 => ⟨S150000x256, .f32⟩
  | 123 => ⟨S100000x256, .f32⟩
  | 124 => ⟨S50000x256, .f32⟩
  | 125 => ⟨S_, .i32⟩
  | 126 => ⟨S4096, .i32⟩
  | 127 => ⟨S4096, .i1⟩
  | _ => ⟨S100000x64, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x256, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x256, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096x256, .f32⟩
  | 24 => ⟨S4096x256, .f32⟩
  | 25 => ⟨S_, .f32⟩
  | 26 => ⟨S4096, .f32⟩
  | 27 => ⟨S4096x256, .f32⟩
  | 28 => ⟨S_, .f32⟩
  | 29 => ⟨S4096, .f32⟩
  | 30 => ⟨S4096, .f32⟩
  | 31 => ⟨S4096, .f32⟩
  | 32 => ⟨S_, .f32⟩
  | 33 => ⟨S4096, .f32⟩
  | 34 => ⟨S4096, .f32⟩
  | 35 => ⟨S4096, .f32⟩
  | 36 => ⟨S4096, .f32⟩
  | 37 => ⟨S4096, .i1⟩
  | 38 => ⟨S4096, .f32⟩
  | 39 => ⟨S4096, .f32⟩
  | 40 => ⟨S4096, .f32⟩
  | 41 => ⟨S4096, .f32⟩
  | 42 => ⟨S4096, .f32⟩
  | 43 => ⟨S4096, .f32⟩
  | 44 => ⟨S4096, .f32⟩
  | 45 => ⟨S4096, .f32⟩
  | 46 => ⟨S4096, .f32⟩
  | 47 => ⟨S_, .f32⟩
  | 48 => ⟨S_, .f32⟩
  | 49 => ⟨S_, .f32⟩
  | 50 => ⟨S_, .f32⟩
  | 51 => ⟨S_, .f32⟩
  | 52 => ⟨S4096x256, .f32⟩
  | 53 => ⟨S_, .f32⟩
  | 54 => ⟨S_, .f32⟩
  | 55 => ⟨S4096x256, .f32⟩
  | 56 => ⟨S_, .f32⟩
  | 57 => ⟨S_, .f32⟩
  | 58 => ⟨S_, .f32⟩
  | 59 => ⟨S4096x256, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_10 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_v70 : Ref sig .tc := ⟨.hbm, 111, rfl⟩
abbrev main_v71 : Ref sig .tc := ⟨.hbm, 112, rfl⟩
abbrev main_cst_11 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_12 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_13 : Ref sig .tc := ⟨.hbm, 125, rfl⟩
abbrev main_v82 : Ref sig .tc := ⟨.hbm, 126, rfl⟩
abbrev main_v83 : Ref sig .tc := ⟨.hbm, 127, rfl⟩
abbrev main_c_14 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_15 : Ref sig .tc := ⟨.hbm, 134, rfl⟩
abbrev main_v89 : Ref sig .tc := ⟨.hbm, 135, rfl⟩
abbrev main_v90 : Ref sig .tc := ⟨.hbm, 136, rfl⟩
abbrev main_c_16 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_17 : Ref sig .tc := ⟨.hbm, 143, rfl⟩
abbrev main_v96 : Ref sig .tc := ⟨.hbm, 144, rfl⟩
abbrev main_v97 : Ref sig .tc := ⟨.hbm, 145, rfl⟩
abbrev main_c_18 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_19 : Ref sig .tc := ⟨.hbm, 153, rfl⟩
abbrev main_v104 : Ref sig .tc := ⟨.hbm, 154, rfl⟩
abbrev main_v105 : Ref sig .tc := ⟨.hbm, 155, rfl⟩
abbrev main_cst_20 : Ref sig .tc := ⟨.hbm, 156, rfl⟩
abbrev main_v106 : Ref sig .tc := ⟨.hbm, 157, rfl⟩
abbrev main_v107 : Ref sig .tc := ⟨.hbm, 158, rfl⟩
abbrev main_call3_v0 : Ref sig .tc := ⟨.hbm, 159, rfl⟩
abbrev main_call3_call0_cst : Ref sig .tc := ⟨.hbm, 160, rfl⟩
abbrev main_call3_call0_v0 : Ref sig .tc := ⟨.hbm, 161, rfl⟩
abbrev main_call3_call0_v1 : Ref sig .tc := ⟨.hbm, 162, rfl⟩
abbrev main_call3_call0_v2 : Ref sig .tc := ⟨.hbm, 163, rfl⟩
abbrev main_call3_call0_v3 : Ref sig .tc := ⟨.hbm, 164, rfl⟩
abbrev main_call3_call0_v4 : Ref sig .tc := ⟨.hbm, 165, rfl⟩
abbrev main_call3_call0_v5 : Ref sig .tc := ⟨.hbm, 166, rfl⟩
abbrev main_call3_call0_v6 : Ref sig .tc := ⟨.hbm, 167, rfl⟩
abbrev main_call3_call0_v7 : Ref sig .tc := ⟨.hbm, 168, rfl⟩
abbrev main_call3_call0_v8 : Ref sig .tc := ⟨.hbm, 169, rfl⟩
abbrev main_call3_call0_v9 : Ref sig .tc := ⟨.hbm, 170, rfl⟩
abbrev main_call3_call0_v10 : Ref sig .tc := ⟨.hbm, 171, rfl⟩
abbrev main_call3_call0_v11 : Ref sig .tc := ⟨.hbm, 172, rfl⟩
abbrev main_call3_v1 : Ref sig .tc := ⟨.hbm, 173, rfl⟩
abbrev main_v108 : Ref sig .tc := ⟨.hbm, 174, rfl⟩
abbrev main_cst_21 : Ref sig .tc := ⟨.hbm, 175, rfl⟩
abbrev main_v109 : Ref sig .tc := ⟨.hbm, 176, rfl⟩
abbrev main_cst_22 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_cst_23 : Ref sig .tc := ⟨.hbm, 181, rfl⟩
abbrev main_v113 : Ref sig .tc := ⟨.hbm, 182, rfl⟩
abbrev main_v114 : Ref sig .tc := ⟨.hbm, 183, rfl⟩
abbrev main_cst_24 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_cst_25 : Ref sig .tc := ⟨.hbm, 188, rfl⟩
abbrev main_v118 : Ref sig .tc := ⟨.hbm, 189, rfl⟩
abbrev main_v119 : Ref sig .tc := ⟨.hbm, 190, rfl⟩
abbrev main_cst_26 : Ref sig .tc := ⟨.hbm, 191, rfl⟩
abbrev main_v120 : Ref sig .tc := ⟨.hbm, 192, rfl⟩
abbrev main_cst_27 : Ref sig .tc := ⟨.hbm, 193, rfl⟩
abbrev main_v121 : Ref sig .tc := ⟨.hbm, 194, rfl⟩
abbrev main_cst_28 : Ref sig .tc := ⟨.hbm, 195, rfl⟩
abbrev main_v122 : Ref sig .tc := ⟨.hbm, 196, rfl⟩
abbrev main_v123 : Ref sig .tc := ⟨.hbm, 197, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S50000x64 : S_.BroadcastsInDim S50000x64 (![] : Fin 0 → Fin S50000x64.rank)
  concatenates_S100000x64_S50000x64_S150000x64_d0 : Shape.Concatenates [S100000x64, S50000x64] S150000x64 0
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  bcast_S_S150000x64 : S_.BroadcastsInDim S150000x64 (![] : Fin 0 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S100000x256_0_0 : S150000x256.Slices ![0, 0] S100000x256
  slices_S150000x256_S50000x256_100000_0 : S150000x256.Slices ![100000, 0] S50000x256
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  reducesTo_S4096_S_d0 : S4096.ReducesTo [0] S_
  reducesTo_S4096x256_S_d0_1 : S4096x256.ReducesTo [0, 1] S_
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  dot_S150000x64_S64x64_S150000x64_1_0_0_1_n_n_wf : DotDims.WF S150000x64 S64x64 S150000x64 [1] [0] [0] [1] [] []
  gather_S100000x256_S4096x1_S4096x256_1_0_n_n_0_1_1256_wf : GatherDims.WF S100000x256 S4096x1 S4096x256 [1] [0] [] [0] [] 1 ![1, 256]
  gather_S50000x256_S4096x1_S4096x256_1_0_n_n_0_1_1256_wf : GatherDims.WF S50000x256 S4096x1 S4096x256 [1] [0] [] [0] [] 1 ![1, 256]

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

class Facts : Prop extends Facts₀ where

variable [Facts]
-- ==== Proof.KernelRun.lean ====
/-
  The idealized kernel program's run with every buffer named. Its @main is a stretch of host operations, two kernel
  regions, and three more stretches; every weakly fair execution terminates, and each unscoped buffer of a core ends at
  the fold of those segments over the launch contents: the host stretches as the composition of their operations, each
  region's arrays at what its grid points write back.
-/
import proofs.«171917_j27255862461048_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends at
    the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same at a TensorCore reference that is not scoped. -/
theorem run_ref : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  (θ_run defs _ _).mono (fun r h c b hb => h c _ (mem_uc b hb)) (run_all m ρ)

end Cert.KernelIdeal.Hand

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibBiasLeaky.lean ====
/-
  A matrix plus a one-row bias, then the leaky rectifier, over the extended reals.

  The leaky rectifier with a given slope sends x to x when x ≥ 0 and to slope · x otherwise; here the test is the float
  comparison "ordered and greater or equal" against the zero word and the choice is a select on its bit, so that nothing
  is assumed about how the comparison reads on infinities. Entry (p, q) of the result is the rectifier of a (p, q) + b q.
  Three readings. The host's form: the bias broadcast to one row and then down the rows, added, compared against a
  broadcast zero, multiplied by a broadcast slope, and selected. A vector unit's form on a block of rows: the bias held as
  one row and repeated down the block. And a band of consecutive rows of the result is the same function of that band of
  rows of a.
-/
import proofs.«171917_j27255862461048_2_alg».proof.Proof.LibPlainDot

noncomputable section

namespace Cert.LibBiasLeaky

open Idealize.ShloMosaic Idealize.ShloMosaic.ValueIdx Cert.LibPlainDot

/-- The leaky rectifier with the slope given as a float word: x where x compares ≥ 0, slope · x elsewhere. -/
def leaky (slope : BitVec 32) (x : Ideal .f32) : Ideal .f32 :=
  Scalar.select (FloatOps.cmpf (F := Ideal) .oge x (FloatOps.ofBits (F := Ideal) .f32 0x00000000#32)) x
    (FloatOps.mulf (F := Ideal) (FloatOps.ofBits (F := Ideal) .f32 slope) x)

/-- Entry (p, q): the leaky rectifier of a (p, q) + b q. -/
def biasLeaky {M N : ℕ} (slope : BitVec 32) (a : FVec Ideal ⟨2, ![M, N]⟩ .f32) (b : FVec Ideal ⟨1, ![N]⟩ .f32) :
    FVec Ideal ⟨2, ![M, N]⟩ .f32 :=
  fun i => leaky slope (FloatOps.addf (F := Ideal) (a i) (b (ix1 (n := N) (i 1))))

theorem biasLeaky_apply {M N : ℕ} (slope : BitVec 32) (a : FVec Ideal ⟨2, ![M, N]⟩ .f32) (b : FVec Ideal ⟨1, ![N]⟩ .f32)
    (p : Fin M) (q : Fin N) :
    biasLeaky slope a b (ix2 p q) = leaky slope (FloatOps.addf (F := Ideal) (a (ix2 p q)) (b (ix1 q))) := rfl

/-- The host's form: the bias broadcast to one row and then down the rows, added; the sum compared against a broadcast
    zero; the slope broadcast and multiplied in; the select between the sum and the product. -/
theorem host_form {M N : ℕ} (slope : BitVec 32) (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (h0 : (⟨0, ![]⟩ : Shape).BroadcastsInDim ⟨2, ![M, N]⟩ ![]) :
    select (cmpf .oge (addf a (broadcastInDim ⟨2, ![M, N]⟩ ![0, 1] hbc (broadcastInDim ⟨2, ![1, N]⟩ ![1] hr b)))
          (broadcastInDim ⟨2, ![M, N]⟩ ![] h0 (constant (F := Ideal) ⟨0, ![]⟩ .f32 0x00000000#32)))
        (addf a (broadcastInDim ⟨2, ![M, N]⟩ ![0, 1] hbc (broadcastInDim ⟨2, ![1, N]⟩ ![1] hr b)))
        (mulf (broadcastInDim ⟨2, ![M, N]⟩ ![] h0 (constant (F := Ideal) ⟨0, ![]⟩ .f32 slope))
          (addf a (broadcastInDim ⟨2, ![M, N]⟩ ![0, 1] hbc (broadcastInDim ⟨2, ![1, N]⟩ ![1] hr b))))
      = biasLeaky slope a b := by
  funext j
  obtain ⟨p, q, rfl⟩ : ∃ (p : Fin M) (q : Fin N), j = ix2 p q := ⟨j 0, j 1, eq_ix2 j⟩
  rw [biasLeaky_apply]
  have hb : broadcastInDim ⟨2, ![M, N]⟩ ![0, 1] hbc (broadcastInDim ⟨2, ![1, N]⟩ ![1] hr b) (ix2 p q) = b (ix1 q) := by
    rw [bcast_1b_ab_apply, bcast_a_1a_apply]
  show Scalar.select (FloatOps.cmpf .oge (FloatOps.addf (a (ix2 p q)) (broadcastInDim ⟨2, ![M, N]⟩ ![0, 1] hbc (broadcastInDim ⟨2, ![1, N]⟩ ![1] hr b) (ix2 p q))) _)
      (FloatOps.addf (a (ix2 p q)) (broadcastInDim ⟨2, ![M, N]⟩ ![0, 1] hbc (broadcastInDim ⟨2, ![1, N]⟩ ![1] hr b) (ix2 p q)))
      (FloatOps.mulf _ (FloatOps.addf (a (ix2 p q)) (broadcastInDim ⟨2, ![M, N]⟩ ![0, 1] hbc (broadcastInDim ⟨2, ![1, N]⟩ ![1] hr b) (ix2 p q)))) = _
  rw [hb]
  rfl

/-- A vector unit's form on a block of T rows, read at (p, q): the block and the one-row bias each through an identity
    re-lay, the row repeated down the block and added; the comparison against a splat zero, the product with a splat
    slope, the select. It is the rectifier of block (p, q) + row (0, q). -/
theorem unit_form {T N : ℕ} (slope : BitVec 32) (x0 : FVec Ideal ⟨2, ![T, N]⟩ .f32) (x1 : FVec Ideal ⟨2, ![1, N]⟩ .f32)
    (hs0 : (⟨2, ![T, N]⟩ : Shape).ShapeCasts ⟨2, ![T, N]⟩) (hs1 : (⟨2, ![1, N]⟩ : Shape).ShapeCasts ⟨2, ![1, N]⟩)
    (hb : (⟨2, ![1, N]⟩ : Shape).Broadcasts ⟨2, ![T, N]⟩) (p : Fin T) (q : Fin N) :
    select (cmpf .oge (addf (shapeCast ⟨2, ![T, N]⟩ x0 hs0) (broadcastTo ⟨2, ![T, N]⟩ (shapeCast ⟨2, ![1, N]⟩ x1 hs1) hb))
          (broadcast ⟨2, ![T, N]⟩ (Scalar.ofBits (F := Ideal) .f32 0x00000000#32)))
        (addf (shapeCast ⟨2, ![T, N]⟩ x0 hs0) (broadcastTo ⟨2, ![T, N]⟩ (shapeCast ⟨2, ![1, N]⟩ x1 hs1) hb))
        (mulf (broadcast ⟨2, ![T, N]⟩ (Scalar.ofBits (F := Ideal) .f32 slope))
          (addf (shapeCast ⟨2, ![T, N]⟩ x0 hs0) (broadcastTo ⟨2, ![T, N]⟩ (shapeCast ⟨2, ![1, N]⟩ x1 hs1) hb))) (ix2 p q)
      = leaky slope (FloatOps.addf (F := Ideal) (x0 (ix2 p q)) (x1 (ix2 (0 : Fin 1) q))) := by
  rw [shapeCast_self, shapeCast_self]
  have hrow : broadcastTo ⟨2, ![T, N]⟩ x1 hb (ix2 p q) = x1 (ix2 (0 : Fin 1) q) := broadcastTo_1b_ab_apply x1 hb p q
  show Scalar.select (FloatOps.cmpf .oge (FloatOps.addf (x0 (ix2 p q)) (broadcastTo ⟨2, ![T, N]⟩ x1 hb (ix2 p q))) _)
      (FloatOps.addf (x0 (ix2 p q)) (broadcastTo ⟨2, ![T, N]⟩ x1 hb (ix2 p q)))
      (FloatOps.mulf _ (FloatOps.addf (x0 (ix2 p q)) (broadcastTo ⟨2, ![T, N]⟩ x1 hb (ix2 p q)))) = _
  rw [hrow]
  rfl

/-- Rows r, …, r + T − 1 of the result: when x0 holds those rows of A and the row x1 holds B, the rectifier of
    x0 at y plus x1 at y's column is the result at the index whose row is r plus y's row and whose column is y's. -/
theorem biasLeaky_rows {M N T : ℕ} (slope : BitVec 32) (A : FVec Ideal ⟨2, ![M, N]⟩ .f32) (B : FVec Ideal ⟨1, ![N]⟩ .f32)
    (x0 : FVec Ideal ⟨2, ![T, N]⟩ .f32) (x1 : FVec Ideal ⟨2, ![1, N]⟩ .f32) (r : ℕ)
    (hx : ∀ (p : Fin T) (q : Fin N) (hp : r + p.val < M), x0 (ix2 p q) = A (ix2 ⟨r + p.val, hp⟩ q))
    (hb : ∀ q : Fin N, x1 (ix2 (0 : Fin 1) q) = B (ix1 q))
    (y : (⟨2, ![T, N]⟩ : Shape).Idx) (i : (⟨2, ![M, N]⟩ : Shape).Idx)
    (hi0 : (i 0).val = r + (y 0).val) (hi1 : (i 1).val = (y 1).val) :
    leaky slope (FloatOps.addf (F := Ideal) (x0 y) (x1 (ix2 (0 : Fin 1) (y 1)))) = biasLeaky slope A B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [biasLeaky_apply]
  show leaky slope (FloatOps.addf (x0 (ix2 p q')) (x1 (ix2 (0 : Fin 1) q'))) = _
  rw [hx p q' (h0 ▸ p'.isLt), hb, ← hp']

end Cert.LibBiasLeaky

end
-- ==== Proof.Spec.lean ====
/-
  One output row of a three-layer graph convolution with hoisted aggregation, over the extended reals.

  For a row of aggregated neighbours a (64 numbers), three weight matrices w l (64 by 64) and three bias rows b l, layer l's
  activation at column j is the leaky rectifier, slope the float 0.2, of (sum over k of a k * w l k j) + b l j. The output row
  has 256 entries: the row's own embedding in columns 0..63, then for l = 0, 1, 2 the activation row of layer l divided by
  the larger of its Euclidean length and the float 1e-12, in columns 64 (l + 1) .. 64 (l + 1) + 63. A row of the result
  depends on the same row of the embeddings and of the aggregates only, so a band of rows of the result is the result of that
  band of rows.
-/
import proofs.«171917_j27255862461048_2_alg».proof.Proof.LibBiasLeaky

noncomputable section

namespace Cert.Gcn

open Idealize.ShloMosaic Idealize.ShloMosaic.ValueIdx Cert.LibBiasLeaky

/-- Column 64 l + j of the three layers laid side by side. -/
def col (l : Fin 3) (j : Fin 64) : Fin 192 := ⟨64 * l.val + j.val, by omega⟩

/-- Layer activation of one row at column j: the leaky rectifier of (sum over k of a k * w k j) + b j. -/
def actRow (a : Fin 64 → EReal) (w : Fin 64 → Fin 64 → EReal) (b : Fin 64 → EReal) (j : Fin 64) : EReal :=
  leaky 0x3E4CCCCD#32 ((∑ k : Fin 64, a k * w k j) + b j)

/-- The Euclidean length of a row of 64, clamped below at the value of the float word of 1e-12. -/
def rowLen (s : Fin 64 → EReal) : EReal :=
  max (Ideal.sqrt (∑ j : Fin 64, s j * s j)) (Ideal.ofBits .f32 0x2B8CBCCC#32)

/-- The layer of a column q ≥ 64 of the output row. -/
def layerOf (q : Fin 256) : Fin 3 := ⟨q.val / 64 - 1, by have := q.isLt; omega⟩

/-- The column within its layer. -/
def within (q : Fin 256) : Fin 64 := ⟨q.val % 64, Nat.mod_lt _ (by norm_num)⟩

/-- One output row: the row's own embedding, then the three normalized activation rows. -/
def outRow (raw : Fin 64 → EReal) (s : Fin 3 → Fin 64 → EReal) (q : Fin 256) : EReal :=
  if h : q.val < 64 then raw ⟨q.val, h⟩ else Ideal.div (s (layerOf q) (within q)) (rowLen (s (layerOf q)))

/-- The whole result for M rows: embeddings X, aggregates A, weights W [3, 64, 64], biases b [3, 64]. -/
def result {M : ℕ} (X A : FVec Ideal ⟨2, ![M, 64]⟩ .f32) (W : FVec Ideal ⟨3, ![3, 64, 64]⟩ .f32)
    (b : FVec Ideal ⟨2, ![3, 64]⟩ .f32) : FVec Ideal ⟨2, ![M, 256]⟩ .f32 :=
  fun i => outRow (fun k => X (ix2 (n0 := M) (i 0) k))
    (fun l => actRow (fun k => A (ix2 (n0 := M) (i 0) k)) (fun k j => W (ix3 l k j)) (fun j => b (ix2 l j))) (i 1)

theorem result_apply {M : ℕ} (X A : FVec Ideal ⟨2, ![M, 64]⟩ .f32) (W : FVec Ideal ⟨3, ![3, 64, 64]⟩ .f32)
    (b : FVec Ideal ⟨2, ![3, 64]⟩ .f32) (p : Fin M) (q : Fin 256) :
    result X A W b (ix2 p q) = outRow (fun k => X (ix2 p k))
      (fun l => actRow (fun k => A (ix2 p k)) (fun k j => W (ix3 l k j)) (fun j => b (ix2 l j))) q := rfl

end Cert.Gcn

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.BlockValue.lean ====
/-
  What one grid point of the three-layer graph convolution writes into its output block, read at an index, over the
  extended reals.

  A grid point holds a block of 5000 rows: the rows' embeddings x0 and aggregates x1 (64 columns each), the three weight
  matrices side by side x2 (64 by 192) and the three bias rows side by side x3 (1 by 192). It forms the 5000 by 192
  activation block, entry (p, c) being the leaky rectifier, slope the float 0.2, of (sum over k of x1 (p, k) * x2 (k, c))
  + x3 (0, c); for each layer l it cuts columns 64 l .. 64 l + 63 out of that block and divides every row of the cut by the
  larger of the row's Euclidean length and the float 1e-12; and it writes the embeddings into columns 0..63 of the 5000 by
  256 output block and layer l's normalised cut into columns 64 (l + 1) .. 64 (l + 1) + 63. The four writes tile the output
  block, so the block at (p, q) is the output row of row p (Cert.Gcn.outRow) at column q. Both grid regions of the program
  run the same body, hence write the same function of their inputs.
-/
import proofs.«171917_j27255862461048_2_alg».proof.Proof.Gen.KernelIdeal.Frame
import proofs.«171917_j27255862461048_2_alg».proof.Proof.Spec
import proofs.«171917_j27255862461048_2_alg».proof.Proof.LibKeepdims
import proofs.«171917_j27255862461048_2_alg».proof.Proof.LibColumn

noncomputable section

namespace Cert.KernelIdeal.Block

open Idealize.ShloMosaic Idealize.ShloMosaic.ValueIdx Cert.KernelIdeal.Gen
open Cert.LibPlainDot Cert.LibBiasLeaky Cert.LibKeepdims Cert.LibColumn Cert.Gcn

/-- The select form of the leaky rectifier on a block, read at an index. -/
theorem leaky_select_apply {s : Shape} (slope : BitVec 32) (y : FVec Ideal s .f32) (i : s.Idx) :
    select (cmpf .oge y (broadcast s (Scalar.ofBits (F := Ideal) .f32 0x00000000#32))) y
      (mulf (broadcast s (Scalar.ofBits (F := Ideal) .f32 slope)) y) i = leaky slope (y i) := rfl

theorem act_apply (v1 : Vec Ideal S5000x64 .f32) (v4 : Vec Ideal S64x192 .bf16) (v6 : Vec Ideal S1x192 .f32)
    (p : Fin 5000) (c : Fin 192) :
    k0_pay2 v1 v4 v6 (ix2 p c)
      = leaky 0x3E4CCCCD#32 ((∑ k : Fin 64, v1 (ix2 p k) * v4 (ix2 k c)) + v6 (ix2 (0 : Fin 1) c)) := by
  unfold k0_pay2
  refine (leaky_select_apply _ _ _).trans (congrArg (leaky _) ?_)
  refine (addf_apply _ _ _).trans ?_
  rw [shapeCast_self, shapeCast_self, shapeCast_self]
  refine congrArg₂ (· + ·) ?_ (broadcastTo_1b_ab_apply v6 _ p c)
  refine (Ideal.matmul_constant_zero_apply (φ₁ := .bf16) (φ₂ := .bf16) _ none _ _ (ix2 p c)).trans ?_
  exact plain_sum dot_S5000x64_S64x192_S5000x192_1_0_0_1_n_n rfl rfl rfl rfl rfl rfl v1 v4 p c

/-- A block of 64-wide rows divided, row by row, by the larger of the row's Euclidean length and the float 1e-12: the
    squares summed along the row, the sums kept as a column, its square root clamped below and spread back over the row. -/
def normalize (w : FVec Ideal S5000x64 .f32) : FVec Ideal S5000x64 .f32 :=
  divf w (broadcastTo S5000x64 (maximumf (sqrt (shapeCast S5000x1
      (multiReduction .add [1] S5000 (mulf w w) 0x00000000#32 reduces_S5000x64_S5000 (.inl rfl) rfl) shapeCasts_S5000_S5000x1))
    (broadcast S5000x1 (Scalar.ofBits (F := Ideal) .f32 0x2B8CBCCC#32))) broadcasts_S5000x1_S5000x64)

theorem normalize_apply (w : FVec Ideal S5000x64 .f32) (p : Fin 5000) (q : Fin 64) :
    normalize w (ix2 p q) = Ideal.div (w (ix2 p q)) (rowLen (fun j => w (ix2 p j))) := by
  unfold normalize
  refine (divf_apply _ _ _).trans (congrArg (Ideal.div _) ?_)
  refine (broadcastTo_a1_ab_apply _ _ p q).trans ?_
  show max (Ideal.sqrt _) (Ideal.ofBits .f32 0x2B8CBCCC#32) = max (Ideal.sqrt _) (Ideal.ofBits .f32 0x2B8CBCCC#32)
  refine congrArg (fun t => max (Ideal.sqrt t) (Ideal.ofBits .f32 0x2B8CBCCC#32)) ?_
  refine (shapeCast_a_a1_apply _ _ p (0 : Fin 1)).trans ?_
  exact sum_last2_apply (mulf w w) _ _ _ _ p

theorem pay3_eq (v1 : Vec Ideal S5000x64 .f32) (v4 : Vec Ideal S64x192 .bf16) (v6 : Vec Ideal S1x192 .f32) :
    k0_pay3 v1 v4 v6 = normalize (extractStridedSlice S5000x64 ![0, 0] (k0_pay2 v1 v4 v6) slices_S5000x192_o0_0_S5000x64) := rfl

theorem pay4_eq (v1 : Vec Ideal S5000x64 .f32) (v4 : Vec Ideal S64x192 .bf16) (v6 : Vec Ideal S1x192 .f32) :
    k0_pay4 v1 v4 v6 = normalize (extractStridedSlice S5000x64 ![0, 64] (k0_pay2 v1 v4 v6) slices_S5000x192_o0_64_S5000x64) := rfl

theorem pay1_eq (v15 : FVec Ideal S5000x192 .f32) :
    k0_pay1 v15 = normalize (extractStridedSlice S5000x64 ![0, 128] v15 slices_S5000x192_o0_128_S5000x64) := rfl

/-- Layer l of the activation block, sliced out and normalised, read at (p, q). -/
theorem layer_apply (act : FVec Ideal S5000x192 .f32) (l : Fin 3) (h : S5000x192.Slices ![0, 64 * l.val] S5000x64)
    (p : Fin 5000) (q : Fin 64) :
    normalize (extractStridedSlice S5000x64 ![0, 64 * l.val] act h) (ix2 p q)
      = Ideal.div (act (ix2 p (col l q))) (rowLen (fun j => act (ix2 p (col l j)))) := by
  have hs : ∀ j : Fin 64, extractStridedSlice S5000x64 ![0, 64 * l.val] act h (ix2 p j) = act (ix2 p (col l j)) :=
    fun j => slice2_axis1_apply (64 * l.val) act h p j (col l j) rfl
  refine (normalize_apply _ p q).trans ?_
  exact congrArg₂ Ideal.div (hs q) (congrArg rowLen (funext hs))

/-- Row p's activation row of layer l. -/
abbrev acts (x1 : Vec Ideal S5000x64 .f32) (x2 : Vec Ideal S64x192 .bf16) (x3 : Vec Ideal S1x192 .f32) (p : Fin 5000)
    (l : Fin 3) : Fin 64 → EReal :=
  actRow (fun k => x1 (ix2 p k)) (fun k j => x2 (ix2 k (col l j))) (fun j => x3 (ix2 (0 : Fin 1) (col l j)))

theorem act_col (x1 : Vec Ideal S5000x64 .f32) (x2 : Vec Ideal S64x192 .bf16) (x3 : Vec Ideal S1x192 .f32) (p : Fin 5000)
    (l : Fin 3) (j : Fin 64) : k0_pay2 x1 x2 x3 (ix2 p (col l j)) = acts x1 x2 x3 p l j :=
  act_apply x1 x2 x3 p (col l j)

theorem layer_pay (x1 : Vec Ideal S5000x64 .f32) (x2 : Vec Ideal S64x192 .bf16) (x3 : Vec Ideal S1x192 .f32) (l : Fin 3)
    (h : S5000x192.Slices ![0, 64 * l.val] S5000x64) (p : Fin 5000) (q : Fin 64) :
    normalize (extractStridedSlice S5000x64 ![0, 64 * l.val] (k0_pay2 x1 x2 x3) h) (ix2 p q)
      = Ideal.div (acts x1 x2 x3 p l q) (rowLen (acts x1 x2 x3 p l)) := by
  refine (layer_apply _ l h p q).trans ?_
  exact congrArg₂ Ideal.div (act_col x1 x2 x3 p l q) (congrArg rowLen (funext fun j => act_col x1 x2 x3 p l j))

/-- The block one grid point writes, as a function of the block index. -/
def blockVal (x0 x1 : Vec Ideal S5000x64 .f32) (x2 : Vec Ideal S64x192 .bf16) (x3 : Vec Ideal S1x192 .f32) :
    Vec Ideal S5000x256 .f32 :=
  fun y => outRow (fun k => x0 (ix2 (n0 := 5000) (y 0) k)) (fun l => acts x1 x2 x3 (y 0) l) (y 1)

theorem blockVal_apply (x0 x1 : Vec Ideal S5000x64 .f32) (x2 : Vec Ideal S64x192 .bf16) (x3 : Vec Ideal S1x192 .f32)
    (p : Fin 5000) (q : Fin 256) :
    blockVal x0 x1 x2 x3 (ix2 p q) = outRow (fun k => x0 (ix2 p k)) (fun l => acts x1 x2 x3 p l) q := rfl

theorem blockVal_raw (x0 x1 : Vec Ideal S5000x64 .f32) (x2 : Vec Ideal S64x192 .bf16) (x3 : Vec Ideal S1x192 .f32)
    (p : Fin 5000) (b : Fin 64) (k : Fin 256) (hk : k.val = b.val) :
    blockVal x0 x1 x2 x3 (ix2 p k) = x0 (ix2 p b) := by
  rw [blockVal_apply]
  unfold outRow
  have hlt : k.val < 64 := by have := b.isLt; omega
  rw [dif_pos hlt]
  exact congrArg (fun t => x0 (ix2 p t)) (Fin.ext hk)

theorem blockVal_layer (x0 x1 : Vec Ideal S5000x64 .f32) (x2 : Vec Ideal S64x192 .bf16) (x3 : Vec Ideal S1x192 .f32)
    (p : Fin 5000) (l : Fin 3) (b : Fin 64) (k : Fin 256) (hk : k.val = 64 * (l.val + 1) + b.val) :
    blockVal x0 x1 x2 x3 (ix2 p k) = Ideal.div (acts x1 x2 x3 p l b) (rowLen (acts x1 x2 x3 p l)) := by
  rw [blockVal_apply]
  unfold outRow
  have hge : ¬ k.val < 64 := by omega
  have hl : layerOf k = l := Fin.ext (by show k.val / 64 - 1 = l.val; have := b.isLt; omega)
  have hw : within k = b := Fin.ext (by show k.val % 64 = b.val; have := b.isLt; omega)
  rw [dif_neg hge, hl, hw]

/-- Index (a, b) of the 64-column rectangle at column offset o of the block is the block's index (a, o + b). -/
theorem emb_col (o : ℕ) (inb : ∀ a, (![0, o] : Fin 2 → ℕ) a + S5000x64.size a ≤ S5000x256.size a) (a : Fin 5000) (b : Fin 64)
    (k : Fin 256) (hk : k.val = o + b.val) :
    (Rect.unit (s := S5000x256) ![0, o] S5000x64.size inb).emb (ix2 a b) = ix2 a k := by
  funext ax
  apply Fin.ext
  match ax with
  | ⟨0, _⟩ => show 0 + 1 * a.val = a.val; omega
  | ⟨1, _⟩ => show o + 1 * b.val = k.val; omega

theorem pay3_apply (x1 : Vec Ideal S5000x64 .f32) (x2 : Vec Ideal S64x192 .bf16) (x3 : Vec Ideal S1x192 .f32) (p : Fin 5000)
    (q : Fin 64) :
    k0_pay3 x1 x2 x3 (ix2 p q) = Ideal.div (acts x1 x2 x3 p 0 q) (rowLen (acts x1 x2 x3 p 0)) :=
  layer_pay x1 x2 x3 0 slices_S5000x192_o0_0_S5000x64 p q

theorem pay4_apply (x1 : Vec Ideal S5000x64 .f32) (x2 : Vec Ideal S64x192 .bf16) (x3 : Vec Ideal S1x192 .f32) (p : Fin 5000)
    (q : Fin 64) :
    k0_pay4 x1 x2 x3 (ix2 p q) = Ideal.div (acts x1 x2 x3 p 1 q) (rowLen (acts x1 x2 x3 p 1)) :=
  layer_pay x1 x2 x3 1 slices_S5000x192_o0_64_S5000x64 p q

theorem pay1_apply (x1 : Vec Ideal S5000x64 .f32) (x2 : Vec Ideal S64x192 .bf16) (x3 : Vec Ideal S1x192 .f32) (p : Fin 5000)
    (q : Fin 64) :
    k0_pay1 (k0_pay2 x1 x2 x3) (ix2 p q) = Ideal.div (acts x1 x2 x3 p 2 q) (rowLen (acts x1 x2 x3 p 2)) :=
  layer_pay x1 x2 x3 2 slices_S5000x192_o0_128_S5000x64 p q

theorem zero2 : (![0, 0] : Fin 2 → ℕ) = fun _ => 0 := by
  funext a; fin_cases a <;> rfl

/-- What one grid point leaves in its output block, read at (p, q): row p of the three-layer result. -/
theorem out0_4_apply (x0 x1 : Vec Ideal S5000x64 .f32) (x2 : Vec Ideal S64x192 .bf16) (x3 : Vec Ideal S1x192 .f32)
    (p : Fin 5000) (q : Fin 256) :
    out0_4 x0 x1 x2 x3 (ix2 p q)
      = outRow (fun k => x0 (ix2 p k))
          (fun l => actRow (fun k => x1 (ix2 p k)) (fun k j => x2 (ix2 k (col l j)))
            (fun j => x3 (ix2 (0 : Fin 1) (col l j)))) q := by
  unfold out0_4
  rw [View.ld_unit_zero zero2 _ x0, View.ld_unit_zero zero2 _ x1, View.ld_unit_zero zero2 _ x2,
    View.ld_unit_zero zero2 _ x3]
  refine (View.canon_apply_of_pieces (blockVal x0 x1 x2 x3) _ ?_ (ix2 p q) (cover0_4 _ _ _ _ _)).trans
    (blockVal_apply x0 x1 x2 x3 p q)
  refine List.forall_mem_cons.mpr ⟨?_, List.forall_mem_cons.mpr ⟨?_, List.forall_mem_cons.mpr ⟨?_,
    List.forall_mem_cons.mpr ⟨?_, fun _ h => absurd h List.not_mem_nil⟩⟩⟩⟩
  · intro x
    obtain ⟨a, b, rfl⟩ : ∃ (a : Fin 5000) (b : Fin 64), x = ix2 a b := ⟨x 0, x 1, eq_ix2 x⟩
    have hk : (⟨192 + b.val, by omega⟩ : Fin 256).val = 64 * ((2 : Fin 3).val + 1) + b.val := rfl
    exact (pay1_apply x1 x2 x3 a b).trans ((blockVal_layer x0 x1 x2 x3 a 2 b _ hk).symm.trans
      (congrArg (blockVal x0 x1 x2 x3) (emb_col 192 inb_S5000x256_S5000x64_0_192 a b _ rfl).symm))
  · intro x
    obtain ⟨a, b, rfl⟩ : ∃ (a : Fin 5000) (b : Fin 64), x = ix2 a b := ⟨x 0, x 1, eq_ix2 x⟩
    have hk : (⟨128 + b.val, by omega⟩ : Fin 256).val = 64 * ((1 : Fin 3).val + 1) + b.val := rfl
    exact (pay4_apply x1 x2 x3 a b).trans ((blockVal_layer x0 x1 x2 x3 a 1 b _ hk).symm.trans
      (congrArg (blockVal x0 x1 x2 x3) (emb_col 128 inb_S5000x256_S5000x64_0_128 a b _ rfl).symm))
  · intro x
    obtain ⟨a, b, rfl⟩ : ∃ (a : Fin 5000) (b : Fin 64), x = ix2 a b := ⟨x 0, x 1, eq_ix2 x⟩
    have hk : (⟨64 + b.val, by omega⟩ : Fin 256).val = 64 * ((0 : Fin 3).val + 1) + b.val := rfl
    exact (pay3_apply x1 x2 x3 a b).trans ((blockVal_layer x0 x1 x2 x3 a 0 b _ hk).symm.trans
      (congrArg (blockVal x0 x1 x2 x3) (emb_col 64 inb_S5000x256_S5000x64_0_64 a b _ rfl).symm))
  · intro x
    obtain ⟨a, b, rfl⟩ : ∃ (a : Fin 5000) (b : Fin 64), x = ix2 a b := ⟨x 0, x 1, eq_ix2 x⟩
    have hk : (⟨b.val, by omega⟩ : Fin 256).val = b.val := rfl
    exact (blockVal_raw x0 x1 x2 x3 a b _ hk).symm.trans
      (congrArg (blockVal x0 x1 x2 x3) (emb_col 0 inb_S5000x256_S5000x64_0_0 a b _ (Nat.zero_add _).symm).symm)

/-- Region 1's block is the same function of its inputs. -/
theorem out1_4_eq : @out1_4 Ideal _ = @out0_4 Ideal _ := rfl

theorem out1_4_apply (x0 x1 : Vec Ideal S5000x64 .f32) (x2 : Vec Ideal S64x192 .bf16) (x3 : Vec Ideal S1x192 .f32)
    (p : Fin 5000) (q : Fin 256) :
    out1_4 x0 x1 x2 x3 (ix2 p q)
      = outRow (fun k => x0 (ix2 p k))
          (fun l => actRow (fun k => x1 (ix2 p k)) (fun k j => x2 (ix2 k (col l j)))
            (fun j => x3 (ix2 (0 : Fin 1) (col l j)))) q := by
  rw [out1_4_eq]
  exact out0_4_apply x0 x1 x2 x3 p q

end Cert.KernelIdeal.Block

end
-- ==== Proof.KernelArrays.lean ====
/-
  The arrays the two kernel regions leave, as whole-array functions of the arrays they find.

  A region's grid point t stages rows 5000 t .. 5000 t + 4999 of the embedding array and of the aggregate array, the whole
  fused weight matrix and the whole bias row, and writes back rows 5000 t .. 5000 t + 4999 of the result. A row of the
  result depends on the same row of the two inputs only, so what point t writes is that band of rows of one function of
  the whole arrays; the bands of the grid's points tile the result, hence the result array ends holding that function.
-/
import proofs.«171917_j27255862461048_2_alg».proof.Proof.Gen.KernelIdeal.Frame
import proofs.«171917_j27255862461048_2_alg».proof.Proof.BlockValue

set_option maxRecDepth 16384

noncomputable section

namespace Cert.KernelIdeal.Arrays

open Cert.KernelIdeal Cert.KernelIdeal.Gen Cert.KernelIdeal.Block
open Idealize.ShloMosaic Idealize.ShloMosaic.ValueIdx Idealize.ShloMosaic.TcCoe
open Idealize.SL Idealize.SL.Sem
open Idealize.ShloMosaic.Pipeline (Dat Cfg Window cellOf)

/-- The result for M rows with the three layers' weights laid side by side (column 64 l + j of the fused matrix is column j
    of layer l) and the three bias rows laid end to end. -/
def fused {M : ℕ} (X A : FVec Ideal ⟨2, ![M, 64]⟩ .f32) (Wf : FVec Ideal ⟨2, ![64, 192]⟩ .bf16)
    (bf : FVec Ideal ⟨2, ![1, 192]⟩ .f32) : FVec Ideal ⟨2, ![M, 256]⟩ .f32 :=
  fun i => Cert.Gcn.outRow (fun k => X (ix2 (n0 := M) (i 0) k))
    (fun l => Cert.Gcn.actRow (fun k => A (ix2 (n0 := M) (i 0) k)) (fun k j => Wf (ix2 k (Cert.Gcn.col l j)))
      (fun j => bf (ix2 0 (Cert.Gcn.col l j)))) (i 1)

theorem fused_apply {M : ℕ} (X A : FVec Ideal ⟨2, ![M, 64]⟩ .f32) (Wf : FVec Ideal ⟨2, ![64, 192]⟩ .bf16)
    (bf : FVec Ideal ⟨2, ![1, 192]⟩ .f32) (r : Fin M) (q : Fin 256) :
    fused X A Wf bf (ix2 r q) = Cert.Gcn.outRow (fun k => X (ix2 r k))
      (fun l => Cert.Gcn.actRow (fun k => A (ix2 r k)) (fun k j => Wf (ix2 k (Cert.Gcn.col l j)))
        (fun j => bf (ix2 0 (Cert.Gcn.col l j)))) q := rfl

/-- A block whose rows are rows 5000 T + p of the inputs computes rows 5000 T + p of the whole-array function. -/
theorem block0_eq {M : ℕ} (X A : FVec Ideal ⟨2, ![M, 64]⟩ .f32) (Wf : FVec Ideal ⟨2, ![64, 192]⟩ .bf16)
    (bf : FVec Ideal ⟨2, ![1, 192]⟩ .f32)
    (x0 x1 : Vec Ideal S5000x64 .f32) (x2 : Vec Ideal S64x192 .bf16) (x3 : Vec Ideal S1x192 .f32) (T : ℕ)
    (h0 : ∀ (p : Fin 5000) (r : Fin M), r.val = 5000 * T + p.val → ∀ k : Fin 64, x0 (ix2 p k) = X (ix2 r k))
    (h1 : ∀ (p : Fin 5000) (r : Fin M), r.val = 5000 * T + p.val → ∀ k : Fin 64, x1 (ix2 p k) = A (ix2 r k))
    (h2 : ∀ (k : Fin 64) (cc : Fin 192), x2 (ix2 k cc) = Wf (ix2 k cc))
    (h3 : ∀ cc : Fin 192, x3 (ix2 0 cc) = bf (ix2 0 cc))
    (p : Fin 5000) (q : Fin 256) (r : Fin M) (hr : r.val = 5000 * T + p.val) :
    out0_4 x0 x1 x2 x3 (ix2 p q) = fused X A Wf bf (ix2 r q) := by
  rw [out0_4_apply, fused_apply]
  have e0 := h0 p r hr
  have e1 := h1 p r hr
  simp only [e0, e1, h2, h3]

theorem block1_eq {M : ℕ} (X A : FVec Ideal ⟨2, ![M, 64]⟩ .f32) (Wf : FVec Ideal ⟨2, ![64, 192]⟩ .bf16)
    (bf : FVec Ideal ⟨2, ![1, 192]⟩ .f32)
    (x0 x1 : Vec Ideal S5000x64 .f32) (x2 : Vec Ideal S64x192 .bf16) (x3 : Vec Ideal S1x192 .f32) (T : ℕ)
    (h0 : ∀ (p : Fin 5000) (r : Fin M), r.val = 5000 * T + p.val → ∀ k : Fin 64, x0 (ix2 p k) = X (ix2 r k))
    (h1 : ∀ (p : Fin 5000) (r : Fin M), r.val = 5000 * T + p.val → ∀ k : Fin 64, x1 (ix2 p k) = A (ix2 r k))
    (h2 : ∀ (k : Fin 64) (cc : Fin 192), x2 (ix2 k cc) = Wf (ix2 k cc))
    (h3 : ∀ cc : Fin 192, x3 (ix2 0 cc) = bf (ix2 0 cc))
    (p : Fin 5000) (q : Fin 256) (r : Fin M) (hr : r.val = 5000 * T + p.val) :
    out1_4 x0 x1 x2 x3 (ix2 p q) = fused X A Wf bf (ix2 r q) := by
  rw [out1_4_apply, fused_apply]
  have e0 := h0 p r hr
  have e1 := h1 p r hr
  simp only [e0, e1, h2, h3]

variable (V : (c : Dev nD) → (b : Ref sig .tc) → Buf (Elt Ideal) ((c : Thread nD τ).loc b))

/-! ## Region 0: the 100000 user rows, 20 bands -/

/-- The printed index maps over the grid: the row-banded windows are at block (t, 0), the weights and the bias at (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem N0 : cfg0.N = 20 := by decide

/-- What region 0's result array ends holding. -/
abbrev G0 (c : Dev nD) : Buf (Elt Ideal) ((c : Thread nD τ).loc main_v30) :=
  fused (M := 100000) (V c main_arg0) (V c main_v12) (V c main_v28) (V c main_v29)

theorem iblk0_0_apply (c : Dev nD) (t : Fin cfg0.N) (p : Fin 5000) (r : Fin 100000) (hr : r.val = 5000 * t.val + p.val)
    (k : Fin 64) :
    (iblk0 V c 0 t : Vec Ideal S5000x64 .f32) (ix2 p k) = (V c main_arg0 : S100000x64.Idx → Elt Ideal .f32) (ix2 r k) := by
  obtain ⟨e0, e1, -⟩ := idx0 t
  unfold iblk0
  rw [View.read_apply]
  show V c main_arg0 _ = V c main_arg0 _
  congr 1
  funext a; apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

theorem iblk0_1_apply (c : Dev nD) (t : Fin cfg0.N) (p : Fin 5000) (r : Fin 100000) (hr : r.val = 5000 * t.val + p.val)
    (k : Fin 64) :
    (iblk0 V c 1 t : Vec Ideal S5000x64 .f32) (ix2 p k) = (V c main_v12 : S100000x64.Idx → Elt Ideal .f32) (ix2 r k) := by
  obtain ⟨-, -, e0, e1, -⟩ := idx0 t
  unfold iblk0
  rw [View.read_apply]
  show V c main_v12 _ = V c main_v12 _
  congr 1
  funext a; apply Fin.ext
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

theorem iblk0_2_apply (c : Dev nD) (t : Fin cfg0.N) (k : Fin 64) (cc : Fin 192) :
    (iblk0 V c 2 t : Vec Ideal S64x192 .bf16) (ix2 k cc) = (V c main_v28 : S64x192.Idx → Elt Ideal .bf16) (ix2 k cc) := by
  obtain ⟨-, -, -, -, e0, e1, -⟩ := idx0 t
  unfold iblk0
  rw [View.read_apply]
  show V c main_v28 _ = V c main_v28 _
  congr 1
  funext a; apply Fin.ext
  match a with
  | ⟨0, _⟩ => show win0_2.index t (0 : Fin 2) * 64 + 1 * k.val = k.val; rw [e0]; omega
  | ⟨1, _⟩ => show win0_2.index t (1 : Fin 2) * 192 + 1 * cc.val = cc.val; rw [e1]; omega

theorem iblk0_3_apply (c : Dev nD) (t : Fin cfg0.N) (cc : Fin 192) :
    (iblk0 V c 3 t : Vec Ideal S1x192 .f32) (ix2 0 cc) = (V c main_v29 : S1x192.Idx → Elt Ideal .f32) (ix2 0 cc) := by
  obtain ⟨-, -, -, -, -, -, e0, e1, -⟩ := idx0 t
  unfold iblk0
  rw [View.read_apply]
  show V c main_v29 _ = V c main_v29 _
  congr 1
  funext a; apply Fin.ext
  match a with
  | ⟨0, _⟩ => show win0_3.index t (0 : Fin 2) * 1 + 1 * 0 = 0; rw [e0]
  | ⟨1, _⟩ => show win0_3.index t (1 : Fin 2) * 192 + 1 * cc.val = cc.val; rw [e1]; omega

/-- What point t writes back is band t of G0. -/
theorem flushed0 (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  obtain ⟨-, -, -, -, -, -, -, -, e0, e1⟩ := idx0 t
  have ht : t.val < 20 := lt_of_lt_of_eq t.isLt N0
  funext y
  have hy0 : ((y : S5000x256.Idx) 0).val < 5000 := ((y : S5000x256.Idx) 0).isLt
  have hemb : ((cfg0.win 4).blk t).view.emb y
      = (ix2 (n0 := 100000) (n1 := 256) ⟨5000 * t.val + ((y : S5000x256.Idx) 0).val, by omega⟩ ((y : S5000x256.Idx) 1)) := by
    funext a; apply Fin.ext
    match a with
    | ⟨0, _⟩ => show win0_4.index t (0 : Fin 2) * 5000 + 1 * ((y : S5000x256.Idx) 0).val = 5000 * t.val + ((y : S5000x256.Idx) 0).val; rw [e0]; omega
    | ⟨1, _⟩ => show win0_4.index t (1 : Fin 2) * 256 + 1 * ((y : S5000x256.Idx) 1).val = ((y : S5000x256.Idx) 1).val; rw [e1]; omega
  show out0_4 (iblk0 V c 0 t) (iblk0 V c 1 t) (iblk0 V c 2 t) (iblk0 V c 3 t) (y : S5000x256.Idx) = G0 V c (((cfg0.win 4).blk t).view.emb y)
  rw [hemb]
  have hb := block0_eq (M := 100000) (V c main_arg0) (V c main_v12) (V c main_v28) (V c main_v29)
    (iblk0 V c 0 t) (iblk0 V c 1 t) (iblk0 V c 2 t) (iblk0 V c 3 t) t.val
    (fun p r hr k => iblk0_0_apply V c t p r hr k) (fun p r hr k => iblk0_1_apply V c t p r hr k)
    (fun k cc => iblk0_2_apply V c t k cc) (fun cc => iblk0_3_apply V c t cc)
    ((y : S5000x256.Idx) 0) ((y : S5000x256.Idx) 1) ⟨5000 * t.val + ((y : S5000x256.Idx) 0).val, by omega⟩ rfl
  exact (congrArg (out0_4 (iblk0 V c 0 t) (iblk0 V c 1 t) (iblk0 V c 2 t) (iblk0 V c 3 t)) (eq_ix2 (y : S5000x256.Idx))).trans hb

/-- An index of the result is in point t's band iff each coordinate is in the band's range. -/
theorem mem_blk0 (t : Fin cfg0.N) (i : S100000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v30).slice (win0_4.rect t)).set ↔ _
  rw [View.set_slice_whole, Rect.mem_set_unit]
  exact Iff.rfl

/-- Row r lies in the band of point r / 5000. -/
theorem cover0 (i : S100000x256.Idx) :
    ∃ t : Fin cfg0.N, (cfg0.win 4).flush t = true ∧ i ∈ ((cfg0.win 4).blk t).view.set := by
  have hi0 : (i 0).val < 100000 := idx2_lt0 (n0 := 100000) (n1 := 256) i
  have hi1 : (i 1).val < 256 := (i 1).isLt
  have hN : (i 0).val / 5000 < cfg0.N := by rw [N0]; omega
  refine ⟨⟨(i 0).val / 5000, hN⟩, flush0_4 _, ?_⟩
  obtain ⟨-, -, -, -, -, -, -, -, e0, e1⟩ := idx0 ⟨(i 0).val / 5000, hN⟩
  rw [mem_blk0]
  intro a
  match a with
  | ⟨0, _⟩ =>
    show win0_4.index ⟨(i 0).val / 5000, hN⟩ (0 : Fin 2) * 5000 ≤ (i 0).val ∧ (i 0).val < win0_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hN⟩ (1 : Fin 2) * 256 ≤ (i 1).val ∧ (i 1).val < win0_4.index ⟨(i 0).val / 5000, hN⟩ (1 : Fin 2) * 256 + 256
    rw [e1]; omega

/-- Region 0's result array ends holding G0 of the arrays the region finds. -/
theorem final0 (c : Dev nD) : (dat0 V c).arrAt 4 cfg0.N = G0 V c :=
  (dat0 V c).arrAt_eq_of_cover 4 (G0 V c) (fun t _ => flushed0 V c t) cover0

/-! ## Region 1: the 50000 item rows, 10 bands -/

/-- The printed index maps over the grid: the row-banded windows are at block (t, 0), the weights and the bias at (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem N1 : cfg1.N = 10 := by decide

/-- What region 1's result array ends holding. -/
abbrev G1 (c : Dev nD) : Buf (Elt Ideal) ((c : Thread nD τ).loc main_v31) :=
  fused (M := 50000) (V c main_arg1) (V c main_v25) (V c main_v28) (V c main_v29)

theorem iblk1_0_apply (c : Dev nD) (t : Fin cfg1.N) (p : Fin 5000) (r : Fin 50000) (hr : r.val = 5000 * t.val + p.val)
    (k : Fin 64) :
    (iblk1 V c 0 t : Vec Ideal S5000x64 .f32) (ix2 p k) = (V c main_arg1 : S50000x64.Idx → Elt Ideal .f32) (ix2 r k) := by
  obtain ⟨e0, e1, -⟩ := idx1 t
  unfold iblk1
  rw [View.read_apply]
  show V c main_arg1 _ = V c main_arg1 _
  congr 1
  funext a; apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

theorem iblk1_1_apply (c : Dev nD) (t : Fin cfg1.N) (p : Fin 5000) (r : Fin 50000) (hr : r.val = 5000 * t.val + p.val)
    (k : Fin 64) :
    (iblk1 V c 1 t : Vec Ideal S5000x64 .f32) (ix2 p k) = (V c main_v25 : S50000x64.Idx → Elt Ideal .f32) (ix2 r k) := by
  obtain ⟨-, -, e0, e1, -⟩ := idx1 t
  unfold iblk1
  rw [View.read_apply]
  show V c main_v25 _ = V c main_v25 _
  congr 1
  funext a; apply Fin.ext
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

theorem iblk1_2_apply (c : Dev nD) (t : Fin cfg1.N) (k : Fin 64) (cc : Fin 192) :
    (iblk1 V c 2 t : Vec Ideal S64x192 .bf16) (ix2 k cc) = (V c main_v28 : S64x192.Idx → Elt Ideal .bf16) (ix2 k cc) := by
  obtain ⟨-, -, -, -, e0, e1, -⟩ := idx1 t
  unfold iblk1
  rw [View.read_apply]
  show V c main_v28 _ = V c main_v28 _
  congr 1
  funext a; apply Fin.ext
  match a with
  | ⟨0, _⟩ => show win1_2.index t (0 : Fin 2) * 64 + 1 * k.val = k.val; rw [e0]; omega
  | ⟨1, _⟩ => show win1_2.index t (1 : Fin 2) * 192 + 1 * cc.val = cc.val; rw [e1]; omega

theorem iblk1_3_apply (c : Dev nD) (t : Fin cfg1.N) (cc : Fin 192) :
    (iblk1 V c 3 t : Vec Ideal S1x192 .f32) (ix2 0 cc) = (V c main_v29 : S1x192.Idx → Elt Ideal .f32) (ix2 0 cc) := by
  obtain ⟨-, -, -, -, -, -, e0, e1, -⟩ := idx1 t
  unfold iblk1
  rw [View.read_apply]
  show V c main_v29 _ = V c main_v29 _
  congr 1
  funext a; apply Fin.ext
  match a with
  | ⟨0, _⟩ => show win1_3.index t (0 : Fin 2) * 1 + 1 * 0 = 0; rw [e0]
  | ⟨1, _⟩ => show win1_3.index t (1 : Fin 2) * 192 + 1 * cc.val = cc.val; rw [e1]; omega

/-- What point t writes back is band t of G1. -/
theorem flushed1 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  obtain ⟨-, -, -, -, -, -, -, -, e0, e1⟩ := idx1 t
  have ht : t.val < 10 := lt_of_lt_of_eq t.isLt N1
  funext y
  have hy0 : ((y : S5000x256.Idx) 0).val < 5000 := ((y : S5000x256.Idx) 0).isLt
  have hemb : ((cfg1.win 4).blk t).view.emb y
      = (ix2 (n0 := 50000) (n1 := 256) ⟨5000 * t.val + ((y : S5000x256.Idx) 0).val, by omega⟩ ((y : S5000x256.Idx) 1)) := by
    funext a; apply Fin.ext
    match a with
    | ⟨0, _⟩ => show win1_4.index t (0 : Fin 2) * 5000 + 1 * ((y : S5000x256.Idx) 0).val = 5000 * t.val + ((y : S5000x256.Idx) 0).val; rw [e0]; omega
    | ⟨1, _⟩ => show win1_4.index t (1 : Fin 2) * 256 + 1 * ((y : S5000x256.Idx) 1).val = ((y : S5000x256.Idx) 1).val; rw [e1]; omega
  show out1_4 (iblk1 V c 0 t) (iblk1 V c 1 t) (iblk1 V c 2 t) (iblk1 V c 3 t) (y : S5000x256.Idx) = G1 V c (((cfg1.win 4).blk t).view.emb y)
  rw [hemb]
  have hb := block1_eq (M := 50000) (V c main_arg1) (V c main_v25) (V c main_v28) (V c main_v29)
    (iblk1 V c 0 t) (iblk1 V c 1 t) (iblk1 V c 2 t) (iblk1 V c 3 t) t.val
    (fun p r hr k => iblk1_0_apply V c t p r hr k) (fun p r hr k => iblk1_1_apply V c t p r hr k)
    (fun k cc => iblk1_2_apply V c t k cc) (fun cc => iblk1_3_apply V c t cc)
    ((y : S5000x256.Idx) 0) ((y : S5000x256.Idx) 1) ⟨5000 * t.val + ((y : S5000x256.Idx) 0).val, by omega⟩ rfl
  exact (congrArg (out1_4 (iblk1 V c 0 t) (iblk1 V c 1 t) (iblk1 V c 2 t) (iblk1 V c 3 t)) (eq_ix2 (y : S5000x256.Idx))).trans hb

/-- An index of the result is in point t's band iff each coordinate is in the band's range. -/
theorem mem_blk1 (t : Fin cfg1.N) (i : S50000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v31).slice (win1_4.rect t)).set ↔ _
  rw [View.set_slice_whole, Rect.mem_set_unit]
  exact Iff.rfl

/-- Row r lies in the band of point r / 5000. -/
theorem cover1 (i : S50000x256.Idx) :
    ∃ t : Fin cfg1.N, (cfg1.win 4).flush t = true ∧ i ∈ ((cfg1.win 4).blk t).view.set := by
  have hi0 : (i 0).val < 50000 := idx2_lt0 (n0 := 50000) (n1 := 256) i
  have hi1 : (i 1).val < 256 := (i 1).isLt
  have hN : (i 0).val / 5000 < cfg1.N := by rw [N1]; omega
  refine ⟨⟨(i 0).val / 5000, hN⟩, flush1_4 _, ?_⟩
  obtain ⟨-, -, -, -, -, -, -, -, e0, e1⟩ := idx1 ⟨(i 0).val / 5000, hN⟩
  rw [mem_blk1]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hN⟩ (1 : Fin 2) * 256 ≤ (i 1).val ∧ (i 1).val < win1_4.index ⟨(i 0).val / 5000, hN⟩ (1 : Fin 2) * 256 + 256
    rw [e1]; omega

/-- Region 1's result array ends holding G1 of the arrays the region finds. -/
theorem final1 (c : Dev nD) : (dat1 V c).arrAt 4 cfg1.N = G1 V c :=
  (dat1 V c).arrAt_eq_of_cover 4 (G1 V c) (fun t _ => flushed1 V c t) cover1

end Cert.KernelIdeal.Arrays

end
-- ==== Proof.HostDefs.lean ====
/-
  The host side of the idealized kernel program, as five pure functions of the argument contents.

  Around its two kernel regions the program runs straight lines of host operations. Before the regions: two segment sums
  (the edge values broadcast along the feature axis, negative node indices wrapped by the node count, the source rows
  gathered, multiplied by the edge values and scatter-added into zeros), one per side of the bipartite graph; the three
  weight matrices laid side by side (the transpose [1, 0, 2] of [3, 64, 64], read row-major as [64, 192], then narrowed);
  the three bias rows laid side by side ([3, 64] read row-major as [1, 192]). After the regions: three row gathers from the
  two region results, the two rows' inner products, their difference through the logarithm of the logistic function, its
  mean, and a squared-length penalty: the loss, a scalar.

  Each function is the program's own operations, in the program's order, one line each, so that any program running the
  same operations under other buffer names computes the same function by unfolding.
-/
import proofs.«171917_j27255862461048_2_alg».proof.Proof.Gen.KernelIdeal

noncomputable section

namespace Cert.KernelIdeal.Parts

open Idealize.ShloMosaic
open Cert.KernelIdeal Cert.KernelIdeal.Gen

variable {F : FTy → Type} [FloatOps F]

/-! ## The operations before the regions, as functions of the arguments -/

/-- The segment sum onto the 100000 rows: edge values `a2` broadcast along the features, the source indices `a6` wrapped
    by 50000 where negative, the rows of `a1` gathered at them, the product scatter-added into zeros at the rows `a5`. -/
def aggU (a1 : (⟨S50000x64, .f32⟩ : BufTy).Contents (Elt F)) (a2 : (⟨S2000000, .f32⟩ : BufTy).Contents (Elt F))
    (a5 a6 : (⟨S2000000, .i32⟩ : BufTy).Contents (Elt F)) : (⟨S100000x64, .f32⟩ : BufTy).Contents (Elt F) :=
  have v0 : (⟨S2000000x1, .f32⟩ : BufTy).Contents (Elt F) := broadcastInDim S2000000x1 ![0] bcast_S2000000_S2000000x1_0 a2
  have c : (⟨S_, .i32⟩ : BufTy).Contents (Elt F) := constantI S_ 32 0#32
  have v1 : (⟨S2000000, .i32⟩ : BufTy).Contents (Elt F) := broadcastInDim S2000000 ![] bcast_S_S2000000 c
  have v2 : (⟨S2000000, .i1⟩ : BufTy).Contents (Elt F) := cmpi .slt a6 v1
  have c_0 : (⟨S_, .i32⟩ : BufTy).Contents (Elt F) := constantI S_ 32 50000#32
  have v3 : (⟨S2000000, .i32⟩ : BufTy).Contents (Elt F) := broadcastInDim S2000000 ![] bcast_S_S2000000 c_0
  have v4 : (⟨S2000000, .i32⟩ : BufTy).Contents (Elt F) := addi a6 v3
  have v5 : (⟨S2000000, .i32⟩ : BufTy).Contents (Elt F) := select v2 v4 a6
  have v6 : (⟨S2000000x1, .i32⟩ : BufTy).Contents (Elt F) := broadcastInDim S2000000x1 ![0] bcast_S2000000_S2000000x1_0 v5
  have v7 : (⟨S2000000x64, .f32⟩ : BufTy).Contents (Elt F) := Host.gather gather_S50000x64_S2000000x1_S2000000x64_1_0_n_n_0_1_164 a1 v6
  have v8 : (⟨S2000000x64, .f32⟩ : BufTy).Contents (Elt F) := broadcastInDim S2000000x64 ![0, 1] bcast_S2000000x1_S2000000x64_0_1 v0
  have v9 : (⟨S2000000x64, .f32⟩ : BufTy).Contents (Elt F) := mulf v8 v7
  have cst : (⟨S_, .f32⟩ : BufTy).Contents (Elt F) := constant (F := F) S_ .f32 0x00000000#32
  have v10 : (⟨S100000x64, .f32⟩ : BufTy).Contents (Elt F) := broadcastInDim S100000x64 ![] bcast_S_S100000x64 cst
  have v11 : (⟨S2000000x1, .i32⟩ : BufTy).Contents (Elt F) := broadcastInDim S2000000x1 ![0] bcast_S2000000_S2000000x1_0 a5
  Host.scatterAdd scatter_S100000x64_S2000000x1_S2000000x64_1_0_0_1 v10 v11 v9

/-- The segment sum onto the 50000 rows: the same with the two index arrays exchanged: the source indices `a5` wrapped by
    100000 where negative, the rows of `a0` gathered at them, the product scatter-added into zeros at the rows `a6`. -/
def aggI (a0 : (⟨S100000x64, .f32⟩ : BufTy).Contents (Elt F)) (a2 : (⟨S2000000, .f32⟩ : BufTy).Contents (Elt F))
    (a5 a6 : (⟨S2000000, .i32⟩ : BufTy).Contents (Elt F)) : (⟨S50000x64, .f32⟩ : BufTy).Contents (Elt F) :=
  have v13 : (⟨S2000000x1, .f32⟩ : BufTy).Contents (Elt F) := broadcastInDim S2000000x1 ![0] bcast_S2000000_S2000000x1_0 a2
  have c_1 : (⟨S_, .i32⟩ : BufTy).Contents (Elt F) := constantI S_ 32 0#32
  have v14 : (⟨S2000000, .i32⟩ : BufTy).Contents (Elt F) := broadcastInDim S2000000 ![] bcast_S_S2000000 c_1
  have v15 : (⟨S2000000, .i1⟩ : BufTy).Contents (Elt F) := cmpi .slt a5 v14
  have c_2 : (⟨S_, .i32⟩ : BufTy).Contents (Elt F) := constantI S_ 32 100000#32
  have v16 : (⟨S2000000, .i32⟩ : BufTy).Contents (Elt F) := broadcastInDim S2000000 ![] bcast_S_S2000000 c_2
  have v17 : (⟨S2000000, .i32⟩ : BufTy).Contents (Elt F) := addi a5 v16
  have v18 : (⟨S2000000, .i32⟩ : BufTy).Contents (Elt F) := select v15 v17 a5
  have v19 : (⟨S2000000x1, .i32⟩ : BufTy).Contents (Elt F) := broadcastInDim S2000000x1 ![0] bcast_S2000000_S2000000x1_0 v18
  have v20 : (⟨S2000000x64, .f32⟩ : BufTy).Contents (Elt F) := Host.gather gather_S100000x64_S2000000x1_S2000000x64_1_0_n_n_0_1_164 a0 v19
  have v21 : (⟨S2000000x64, .f32⟩ : BufTy).Contents (Elt F) := broadcastInDim S2000000x64 ![0, 1] bcast_S2000000x1_S2000000x64_0_1 v13
  have v22 : (⟨S2000000x64, .f32⟩ : BufTy).Contents (Elt F) := mulf v21 v20
  have cst_3 : (⟨S_, .f32⟩ : BufTy).Contents (Elt F) := constant (F := F) S_ .f32 0x00000000#32
  have v23 : (⟨S50000x64, .f32⟩ : BufTy).Contents (Elt F) := broadcastInDim S50000x64 ![] bcast_S_S50000x64 cst_3
  have v24 : (⟨S2000000x1, .i32⟩ : BufTy).Contents (Elt F) := broadcastInDim S2000000x1 ![0] bcast_S2000000_S2000000x1_0 a6
  Host.scatterAdd scatter_S50000x64_S2000000x1_S2000000x64_1_0_0_1 v23 v24 v22

/-- The three weight matrices side by side: axes (l, k, j) exchanged to (k, l, j), read row-major as 64 rows of 192, narrowed. -/
def fuseW (a3 : (⟨S3x64x64, .f32⟩ : BufTy).Contents (Elt F)) : (⟨S64x192, .bf16⟩ : BufTy).Contents (Elt F) :=
  have v26 : (⟨S64x3x64, .f32⟩ : BufTy).Contents (Elt F) := transpose S64x3x64 [1, 0, 2] a3 transposes_S3x64x64_S64x3x64_1_0_2
  have v27 : (⟨S64x192, .f32⟩ : BufTy).Contents (Elt F) := shapeCast S64x192 v26 shapeCasts_S64x3x64_S64x192
  truncf .bf16 v27 bitsLt_bf16_f32

/-- The three bias rows side by side: [3, 64] read row-major as one row of 192. -/
def fuseB (a4 : (⟨S3x64, .f32⟩ : BufTy).Contents (Elt F)) : (⟨S1x192, .f32⟩ : BufTy).Contents (Elt F) :=
  shapeCast S1x192 a4 shapeCasts_S3x64_S1x192

/-! ## The operations after the regions, as one function of the two region results and the three index arrays -/

/-- The loss. Rows of the two region results gathered at the three index arrays (negative indices wrapped by the row count):
    `v38` from `U` at `a7`, `v45` and `v52` from `I` at `a8` and `a9`. Per sample, the difference `v57` of the inner
    products of `v38` with `v45` and with `v52`; the logarithm of the logistic function of it, written out as the
    program inlines it (minus the sum of the larger of `-x` and 0 and `log1p (exp (-|-x|))`, with `-x` itself where `-x`
    is not equal to itself); minus the mean of those over the 4096 samples; plus the sum of the three squared lengths halved,
    times a constant, over 4096. -/
def tailLoss (U : (⟨S100000x256, .f32⟩ : BufTy).Contents (Elt F)) (I : (⟨S50000x256, .f32⟩ : BufTy).Contents (Elt F))
    (a7 a8 a9 : (⟨S4096, .i32⟩ : BufTy).Contents (Elt F)) : (⟨S_, .f32⟩ : BufTy).Contents (Elt F) :=
  have c_4 : (⟨S_, .i32⟩ : BufTy).Contents (Elt F) := constantI S_ 32 0#32
  have v32 : (⟨S4096, .i32⟩ : BufTy).Contents (Elt F) := broadcastInDim S4096 ![] bcast_S_S4096 c_4
  have v33 : (⟨S4096, .i1⟩ : BufTy).Contents (Elt F) := cmpi .slt a7 v32
  have c_5 : (⟨S_, .i32⟩ : BufTy).Contents (Elt F) := constantI S_ 32 100000#32
  have v34 : (⟨S4096, .i32⟩ : BufTy).Contents (Elt F) := broadcastInDim S4096 ![] bcast_S_S4096 c_5
  have v35 : (⟨S4096, .i32⟩ : BufTy).Contents (Elt F) := addi a7 v34
  have v36 : (⟨S4096, .i32⟩ : BufTy).Contents (Elt F) := select v33 v35 a7
  have v37 : (⟨S4096x1, .i32⟩ : BufTy).Contents (Elt F) := broadcastInDim S4096x1 ![0] bcast_S4096_S4096x1_0 v36
  have v38 : (⟨S4096x256, .f32⟩ : BufTy).Contents (Elt F) := Host.gather gather_S100000x256_S4096x1_S4096x256_1_0_n_n_0_1_1256 U v37
  have c_6 : (⟨S_, .i32⟩ : BufTy).Contents (Elt F) := constantI S_ 32 0#32
  have v39 : (⟨S4096, .i32⟩ : BufTy).Contents (Elt F) := broadcastInDim S4096 ![] bcast_S_S4096 c_6
  have v40 : (⟨S4096, .i1⟩ : BufTy).Contents (Elt F) := cmpi .slt a8 v39
  have c_7 : (⟨S_, .i32⟩ : BufTy).Contents (Elt F) := constantI S_ 32 50000#32
  have v41 : (⟨S4096, .i32⟩ : BufTy).Contents (Elt F) := broadcastInDim S4096 ![] bcast_S_S4096 c_7
  have v42 : (⟨S4096, .i32⟩ : BufTy).Contents (Elt F) := addi a8 v41
  have v43 : (⟨S4096, .i32⟩ : BufTy).Contents (Elt F) := select v40 v42 a8
  have v44 : (⟨S4096x1, .i32⟩ : BufTy).Contents (Elt F) := broadcastInDim S4096x1 ![0] bcast_S4096_S4096x1_0 v43
  have v45 : (⟨S4096x256, .f32⟩ : BufTy).Contents (Elt F) := Host.gather gather_S50000x256_S4096x1_S4096x256_1_0_n_n_0_1_1256 I v44
  have c_8 : (⟨S_, .i32⟩ : BufTy).Contents (Elt F) := constantI S_ 32 0#32
  have v46 : (⟨S4096, .i32⟩ : BufTy).Contents (Elt F) := broadcastInDim S4096 ![] bcast_S_S4096 c_8
  have v47 : (⟨S4096, .i1⟩ : BufTy).Contents (Elt F) := cmpi .slt a9 v46
  have c_9 : (⟨S_, .i32⟩ : BufTy).Contents (Elt F) := constantI S_ 32 50000#32
  have v48 : (⟨S4096, .i32⟩ : BufTy).Contents (Elt F) := broadcastInDim S4096 ![] bcast_S_S4096 c_9
  have v49 : (⟨S4096, .i32⟩ : BufTy).Contents (Elt F) := addi a9 v48
  have v50 : (⟨S4096, .i32⟩ : BufTy).Contents (Elt F) := select v47 v49 a9
  have v51 : (⟨S4096x1, .i32⟩ : BufTy).Contents (Elt F) := broadcastInDim S4096x1 ![0] bcast_S4096_S4096x1_0 v50
  have v52 : (⟨S4096x256, .f32⟩ : BufTy).Contents (Elt F) := Host.gather gather_S50000x256_S4096x1_S4096x256_1_0_n_n_0_1_1256 I v51
  have v53 : (⟨S4096x256, .f32⟩ : BufTy).Contents (Elt F) := mulf v38 v45
  have cst_10 : (⟨S_, .f32⟩ : BufTy).Contents (Elt F) := constant (F := F) S_ .f32 0x00000000#32
  have v54 : (⟨S4096, .f32⟩ : BufTy).Contents (Elt F) := Host.reduceAdd v53 cst_10 reducesTo_S4096x256_S4096_d1 h_S_
  have v55 : (⟨S4096x256, .f32⟩ : BufTy).Contents (Elt F) := mulf v38 v52
  have cst_11 : (⟨S_, .f32⟩ : BufTy).Contents (Elt F) := constant (F := F) S_ .f32 0x00000000#32
  have v56 : (⟨S4096, .f32⟩ : BufTy).Contents (Elt F) := Host.reduceAdd v55 cst_11 reducesTo_S4096x256_S4096_d1 h_S_
  have v57 : (⟨S4096, .f32⟩ : BufTy).Contents (Elt F) := subf v54 v56
  have call0_v0 : (⟨S4096, .f32⟩ : BufTy).Contents (Elt F) := Host.negf v57
  have call0_call0_cst : (⟨S_, .f32⟩ : BufTy).Contents (Elt F) := constant (F := F) S_ .f32 0x00000000#32
  have call0_call0_v0 : (⟨S4096, .f32⟩ : BufTy).Contents (Elt F) := broadcastInDim S4096 ![] bcast_S_S4096 call0_call0_cst
  have call0_call0_v1 : (⟨S4096, .f32⟩ : BufTy).Contents (Elt F) := maximumf call0_v0 call0_call0_v0
  have call0_call0_v2 : (⟨S4096, .f32⟩ : BufTy).Contents (Elt F) := broadcastInDim S4096 ![] bcast_S_S4096 call0_call0_cst
  have call0_call0_v3 : (⟨S4096, .f32⟩ : BufTy).Contents (Elt F) := subf call0_v0 call0_call0_v2
  have call0_call0_v4 : (⟨S4096, .i1⟩ : BufTy).Contents (Elt F) := cmpf .une call0_call0_v3 call0_call0_v3
  have call0_call0_v5 : (⟨S4096, .f32⟩ : BufTy).Contents (Elt F) := broadcastInDim S4096 ![] bcast_S_S4096 call0_call0_cst
  have call0_call0_v6 : (⟨S4096, .f32⟩ : BufTy).Contents (Elt F) := addf call0_v0 call0_call0_v5
  have call0_call0_v7 : (⟨S4096, .f32⟩ : BufTy).Contents (Elt F) := Host.absf call0_call0_v3
  have call0_call0_v8 : (⟨S4096, .f32⟩ : BufTy).Contents (Elt F) := Host.negf call0_call0_v7
  have call0_call0_v9 : (⟨S4096, .f32⟩ : BufTy).Contents (Elt F) := Host.exp call0_call0_v8
  have call0_call0_v10 : (⟨S4096, .f32⟩ : BufTy).Contents (Elt F) := Host.log1p call0_call0_v9
  have call0_call0_v11 : (⟨S4096, .f32⟩ : BufTy).Contents (Elt F) := addf call0_call0_v1 call0_call0_v10
  have call0_v1 : (⟨S4096, .f32⟩ : BufTy).Contents (Elt F) := select call0_call0_v4 call0_call0_v6 call0_call0_v11
  have v58 : (⟨S4096, .f32⟩ : BufTy).Contents (Elt F) := Host.negf call0_v1
  have cst_12 : (⟨S_, .f32⟩ : BufTy).Contents (Elt F) := constant (F := F) S_ .f32 0x00000000#32
  have v59 : (⟨S_, .f32⟩ : BufTy).Contents (Elt F) := Host.reduceAdd v58 cst_12 reducesTo_S4096_S_d0 h_S_
  have cst_13 : (⟨S_, .f32⟩ : BufTy).Contents (Elt F) := constant (F := F) S_ .f32 0x45800000#32
  have v60 : (⟨S_, .f32⟩ : BufTy).Contents (Elt F) := Host.divf v59 cst_13
  have v61 : (⟨S_, .f32⟩ : BufTy).Contents (Elt F) := Host.negf v60
  have v62 : (⟨S4096x256, .f32⟩ : BufTy).Contents (Elt F) := mulf v38 v38
  have cst_14 : (⟨S_, .f32⟩ : BufTy).Contents (Elt F) := constant (F := F) S_ .f32 0x00000000#32
  have v63 : (⟨S_, .f32⟩ : BufTy).Contents (Elt F) := Host.reduceAdd v62 cst_14 reducesTo_S4096x256_S_d0_1 h_S_
  have v64 : (⟨S4096x256, .f32⟩ : BufTy).Contents (Elt F) := mulf v45 v45
  have cst_15 : (⟨S_, .f32⟩ : BufTy).Contents (Elt F) := constant (F := F) S_ .f32 0x00000000#32
  have v65 : (⟨S_, .f32⟩ : BufTy).Contents (Elt F) := Host.reduceAdd v64 cst_15 reducesTo_S4096x256_S_d0_1 h_S_
  have v66 : (⟨S_, .f32⟩ : BufTy).Contents (Elt F) := addf v63 v65
  have v67 : (⟨S4096x256, .f32⟩ : BufTy).Contents (Elt F) := mulf v52 v52
  have cst_16 : (⟨S_, .f32⟩ : BufTy).Contents (Elt F) := constant (F := F) S_ .f32 0x00000000#32
  have v68 : (⟨S_, .f32⟩ : BufTy).Contents (Elt F) := Host.reduceAdd v67 cst_16 reducesTo_S4096x256_S_d0_1 h_S_
  have v69 : (⟨S_, .f32⟩ : BufTy).Contents (Elt F) := addf v66 v68
  have cst_17 : (⟨S_, .f32⟩ : BufTy).Contents (Elt F) := constant (F := F) S_ .f32 0x40000000#32
  have v70 : (⟨S_, .f32⟩ : BufTy).Contents (Elt F) := Host.divf v69 cst_17
  have cst_18 : (⟨S_, .f32⟩ : BufTy).Contents (Elt F) := constant (F := F) S_ .f32 0x38D1B717#32
  have v71 : (⟨S_, .f32⟩ : BufTy).Contents (Elt F) := mulf cst_18 v70
  have cst_19 : (⟨S_, .f32⟩ : BufTy).Contents (Elt F) := constant (F := F) S_ .f32 0x45800000#32
  have v72 : (⟨S_, .f32⟩ : BufTy).Contents (Elt F) := Host.divf v71 cst_19
  addf v61 v72

end Cert.KernelIdeal.Parts

end
-- ==== Proof.LibWriteOnce.lean ====
/-
  A straight line of host operations in which every buffer is written at most once.

  When each operation of a list writes exactly one buffer, no buffer is written by two of them, and every operand of an
  operation is either never written or written earlier in the list, the fold of the operations' results over any starting
  contents is a fixed point at every written buffer: what the line leaves in an operation's result buffer is the operation's
  function of what the line leaves in its operands' buffers, and a buffer the line never writes holds what it held. Stated
  per kind of operation (no operand, one, two, n, three, four), with the side conditions `reference ∉ the buffers written from
  position k on`, which are decided on literal lists. This reads a long straight-line program one operation at a time, with
  no term ever holding the whole composition.
-/
import Idealize.ShloMosaic.Lib.StableHlo.Run

noncomputable section

/-! ## A straight line of operations in which every buffer is written at most once

Every operation of the reference's @main writes one buffer, no buffer is written twice, and every operand is written before
it is read. Then what the line leaves in an operation's result buffer is the operation's function of what the line leaves in
its operands' buffers, and a buffer the line never writes holds what it held. -/

namespace Cert.RefSSA

open Idealize.ShloMosaic Idealize.ShloMosaic.StableHlo

variable {τ : Topo} {sig : RefSig} {Val : EltTy → Type}

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Position by position, the operation writes exactly the listed reference. -/
abbrev Writes (l : List (HloOp τ sig Val)) (wl : List (Ref sig .tc)) : Prop :=
  List.Forall₂ (fun op r => op.writes = {Proc.devRef (τ := τ) .tc r}) l wl

theorem writes_mem {l : List (HloOp τ sig Val)} {wl : List (Ref sig .tc)} (h : Writes l wl) {op : HloOp τ sig Val} (hop : op ∈ l) :
    ∃ r ∈ wl, op.writes = {Proc.devRef (τ := τ) .tc r} := by
  induction h with
  | nil => cases hop
  | @cons o r l' wl' hw _ ih =>
    rcases List.mem_cons.mp hop with rfl | hop
    · exact ⟨r, List.mem_cons.mpr (Or.inl rfl), hw⟩
    · obtain ⟨r', hr', e⟩ := ih hop
      exact ⟨r', List.mem_cons.mpr (Or.inr hr'), e⟩

/-- A reference that is not listed keeps its contents. -/
theorem after_keep {l : List (HloOp τ sig Val)} {wl : List (Ref sig .tc)} (h : Writes l wl) {r : Ref sig .tc} (hr : r ∉ wl)
    (V : Valuation τ sig Val) : after l V (Proc.devRef .tc r) = V (Proc.devRef .tc r) := by
  refine after_of_forall_not_mem l V fun op hop hb => ?_
  obtain ⟨r', hr', e⟩ := writes_mem h hop
  rw [e, Finset.mem_singleton] at hb
  exact hr (by rw [Proc.devRef_injective _ hb]; exact hr')

theorem after_take_drop (l : List (HloOp τ sig Val)) (k : ℕ) (V : Valuation τ sig Val) :
    after l V = after (l.drop k) (after (l.take k) V) := by
  rw [← after_app, List.take_append_drop]

theorem after_at {l : List (HloOp τ sig Val)} {k : ℕ} {op : HloOp τ sig Val} (hop : l[k]? = some op) (V : Valuation τ sig Val) :
    after l V = after (l.drop (k + 1)) (op.result (after (l.take k) V)) := by
  obtain ⟨hk, e⟩ := List.getElem?_eq_some_iff.mp hop
  rw [after_take_drop l k V, List.drop_eq_getElem_cons hk, e, after_cons]

section
variable {l : List (HloOp τ sig Val)} {wl : List (Ref sig .tc)} (h : Writes l wl) (V : Valuation τ sig Val) (k : ℕ)
include h

/-- An operand not written from position k on holds, at the end, what it held before position k. -/
theorem operand_eq {a : Ref sig .tc} (ha : a ∉ wl.drop k) :
    after l V (Proc.devRef .tc a) = after (l.take k) V (Proc.devRef .tc a) := by
  rw [after_take_drop l k V]
  exact after_keep (List.forall₂_drop k h) ha _

/-- The result of the operation at position k, not written afterwards, holds at the end what that operation left. -/
theorem result_eq {op : HloOp τ sig Val} (hop : l[k]? = some op) {y : Ref sig .tc} (hy : y ∉ wl.drop (k + 1)) :
    after l V (Proc.devRef .tc y) = op.result (after (l.take k) V) (Proc.devRef .tc y) := by
  rw [after_at hop V]
  exact after_keep (List.forall₂_drop (k + 1) h) hy _

theorem ssa_nullary {y : Ref sig .tc} {v : y.ty.Contents Val} {hy}
    (hop : l[k]? = some (nullary y v hy)) (hy' : y ∉ wl.drop (k + 1)) :
    after l V (Proc.devRef .tc y) = v := by
  rw [result_eq h V k hop hy', nullary_result]

theorem ssa_unary {x y : Ref sig .tc} {f : x.ty.Contents Val → y.ty.Contents Val} {hx hy}
    (hop : l[k]? = some (unary x y f hx hy)) (hy' : y ∉ wl.drop (k + 1)) (hx' : x ∉ wl.drop k)
    (vx : x.ty.Contents Val) (ex : after l V (Proc.devRef .tc x) = vx) :
    after l V (Proc.devRef .tc y) = f vx := by
  rw [result_eq h V k hop hy', unary_result, ← operand_eq h V k hx', ex]

theorem ssa_binary {a b y : Ref sig .tc} {f : a.ty.Contents Val → b.ty.Contents Val → y.ty.Contents Val} {ha hb hy}
    (hop : l[k]? = some (binary a b y f ha hb hy)) (hy' : y ∉ wl.drop (k + 1)) (ha' : a ∉ wl.drop k) (hb' : b ∉ wl.drop k)
    (va : a.ty.Contents Val) (vb : b.ty.Contents Val)
    (ea : after l V (Proc.devRef .tc a) = va) (eb : after l V (Proc.devRef .tc b) = vb) :
    after l V (Proc.devRef .tc y) = f va vb := by
  rw [result_eq h V k hop hy', binary_result, ← operand_eq h V k ha', ← operand_eq h V k hb', ea, eb]

theorem ssa_nary {n : ℕ} {xs : Fin n → Ref sig .tc} {y : Ref sig .tc}
    {f : ((i : Fin n) → (xs i).ty.Contents Val) → y.ty.Contents Val} {hxs hy}
    (hop : l[k]? = some (nary xs y f hxs hy)) (hy' : y ∉ wl.drop (k + 1)) (hx' : ∀ i, xs i ∉ wl.drop k)
    (vs : (i : Fin n) → (xs i).ty.Contents Val) (es : ∀ i, after l V (Proc.devRef .tc (xs i)) = vs i) :
    after l V (Proc.devRef .tc y) = f vs := by
  rw [result_eq h V k hop hy', nary_result]
  exact congrArg f (funext fun i => by rw [← operand_eq h V k (hx' i), es i])

theorem ssa_nary4 {x0 x1 x2 x3 y : Ref sig .tc}
    {f : ((i : Fin 4) → ((![x0, x1, x2, x3] : Fin 4 → Ref sig .tc) i).ty.Contents Val) → y.ty.Contents Val} {hxs hy}
    (hop : l[k]? = some (nary ![x0, x1, x2, x3] y f hxs hy)) (hy' : y ∉ wl.drop (k + 1))
    (h0 : x0 ∉ wl.drop k) (h1 : x1 ∉ wl.drop k) (h2 : x2 ∉ wl.drop k) (h3 : x3 ∉ wl.drop k)
    (v0 : x0.ty.Contents Val) (v1 : x1.ty.Contents Val) (v2 : x2.ty.Contents Val) (v3 : x3.ty.Contents Val)
    (e0 : after l V (Proc.devRef .tc x0) = v0) (e1 : after l V (Proc.devRef .tc x1) = v1)
    (e2 : after l V (Proc.devRef .tc x2) = v2) (e3 : after l V (Proc.devRef .tc x3) = v3) :
    after l V (Proc.devRef .tc y) = f (Fin.cons v0 (Fin.cons v1 (Fin.cons v2 (Fin.cons v3 (fun i => i.elim0))))) :=
  ssa_nary h V k hop hy' (fun i => by fin_cases i; exacts [h0, h1, h2, h3]) _ (fun i => by fin_cases i; exacts [e0, e1, e2, e3])

theorem ssa_nary3 {x0 x1 x2 y : Ref sig .tc}
    {f : ((i : Fin 3) → ((![x0, x1, x2] : Fin 3 → Ref sig .tc) i).ty.Contents Val) → y.ty.Contents Val} {hxs hy}
    (hop : l[k]? = some (nary ![x0, x1, x2] y f hxs hy)) (hy' : y ∉ wl.drop (k + 1))
    (h0 : x0 ∉ wl.drop k) (h1 : x1 ∉ wl.drop k) (h2 : x2 ∉ wl.drop k)
    (v0 : x0.ty.Contents Val) (v1 : x1.ty.Contents Val) (v2 : x2.ty.Contents Val)
    (e0 : after l V (Proc.devRef .tc x0) = v0) (e1 : after l V (Proc.devRef .tc x1) = v1)
    (e2 : after l V (Proc.devRef .tc x2) = v2) :
    after l V (Proc.devRef .tc y) = f (Fin.cons v0 (Fin.cons v1 (Fin.cons v2 (fun i => i.elim0)))) :=
  ssa_nary h V k hop hy' (fun i => by fin_cases i; exacts [h0, h1, h2]) _ (fun i => by fin_cases i; exacts [e0, e1, e2])

end

end Cert.RefSSA

end
-- ==== Proof.HostParts.lean ====
/-
  The host side of the idealized kernel program, as pure functions.

  Around its two kernel regions the program runs straight lines of host operations. Before the regions: two segment sums
  (the edge values broadcast along the feature axis, negative node indices wrapped by the node count, the source rows
  gathered, multiplied by the edge values and scatter-added into zeros), one per side of the bipartite graph; the three
  weight matrices laid side by side (the transpose [1, 0, 2] of [3, 64, 64], read row-major as [64, 192], then narrowed:
  the narrowing is the identity over the extended reals); the three bias rows laid side by side ([3, 64] read row-major as
  [1, 192]). After the regions: three row gathers from the two region results, the two rows' inner products, their
  difference through the logarithm of the logistic function, its mean, and a squared-length penalty: the loss, a scalar.

  Each is ONE function of the argument contents (the module this one imports states them: the program's own operations, in
  the program's order, one line each). What the program's folds leave in the result buffers is then that function of what the starting contents hold
  at the argument buffers, and the argument buffers (and, across the tail, the two region results) are left as they were,
  because no host operation writes them. Last, the laid-out weights and biases read at a column 64 l + j: entry (l, k, j) of
  the weights, entry (l, j) of the biases.

  The gathers, the scatter-adds and the sums are folds over the elements of their operands; they are kept folded
  throughout (nothing here depends on what they compute, only on which operation feeds which).
-/
import proofs.«171917_j27255862461048_2_alg».proof.Proof.HostDefs
import proofs.«171917_j27255862461048_2_alg».proof.Proof.Gen.KernelIdeal.Launch
import proofs.«171917_j27255862461048_2_alg».proof.Proof.Spec
import Idealize.ShloMosaic.Lib.StableHlo.Run
import Idealize.ShloMosaic.Lib.Pipeline.Value
import proofs.«171917_j27255862461048_2_alg».proof.Proof.LibWriteOnce

noncomputable section

namespace Cert.KernelIdeal.Parts

open Idealize.ShloMosaic Idealize.ShloMosaic.TcCoe Idealize.ShloMosaic.StableHlo Idealize.SL.Sem
open Cert.KernelIdeal Cert.KernelIdeal.Gen

variable {F : FTy → Type} [FloatOps F]

/-! ## The same function in four parts

The tail's values in groups, cut where the program's own stretches and shared values cut them: the gathered rows, the
per-sample score, the logarithm of the logistic function, and the loss from its parts. `tailLoss` is their composition, by
unfolding. -/

/-- The rows of `U` at the indices `a7`, a negative index wrapped by 100000. -/
def rowsU (U : (⟨S100000x256, .f32⟩ : BufTy).Contents (Elt F)) (a7 : (⟨S4096, .i32⟩ : BufTy).Contents (Elt F)) : (⟨S4096x256, .f32⟩ : BufTy).Contents (Elt F) :=
  have c_4 : (⟨S_, .i32⟩ : BufTy).Contents (Elt F) := constantI S_ 32 0#32
  have v32 : (⟨S4096, .i32⟩ : BufTy).Contents (Elt F) := broadcastInDim S4096 ![] bcast_S_S4096 c_4
  have v33 : (⟨S4096, .i1⟩ : BufTy).Contents (Elt F) := cmpi .slt a7 v32
  have c_5 : (⟨S_, .i32⟩ : BufTy).Contents (Elt F) := constantI S_ 32 100000#32
  have v34 : (⟨S4096, .i32⟩ : BufTy).Contents (Elt F) := broadcastInDim S4096 ![] bcast_S_S4096 c_5
  have v35 : (⟨S4096, .i32⟩ : BufTy).Contents (Elt F) := addi a7 v34
  have v36 : (⟨S4096, .i32⟩ : BufTy).Contents (Elt F) := select v33 v35 a7
  have v37 : (⟨S4096x1, .i32⟩ : BufTy).Contents (Elt F) := broadcastInDim S4096x1 ![0] bcast_S4096_S4096x1_0 v36
  Host.gather gather_S100000x256_S4096x1_S4096x256_1_0_n_n_0_1_1256 U v37

/-- The rows of `I` at the indices `a`, a negative index wrapped by 50000. -/
def rowsI (I : (⟨S50000x256, .f32⟩ : BufTy).Contents (Elt F)) (a : (⟨S4096, .i32⟩ : BufTy).Contents (Elt F)) : (⟨S4096x256, .f32⟩ : BufTy).Contents (Elt F) :=
  have c_6 : (⟨S_, .i32⟩ : BufTy).Contents (Elt F) := constantI S_ 32 0#32
  have v39 : (⟨S4096, .i32⟩ : BufTy).Contents (Elt F) := broadcastInDim S4096 ![] bcast_S_S4096 c_6
  have v40 : (⟨S4096, .i1⟩ : BufTy).Contents (Elt F) := cmpi .slt a v39
  have c_7 : (⟨S_, .i32⟩ : BufTy).Contents (Elt F) := constantI S_ 32 50000#32
  have v41 : (⟨S4096, .i32⟩ : BufTy).Contents (Elt F) := broadcastInDim S4096 ![] bcast_S_S4096 c_7
  have v42 : (⟨S4096, .i32⟩ : BufTy).Contents (Elt F) := addi a v41
  have v43 : (⟨S4096, .i32⟩ : BufTy).Contents (Elt F) := select v40 v42 a
  have v44 : (⟨S4096x1, .i32⟩ : BufTy).Contents (Elt F) := broadcastInDim S4096x1 ![0] bcast_S4096_S4096x1_0 v43
  Host.gather gather_S50000x256_S4096x1_S4096x256_1_0_n_n_0_1_1256 I v44

/-- Per sample, the inner product of row `p` with row `q` minus that of row `p` with row `r`. -/
def score (p q r : (⟨S4096x256, .f32⟩ : BufTy).Contents (Elt F)) : (⟨S4096, .f32⟩ : BufTy).Contents (Elt F) :=
  have v53 : (⟨S4096x256, .f32⟩ : BufTy).Contents (Elt F) := mulf p q
  have cst_10 : (⟨S_, .f32⟩ : BufTy).Contents (Elt F) := constant (F := F) S_ .f32 0x00000000#32
  have v54 : (⟨S4096, .f32⟩ : BufTy).Contents (Elt F) := Host.reduceAdd v53 cst_10 reducesTo_S4096x256_S4096_d1 h_S_
  have v55 : (⟨S4096x256, .f32⟩ : BufTy).Contents (Elt F) := mulf p r
  have cst_11 : (⟨S_, .f32⟩ : BufTy).Contents (Elt F) := constant (F := F) S_ .f32 0x00000000#32
  have v56 : (⟨S4096, .f32⟩ : BufTy).Contents (Elt F) := Host.reduceAdd v55 cst_11 reducesTo_S4096x256_S4096_d1 h_S_
  subf v54 v56

/-- The logarithm of the logistic function as the program inlines it: with `z = -x`, minus (`z` where `z - 0` is not equal to
    itself, else the larger of `z` and 0 plus `log1p (exp (-|z - 0|))`). -/
def logSigmoid (x : (⟨S4096, .f32⟩ : BufTy).Contents (Elt F)) : (⟨S4096, .f32⟩ : BufTy).Contents (Elt F) :=
  have call0_v0 : (⟨S4096, .f32⟩ : BufTy).Contents (Elt F) := Host.negf x
  have call0_call0_cst : (⟨S_, .f32⟩ : BufTy).Contents (Elt F) := constant (F := F) S_ .f32 0x00000000#32
  have call0_call0_v0 : (⟨S4096, .f32⟩ : BufTy).Contents (Elt F) := broadcastInDim S4096 ![] bcast_S_S4096 call0_call0_cst
  have call0_call0_v1 : (⟨S4096, .f32⟩ : BufTy).Contents (Elt F) := maximumf call0_v0 call0_call0_v0
  have call0_call0_v2 : (⟨S4096, .f32⟩ : BufTy).Contents (Elt F) := broadcastInDim S4096 ![] bcast_S_S4096 call0_call0_cst
  have call0_call0_v3 : (⟨S4096, .f32⟩ : BufTy).Contents (Elt F) := subf call0_v0 call0_call0_v2
  have call0_call0_v4 : (⟨S4096, .i1⟩ : BufTy).Contents (Elt F) := cmpf .une call0_call0_v3 call0_call0_v3
  have call0_call0_v5 : (⟨S4096, .f32⟩ : BufTy).Contents (Elt F) := broadcastInDim S4096 ![] bcast_S_S4096 call0_call0_cst
  have call0_call0_v6 : (⟨S4096, .f32⟩ : BufTy).Contents (Elt F) := addf call0_v0 call0_call0_v5
  have call0_call0_v7 : (⟨S4096, .f32⟩ : BufTy).Contents (Elt F) := Host.absf call0_call0_v3
  have call0_call0_v8 : (⟨S4096, .f32⟩ : BufTy).Contents (Elt F) := Host.negf call0_call0_v7
  have call0_call0_v9 : (⟨S4096, .f32⟩ : BufTy).Contents (Elt F) := Host.exp call0_call0_v8
  have call0_call0_v10 : (⟨S4096, .f32⟩ : BufTy).Contents (Elt F) := Host.log1p call0_call0_v9
  have call0_call0_v11 : (⟨S4096, .f32⟩ : BufTy).Contents (Elt F) := addf call0_call0_v1 call0_call0_v10
  have call0_v1 : (⟨S4096, .f32⟩ : BufTy).Contents (Elt F) := select call0_call0_v4 call0_call0_v6 call0_call0_v11
  Host.negf call0_v1

/-- The loss from the per-sample values `y` and the three gathered rows: minus the mean of `y` over 4096, plus the three
    squared lengths summed, halved, times a constant, over 4096. -/
def lossOf (y : (⟨S4096, .f32⟩ : BufTy).Contents (Elt F)) (p q r : (⟨S4096x256, .f32⟩ : BufTy).Contents (Elt F)) : (⟨S_, .f32⟩ : BufTy).Contents (Elt F) :=
  have cst_12 : (⟨S_, .f32⟩ : BufTy).Contents (Elt F) := constant (F := F) S_ .f32 0x00000000#32
  have v59 : (⟨S_, .f32⟩ : BufTy).Contents (Elt F) := Host.reduceAdd y cst_12 reducesTo_S4096_S_d0 h_S_
  have cst_13 : (⟨S_, .f32⟩ : BufTy).Contents (Elt F) := constant (F := F) S_ .f32 0x45800000#32
  have v60 : (⟨S_, .f32⟩ : BufTy).Contents (Elt F) := Host.divf v59 cst_13
  have v61 : (⟨S_, .f32⟩ : BufTy).Contents (Elt F) := Host.negf v60
  have v62 : (⟨S4096x256, .f32⟩ : BufTy).Contents (Elt F) := mulf p p
  have cst_14 : (⟨S_, .f32⟩ : BufTy).Contents (Elt F) := constant (F := F) S_ .f32 0x00000000#32
  have v63 : (⟨S_, .f32⟩ : BufTy).Contents (Elt F) := Host.reduceAdd v62 cst_14 reducesTo_S4096x256_S_d0_1 h_S_
  have v64 : (⟨S4096x256, .f32⟩ : BufTy).Contents (Elt F) := mulf q q
  have cst_15 : (⟨S_, .f32⟩ : BufTy).Contents (Elt F) := constant (F := F) S_ .f32 0x00000000#32
  have v65 : (⟨S_, .f32⟩ : BufTy).Contents (Elt F) := Host.reduceAdd v64 cst_15 reducesTo_S4096x256_S_d0_1 h_S_
  have v66 : (⟨S_, .f32⟩ : BufTy).Contents (Elt F) := addf v63 v65
  have v67 : (⟨S4096x256, .f32⟩ : BufTy).Contents (Elt F) := mulf r r
  have cst_16 : (⟨S_, .f32⟩ : BufTy).Contents (Elt F) := constant (F := F) S_ .f32 0x00000000#32
  have v68 : (⟨S_, .f32⟩ : BufTy).Contents (Elt F) := Host.reduceAdd v67 cst_16 reducesTo_S4096x256_S_d0_1 h_S_
  have v69 : (⟨S_, .f32⟩ : BufTy).Contents (Elt F) := addf v66 v68
  have cst_17 : (⟨S_, .f32⟩ : BufTy).Contents (Elt F) := constant (F := F) S_ .f32 0x40000000#32
  have v70 : (⟨S_, .f32⟩ : BufTy).Contents (Elt F) := Host.divf v69 cst_17
  have cst_18 : (⟨S_, .f32⟩ : BufTy).Contents (Elt F) := constant (F := F) S_ .f32 0x38D1B717#32
  have v71 : (⟨S_, .f32⟩ : BufTy).Contents (Elt F) := mulf cst_18 v70
  have cst_19 : (⟨S_, .f32⟩ : BufTy).Contents (Elt F) := constant (F := F) S_ .f32 0x45800000#32
  have v72 : (⟨S_, .f32⟩ : BufTy).Contents (Elt F) := Host.divf v71 cst_19
  addf v61 v72

attribute [local irreducible] Host.gather Host.scatterAdd Host.reduceAdd in
set_option maxRecDepth 8192 in
/-- The one-line-per-operation function is the composition of its four parts. -/
theorem tailLoss_eq (U : (⟨S100000x256, .f32⟩ : BufTy).Contents (Elt F)) (I : (⟨S50000x256, .f32⟩ : BufTy).Contents (Elt F))
    (a7 a8 a9 : (⟨S4096, .i32⟩ : BufTy).Contents (Elt F)) :
    tailLoss U I a7 a8 a9
      = lossOf (logSigmoid (score (rowsU U a7) (rowsI I a8) (rowsI I a9))) (rowsU U a7) (rowsI I a8) (rowsI I a9) := rfl

/-! ## What the fold before the regions leaves

The fold is unrolled one operation at a time; at the buffer read, each operation's result is its function's value when the
buffer is the one it writes and what was there otherwise, both by computation on the literal references. The element-wise
folds inside the gathers and scatter-adds are never opened. -/

attribute [local irreducible] Host.gather Host.scatterAdd Host.reduceAdd in
set_option maxRecDepth 8192 in
theorem head_v12 (V : Valuation τ sig (Elt F)) :
    StableHlo.after hostOps0 V (Proc.devRef .tc main_v12) = aggU (V (Proc.devRef .tc main_arg1)) (V (Proc.devRef .tc main_arg2)) (V (Proc.devRef .tc main_arg5)) (V (Proc.devRef .tc main_arg6)) := by
  simp only [after_cons, after_nil]
  rfl

attribute [local irreducible] Host.gather Host.scatterAdd Host.reduceAdd in
set_option maxRecDepth 8192 in
theorem head_v25 (V : Valuation τ sig (Elt F)) :
    StableHlo.after hostOps0 V (Proc.devRef .tc main_v25) = aggI (V (Proc.devRef .tc main_arg0)) (V (Proc.devRef .tc main_arg2)) (V (Proc.devRef .tc main_arg5)) (V (Proc.devRef .tc main_arg6)) := by
  simp only [after_cons, after_nil]
  rfl

attribute [local irreducible] Host.gather Host.scatterAdd Host.reduceAdd in
set_option maxRecDepth 8192 in
theorem head_v28 (V : Valuation τ sig (Elt F)) :
    StableHlo.after hostOps0 V (Proc.devRef .tc main_v28) = fuseW (V (Proc.devRef .tc main_arg3)) := by
  simp only [after_cons, after_nil]
  rfl

attribute [local irreducible] Host.gather Host.scatterAdd Host.reduceAdd in
set_option maxRecDepth 8192 in
theorem head_v29 (V : Valuation τ sig (Elt F)) :
    StableHlo.after hostOps0 V (Proc.devRef .tc main_v29) = fuseB (V (Proc.devRef .tc main_arg4)) := by
  simp only [after_cons, after_nil]
  rfl

/-! ## What the three folds after the regions leave

Each stretch is read on its own, as the fold before the regions was: unrolled one operation at a time, the element-wise
folds kept closed. The operations of the middle stretch are stated over typed references; at literal references the
transports of contents to and from a buffer's own type are the identity, by computation. A buffer a stretch does not write
holds after it what it held before: each stretch writes exactly the listed buffers, one per operation. -/

/-- The buffers the three stretches write, in order, one per operation. -/
abbrev tailW1 : List (Ref sig .tc) :=
  [main_c_4, main_v32, main_v33, main_c_5, main_v34, main_v35, main_v36, main_v37, main_v38, main_c_6, main_v39,
   main_v40, main_c_7, main_v41, main_v42, main_v43, main_v44, main_v45, main_c_8, main_v46, main_v47, main_c_9,
   main_v48, main_v49, main_v50, main_v51, main_v52, main_v53, main_cst_10, main_v54, main_v55, main_cst_11,
   main_v56, main_v57]
abbrev tailW2 : List (Ref sig .tc) :=
  [main_call0_v0, main_call0_call0_cst, main_call0_call0_v0, main_call0_call0_v1, main_call0_call0_v2,
   main_call0_call0_v3, main_call0_call0_v4, main_call0_call0_v5, main_call0_call0_v6, main_call0_call0_v7,
   main_call0_call0_v8, main_call0_call0_v9, main_call0_call0_v10, main_call0_call0_v11, main_call0_v1, main_v58]
abbrev tailW3 : List (Ref sig .tc) :=
  [main_cst_12, main_v59, main_cst_13, main_v60, main_v61, main_v62, main_cst_14, main_v63, main_v64,
   main_cst_15, main_v65, main_v66, main_v67, main_cst_16, main_v68, main_v69, main_cst_17, main_v70,
   main_cst_18, main_v71, main_cst_19, main_v72, main_v73]

theorem tail_writes1 : Cert.RefSSA.Writes (τ := τ) (hostOps2 (F := F)) tailW1 := by
  repeat (first | exact List.Forall₂.nil | refine List.Forall₂.cons rfl ?_)
theorem tail_writes2 : Cert.RefSSA.Writes (τ := τ) (hostOps2_1 (F := F)) tailW2 := by
  repeat (first | exact List.Forall₂.nil | refine List.Forall₂.cons rfl ?_)
theorem tail_writes3 : Cert.RefSSA.Writes (τ := τ) (hostOps2_2 (F := F)) tailW3 := by
  repeat (first | exact List.Forall₂.nil | refine List.Forall₂.cons rfl ?_)

/-- A buffer none of the three stretches writes holds, after them, what it held before them. -/
theorem tail_keep_of (V : Valuation τ sig (Elt F)) {r : Ref sig .tc} (h1 : r ∉ tailW1) (h2 : r ∉ tailW2) (h3 : r ∉ tailW3) :
    StableHlo.after hostOps2_2 (StableHlo.after hostOps2_1 (StableHlo.after hostOps2 V)) (Proc.devRef .tc r) = V (Proc.devRef .tc r) :=
  ((Cert.RefSSA.after_keep tail_writes3 h3 _).trans (Cert.RefSSA.after_keep tail_writes2 h2 _)).trans
    (Cert.RefSSA.after_keep tail_writes1 h1 V)

/-- The two region results are among them. -/
theorem tail_keep30 (V : Valuation τ sig (Elt F)) :
    StableHlo.after hostOps2_2 (StableHlo.after hostOps2_1 (StableHlo.after hostOps2 V)) (Proc.devRef .tc main_v30) = V (Proc.devRef .tc main_v30) :=
  tail_keep_of V (by decide) (by decide) (by decide)
theorem tail_keep31 (V : Valuation τ sig (Elt F)) :
    StableHlo.after hostOps2_2 (StableHlo.after hostOps2_1 (StableHlo.after hostOps2 V)) (Proc.devRef .tc main_v31) = V (Proc.devRef .tc main_v31) :=
  tail_keep_of V (by decide) (by decide) (by decide)

section FirstStretch
attribute [local irreducible] Host.gather Host.scatterAdd Host.reduceAdd
set_option maxRecDepth 8192

theorem tail1_v38 (V : Valuation τ sig (Elt F)) :
    StableHlo.after hostOps2 V (Proc.devRef .tc main_v38) = rowsU (V (Proc.devRef .tc main_v30)) (V (Proc.devRef .tc main_arg7)) := by
  simp only [after_cons, after_nil]
  rfl
theorem tail1_v45 (V : Valuation τ sig (Elt F)) :
    StableHlo.after hostOps2 V (Proc.devRef .tc main_v45) = rowsI (V (Proc.devRef .tc main_v31)) (V (Proc.devRef .tc main_arg8)) := by
  simp only [after_cons, after_nil]
  rfl
theorem tail1_v52 (V : Valuation τ sig (Elt F)) :
    StableHlo.after hostOps2 V (Proc.devRef .tc main_v52) = rowsI (V (Proc.devRef .tc main_v31)) (V (Proc.devRef .tc main_arg9)) := by
  simp only [after_cons, after_nil]
  rfl
theorem tail1_v57 (V : Valuation τ sig (Elt F)) :
    StableHlo.after hostOps2 V (Proc.devRef .tc main_v57)
      = score (rowsU (V (Proc.devRef .tc main_v30)) (V (Proc.devRef .tc main_arg7))) (rowsI (V (Proc.devRef .tc main_v31)) (V (Proc.devRef .tc main_arg8)))
          (rowsI (V (Proc.devRef .tc main_v31)) (V (Proc.devRef .tc main_arg9))) := by
  simp only [after_cons, after_nil]
  rfl
/-- The middle stretch, from any contents: the logarithm of the logistic function of what `main_v57` holds. -/
theorem tail2_v58 (W : Valuation τ sig (Elt F)) :
    StableHlo.after hostOps2_1 W (Proc.devRef .tc main_v58) = logSigmoid (W (Proc.devRef .tc main_v57)) := by
  simp only [after_cons, after_nil]
  rfl
/-- The last stretch, from any contents: the loss from what `main_v58` and the three gathered rows hold. -/
theorem tail3_v73 (W : Valuation τ sig (Elt F)) :
    StableHlo.after hostOps2_2 W (Proc.devRef .tc main_v73)
      = lossOf (W (Proc.devRef .tc main_v58)) (W (Proc.devRef .tc main_v38)) (W (Proc.devRef .tc main_v45)) (W (Proc.devRef .tc main_v52)) := by
  simp only [after_cons, after_nil]
  rfl
end FirstStretch

/-- The three folds at the loss's buffer: the last stretch reads `main_v58` and the three gathered rows; the middle stretch
    writes the first from `main_v57` and leaves the rows; the first stretch writes all four from the region results and the
    index arrays. -/
theorem tail_v73 (V : Valuation τ sig (Elt F)) :
    StableHlo.after hostOps2_2 (StableHlo.after hostOps2_1 (StableHlo.after hostOps2 V)) (Proc.devRef .tc main_v73)
      = tailLoss (V (Proc.devRef .tc main_v30)) (V (Proc.devRef .tc main_v31)) (V (Proc.devRef .tc main_arg7)) (V (Proc.devRef .tc main_arg8)) (V (Proc.devRef .tc main_arg9)) := by
  refine (tail3_v73 _).trans ?_
  rw [tail2_v58, Cert.RefSSA.after_keep tail_writes2 (r := main_v38) (by decide),
    Cert.RefSSA.after_keep tail_writes2 (r := main_v45) (by decide),
    Cert.RefSSA.after_keep tail_writes2 (r := main_v52) (by decide),
    tail1_v57, tail1_v38, tail1_v45, tail1_v52]
  exact (tailLoss_eq _ _ _ _ _).symm

/-! ## The laid-out weights and biases read at a column

Over the extended reals the narrowing is the identity. A row-major reading of [64, 3, 64] as [64, 192] puts entry (k, l, j) at
row k, column 64 l + j, since (3 k + l) 64 + j = 192 k + (64 l + j); and the transpose [1, 0, 2] puts entry (l, k, j) of the
operand at (k, l, j). Likewise the row-major reading of [3, 64] as [1, 192] puts entry (l, j) at column 64 l + j. -/

theorem fuseW_apply (a3 : (⟨S3x64x64, .f32⟩ : BufTy).Contents (Elt Ideal)) (l : Fin 3) (k j : Fin 64) :
    fuseW (F := Ideal) a3 (ValueIdx.ix2 k (Cert.Gcn.col l j)) = a3 (ValueIdx.ix3 l k j) := by
  show shapeCast S64x192 (transpose S64x3x64 [1, 0, 2] a3 transposes_S3x64x64_S64x3x64_1_0_2) shapeCasts_S64x3x64_S64x192
      (ValueIdx.ix2 k (Cert.Gcn.col l j)) = _
  refine (shapeCast_apply _ _ (ValueIdx.ix2 k (Cert.Gcn.col l j)) (ValueIdx.ix3 k l j) ?_).trans ?_
  · rw [Shape.rowMajor_val_three, Shape.rowMajor_val_two]
    show (k.val * 3 + l.val) * 64 + j.val = k.val * 192 + (64 * l.val + j.val)
    omega
  · refine transpose_apply [1, 0, 2] a3 _ (ValueIdx.ix3 k l j) (ValueIdx.ix3 l k j) fun b => ?_
    match b with
    | ⟨0, _⟩ => rfl
    | ⟨1, _⟩ => rfl
    | ⟨2, _⟩ => rfl

theorem fuseB_apply (a4 : (⟨S3x64, .f32⟩ : BufTy).Contents (Elt Ideal)) (l : Fin 3) (j : Fin 64) :
    fuseB (F := Ideal) a4 (ValueIdx.ix2 (0 : Fin 1) (Cert.Gcn.col l j)) = a4 (ValueIdx.ix2 l j) := by
  refine shapeCast_apply _ _ (ValueIdx.ix2 (0 : Fin 1) (Cert.Gcn.col l j)) (ValueIdx.ix2 l j) ?_
  rw [Shape.rowMajor_val_two, Shape.rowMajor_val_two]
  show l.val * 64 + j.val = 0 * 192 + (64 * l.val + j.val)
  omega

end Cert.KernelIdeal.Parts

end
-- ==== Proof.KernelValue.lean ====
/-
  The idealized kernel program's three results as functions of its ten argument arrays.

  The first host stretch leaves the two aggregate arrays (each a segment sum of edge-weighted rows), the three weight
  matrices laid side by side and the three bias rows laid end to end. Region 0 then leaves, in the user result, the
  graph-convolution rows of the user embeddings and the user aggregates; region 1 the same for the items; neither
  touches anything else. The last host stretches gather three batches of rows from the two results and reduce them to the
  loss. So the user result, the item result and the loss are the specification's function of the arguments.
-/
import proofs.«171917_j27255862461048_2_alg».proof.Proof.KernelRun
import proofs.«171917_j27255862461048_2_alg».proof.Proof.KernelArrays
import proofs.«171917_j27255862461048_2_alg».proof.Proof.HostParts

set_option maxRecDepth 16384

noncomputable section

namespace Cert.KernelIdeal.Hand

open Cert.KernelIdeal Cert.KernelIdeal.Gen Cert.KernelIdeal.Arrays Cert.KernelIdeal.Parts
open Idealize.ShloMosaic Idealize.ShloMosaic.ValueIdx Idealize.ShloMosaic.TcCoe
open Idealize.SL Idealize.SL.Sem

/-- With the weights fused side by side and the biases end to end, the fused form is the specification. -/
theorem fused_fuse {M : ℕ} (X A : FVec Ideal ⟨2, ![M, 64]⟩ .f32) (W : FVec Ideal ⟨3, ![3, 64, 64]⟩ .f32)
    (b : FVec Ideal ⟨2, ![3, 64]⟩ .f32) : fused X A (fuseW (F := Ideal) W) (fuseB (F := Ideal) b) = Cert.Gcn.result X A W b := by
  funext i
  obtain ⟨r, q, rfl⟩ : ∃ (r : Fin M) (q : Fin 256), i = ix2 r q := ⟨i 0, i 1, eq_ix2 i⟩
  rw [fused_apply, Cert.Gcn.result_apply]
  simp only [fuseW_apply, fuseB_apply]

/-- The user rows, the item rows and the loss as functions of the ten arguments. -/
def usersOf (a0 : FVec Ideal ⟨2, ![100000, 64]⟩ .f32) (a1 : FVec Ideal ⟨2, ![50000, 64]⟩ .f32)
    (a2 : FVec Ideal ⟨1, ![2000000]⟩ .f32) (a3 : FVec Ideal ⟨3, ![3, 64, 64]⟩ .f32) (a4 : FVec Ideal ⟨2, ![3, 64]⟩ .f32)
    (a5 a6 : IVec ⟨1, ![2000000]⟩ 32) : FVec Ideal ⟨2, ![100000, 256]⟩ .f32 :=
  Cert.Gcn.result (M := 100000) a0 (aggU (F := Ideal) a1 a2 a5 a6) a3 a4

def itemsOf (a0 : FVec Ideal ⟨2, ![100000, 64]⟩ .f32) (a1 : FVec Ideal ⟨2, ![50000, 64]⟩ .f32)
    (a2 : FVec Ideal ⟨1, ![2000000]⟩ .f32) (a3 : FVec Ideal ⟨3, ![3, 64, 64]⟩ .f32) (a4 : FVec Ideal ⟨2, ![3, 64]⟩ .f32)
    (a5 a6 : IVec ⟨1, ![2000000]⟩ 32) : FVec Ideal ⟨2, ![50000, 256]⟩ .f32 :=
  Cert.Gcn.result (M := 50000) a1 (aggI (F := Ideal) a0 a2 a5 a6) a3 a4

variable (m : (ℓ : Loc nD τ sig) → Buf (Elt Ideal) ℓ) (ρ : Dev nD → PrngReg)

/-! ## Buffers no operation of a stretch writes -/

theorem W1_arg0 (c : Dev nD) : W1 m ρ c (Proc.devRef .tc main_arg0) = m ((c : Thread nD τ).loc main_arg0) :=
  Eq.trans (b := W0 m ρ c (Proc.devRef .tc main_arg0)) (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) rfl

theorem W1_arg1 (c : Dev nD) : W1 m ρ c (Proc.devRef .tc main_arg1) = m ((c : Thread nD τ).loc main_arg1) :=
  Eq.trans (b := W0 m ρ c (Proc.devRef .tc main_arg1)) (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) rfl

theorem W1_arg7 (c : Dev nD) : W1 m ρ c (Proc.devRef .tc main_arg7) = m ((c : Thread nD τ).loc main_arg7) :=
  Eq.trans (b := W0 m ρ c (Proc.devRef .tc main_arg7)) (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) rfl

theorem W1_arg8 (c : Dev nD) : W1 m ρ c (Proc.devRef .tc main_arg8) = m ((c : Thread nD τ).loc main_arg8) :=
  Eq.trans (b := W0 m ρ c (Proc.devRef .tc main_arg8)) (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) rfl

theorem W1_arg9 (c : Dev nD) : W1 m ρ c (Proc.devRef .tc main_arg9) = m ((c : Thread nD τ).loc main_arg9) :=
  Eq.trans (b := W0 m ρ c (Proc.devRef .tc main_arg9)) (StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))) rfl

/-! ## What the first host stretch leaves -/

theorem W1_v12 (c : Dev nD) : W1 m ρ c (Proc.devRef .tc main_v12)
    = aggU (F := Ideal) (m ((c : Thread nD τ).loc main_arg1)) (m ((c : Thread nD τ).loc main_arg2))
        (m ((c : Thread nD τ).loc main_arg5)) (m ((c : Thread nD τ).loc main_arg6)) := head_v12 (W0 m ρ c)

theorem W1_v25 (c : Dev nD) : W1 m ρ c (Proc.devRef .tc main_v25)
    = aggI (F := Ideal) (m ((c : Thread nD τ).loc main_arg0)) (m ((c : Thread nD τ).loc main_arg2))
        (m ((c : Thread nD τ).loc main_arg5)) (m ((c : Thread nD τ).loc main_arg6)) := head_v25 (W0 m ρ c)

theorem W1_v28 (c : Dev nD) : W1 m ρ c (Proc.devRef .tc main_v28) = fuseW (F := Ideal) (m ((c : Thread nD τ).loc main_arg3)) :=
  head_v28 (W0 m ρ c)

theorem W1_v29 (c : Dev nD) : W1 m ρ c (Proc.devRef .tc main_v29) = fuseB (F := Ideal) (m ((c : Thread nD τ).loc main_arg4)) :=
  head_v29 (W0 m ρ c)

/-! ## The two result arrays when the second region ends -/

theorem W2_v28 (c : Dev nD) : W2 m ρ c (Proc.devRef .tc main_v28) = W1 m ρ c (Proc.devRef .tc main_v28) :=
  (W2_arr m ρ c 2).trans (((dat0 (V1 m ρ) c).arrAt_in 2 rfl _).trans (A_eq0 (V1 m ρ) c 2))

theorem W2_v29 (c : Dev nD) : W2 m ρ c (Proc.devRef .tc main_v29) = W1 m ρ c (Proc.devRef .tc main_v29) :=
  (W2_arr m ρ c 3).trans (((dat0 (V1 m ρ) c).arrAt_in 3 rfl _).trans (A_eq0 (V1 m ρ) c 3))

theorem W3_v30 (c : Dev nD) : W3 m ρ c (Proc.devRef .tc main_v30)
    = usersOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W3_of_ne m ρ c main_v30 (by decide)]
  refine (W2_arr m ρ c 4).trans ?_
  rw [final0 (V1 m ρ) c]
  show fused (M := 100000) (W1 m ρ c (Proc.devRef .tc main_arg0)) (W1 m ρ c (Proc.devRef .tc main_v12))
        (W1 m ρ c (Proc.devRef .tc main_v28)) (W1 m ρ c (Proc.devRef .tc main_v29)) = _
  rw [W1_arg0, W1_v12, W1_v28, W1_v29]
  exact fused_fuse _ _ _ _

theorem W3_v31 (c : Dev nD) : W3 m ρ c (Proc.devRef .tc main_v31)
    = itemsOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W3_arr m ρ c 4).trans ?_
  rw [final1 (V2 m ρ) c]
  show fused (M := 50000) (W2 m ρ c (Proc.devRef .tc main_arg1)) (W2 m ρ c (Proc.devRef .tc main_v25))
        (W2 m ρ c (Proc.devRef .tc main_v28)) (W2 m ρ c (Proc.devRef .tc main_v29)) = _
  rw [W2_of_ne m ρ c main_arg1 (by decide), W2_of_ne m ρ c main_v25 (by decide), W2_v28, W2_v29,
    W1_arg1, W1_v25, W1_v28, W1_v29]
  exact fused_fuse _ _ _ _

theorem W3_arg7 (c : Dev nD) : W3 m ρ c (Proc.devRef .tc main_arg7) = m ((c : Thread nD τ).loc main_arg7) := by
  rw [W3_of_ne m ρ c main_arg7 (by decide), W2_of_ne m ρ c main_arg7 (by decide), W1_arg7]

theorem W3_arg8 (c : Dev nD) : W3 m ρ c (Proc.devRef .tc main_arg8) = m ((c : Thread nD τ).loc main_arg8) := by
  rw [W3_of_ne m ρ c main_arg8 (by decide), W2_of_ne m ρ c main_arg8 (by decide), W1_arg8]

theorem W3_arg9 (c : Dev nD) : W3 m ρ c (Proc.devRef .tc main_arg9) = m ((c : Thread nD τ).loc main_arg9) := by
  rw [W3_of_ne m ρ c main_arg9 (by decide), W2_of_ne m ρ c main_arg9 (by decide), W1_arg9]

/-! ## The run, read -/

/-- Every weakly fair execution of the idealized kernel program terminates with the loss, the user rows and the item rows
    at the specification's functions of the launch arguments, and the arguments unchanged. -/
theorem run_value : θ_run defs (onTc (τ := τ) (main (F := Ideal))) ⟨m, fun _ => 0, ρ⟩ (fun r => ∀ c : Dev nD,
      r.2.mem ((c.tc : Thread nD τ).loc main_v73)
        = tailLoss (F := Ideal)
            (usersOf (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)))
            (itemsOf (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)))
            (m ((c : Thread nD τ).loc main_arg7)) (m ((c : Thread nD τ).loc main_arg8)) (m ((c : Thread nD τ).loc main_arg9))
      ∧ r.2.mem ((c.tc : Thread nD τ).loc main_v30)
        = usersOf (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6))
      ∧ r.2.mem ((c.tc : Thread nD τ).loc main_v31)
        = itemsOf (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c main_v73 (by decide)).trans ((tail_v73 (W3 m ρ c)).trans (by rw [W3_v30, W3_v31, W3_arg7, W3_arg8, W3_arg9])),
     (h c main_v30 (by decide)).trans ((tail_keep30 (W3 m ρ c)).trans (W3_v30 m ρ c)),
     (h c main_v31 (by decide)).trans ((tail_keep31 (W3 m ρ c)).trans (W3_v31 m ρ c)),
     (h c main_arg0 (by decide)).trans (W6_main_arg0 m ρ c),
     (h c main_arg1 (by decide)).trans (W6_main_arg1 m ρ c),
     (h c main_arg2 (by decide)).trans (W6_main_arg2 m ρ c),
     (h c main_arg3 (by decide)).trans (W6_main_arg3 m ρ c),
     (h c main_arg4 (by decide)).trans (W6_main_arg4 m ρ c),
     (h c main_arg5 (by decide)).trans (W6_main_arg5 m ρ c),
     (h c main_arg6 (by decide)).trans (W6_main_arg6 m ρ c),
     (h c main_arg7 (by decide)).trans (W6_main_arg7 m ρ c),
     (h c main_arg8 (by decide)).trans (W6_main_arg8 m ρ c),
     (h c main_arg9 (by decide)).trans (W6_main_arg9 m ρ c)⟩)
    (run_ref m ρ)

end Cert.KernelIdeal.Hand

end
-- ==== Proof.LibWriteOnce2.lean ====
/-
  Two more kinds of operation in a straight line of host operations in which every buffer is written at most once.

  As for the operations of no, one, two or n operands: when every operation of the line writes exactly one buffer, no
  buffer is written twice and every operand is written before it is read, what the line leaves in the result buffer of
  an operation of three operands is the operation's function of what the line leaves in the three operands' buffers;
  and what it leaves in the result buffer of a reshape is the operand's contents, as the line leaves them, read in
  row-major order at the result's shape.
-/
import proofs.«171917_j27255862461048_2_alg».proof.Proof.LibWriteOnce

noncomputable section

namespace Cert.RefSSA

open Idealize.ShloMosaic Idealize.ShloMosaic.StableHlo

variable {τ : Topo} {sig : RefSig} {Val : EltTy → Type}

section
variable {l : List (HloOp τ sig Val)} {wl : List (Ref sig .tc)} (h : Writes l wl) (V : Valuation τ sig Val) (k : ℕ)
include h

/-- An operation of three operands at position `k`: its result buffer ends at its function of the three operands'
    final contents. -/
theorem ssa_ternary {c a b y : Ref sig .tc}
    {f : c.ty.Contents Val → a.ty.Contents Val → b.ty.Contents Val → y.ty.Contents Val} {hc ha hb hy}
    (hop : l[k]? = some (ternary c a b y f hc ha hb hy)) (hy' : y ∉ wl.drop (k + 1))
    (hc' : c ∉ wl.drop k) (ha' : a ∉ wl.drop k) (hb' : b ∉ wl.drop k)
    (vc : c.ty.Contents Val) (va : a.ty.Contents Val) (vb : b.ty.Contents Val)
    (ec : after l V (Proc.devRef .tc c) = vc) (ea : after l V (Proc.devRef .tc a) = va)
    (eb : after l V (Proc.devRef .tc b) = vb) :
    after l V (Proc.devRef .tc y) = f vc va vb := by
  rw [result_eq h V k hop hy', ternary_result, ← operand_eq h V k hc', ← operand_eq h V k ha',
    ← operand_eq h V k hb', ec, ea, eb]

/-- A reshape at position `k`: its result buffer ends at the operand's final contents, read in row-major order at the
    result's shape. -/
theorem ssa_reshape {x y : Ref sig .tc} {he : x.ty.elt = y.ty.elt} {hn : x.ty.shape.ShapeCasts y.ty.shape} {hx hy}
    (hop : l[k]? = some (reshape x y he hn hx hy)) (hy' : y ∉ wl.drop (k + 1)) (hx' : x ∉ wl.drop k)
    (vx : x.ty.Contents Val) (ex : after l V (Proc.devRef .tc x) = vx) :
    after l V (Proc.devRef .tc y) = fun i => he ▸ shapeCast y.ty.shape vx hn i := by
  rw [result_eq h V k hop hy', reshape_result, ← operand_eq h V k hx', ex]

end

end Cert.RefSSA

end
-- ==== Proof.RefRun.lean ====
/-
  The reference program's run, read back as one straight line of host operations.

  The reference's entry function is a sequence of array operations, four of them applications of outlined functions
  (a leaky rectifier, which itself applies a three-way select; a log-sigmoid, which itself applies a softplus). Replacing
  each application by the applied function's operations, over the buffers that application names, gives one list of
  188 operations, each writing one buffer that no other operation writes. This module states that list, proves the
  entry function equal to running the list in order, and concludes that every execution ends with each buffer at the
  fold of the operations' results over the buffers' contents at launch. The list is also given in three consecutive
  pieces (the aggregation of neighbours' rows; the three layers with their row normalisation and the joined table; the
  scoring of sampled rows), each with the list of buffers it writes, position by position, and the inputs are shown to
  keep their contents.
-/
import proofs.«171917_j27255862461048_2_alg».proof.Proof.Gen.ReferenceIdeal
import Idealize.ShloMosaic.Lib.StableHlo.Run
import Idealize.ShloMosaic.Lib.Pipeline.Regions
import proofs.«171917_j27255862461048_2_alg».proof.Proof.LibWriteOnce2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- Operations 0 … 31: the two weighted sums of neighbours' rows (gather, scale by the edge weight, scatter-add), through the second scatter. The first of the three pieces. -/
abbrev opsHead : List (HloOp τ sig (Elt F)) :=
  [ StableHlo.unary main_arg2 main_v0 (broadcastInDim S2000000x1 ![0] bcast_S2000000_S2000000x1_0 : (⟨S2000000, .f32⟩ : BufTy).Contents (Elt F) → (⟨S2000000x1, .f32⟩ : BufTy).Contents (Elt F)),
    StableHlo.nullary main_c (constantI S_ 32 0#32),
    StableHlo.unary main_c main_v1 (broadcastInDim S2000000 ![] bcast_S_S2000000 : (⟨S_, .i32⟩ : BufTy).Contents (Elt F) → (⟨S2000000, .i32⟩ : BufTy).Contents (Elt F)),
    StableHlo.binary main_arg6 main_v1 main_v2 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 50000#32),
    StableHlo.unary main_c_0 main_v3 (broadcastInDim S2000000 ![] bcast_S_S2000000 : (⟨S_, .i32⟩ : BufTy).Contents (Elt F) → (⟨S2000000, .i32⟩ : BufTy).Contents (Elt F)),
    StableHlo.binary main_arg6 main_v3 main_v4 (addi : (⟨S2000000, .i32⟩ : BufTy).Contents (Elt F) → (⟨S2000000, .i32⟩ : BufTy).Contents (Elt F) → (⟨S2000000, .i32⟩ : BufTy).Contents (Elt F)),
    StableHlo.ternary main_v2 main_v4 main_arg6 main_v5 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v5 main_v6 (broadcastInDim S2000000x1 ![0] bcast_S2000000_S2000000x1_0 : (⟨S2000000, .i32⟩ : BufTy).Contents (Elt F) → (⟨S2000000x1, .i32⟩ : BufTy).Contents (Elt F)),
    StableHlo.binary main_arg1 main_v6 main_v7 ((fun x i => Host.gather gather_S50000x64_S2000000x1_S2000000x64_1_0_n_n_0_1_164 x i) : (⟨S50000x64, .f32⟩ : BufTy).Contents (Elt F) → (⟨S2000000x1, .i32⟩ : BufTy).Contents (Elt F) → (⟨S2000000x64, .f32⟩ : BufTy).Contents (Elt F)),
    StableHlo.unary main_v0 main_v8 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v8 main_v7 main_v9 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v10 (broadcastInDim S100000x64 ![] bcast_S_S100000x64 : (⟨S_, .f32⟩ : BufTy).Contents (Elt F) → (⟨S100000x64, .f32⟩ : BufTy).Contents (Elt F)),
    StableHlo.unary main_arg5 main_v11 (broadcastInDim S2000000x1 ![0] bcast_S2000000_S2000000x1_0 : (⟨S2000000, .i32⟩ : BufTy).Contents (Elt F) → (⟨S2000000x1, .i32⟩ : BufTy).Contents (Elt F)),
    StableHlo.ternary main_v10 main_v11 main_v9 main_v12 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.unary main_arg2 main_v13 (broadcastInDim S2000000x1 ![0] bcast_S2000000_S2000000x1_0 : (⟨S2000000, .f32⟩ : BufTy).Contents (Elt F) → (⟨S2000000x1, .f32⟩ : BufTy).Contents (Elt F)),
    StableHlo.nullary main_c_1 (constantI S_ 32 0#32),
    StableHlo.unary main_c_1 main_v14 (broadcastInDim S2000000 ![] bcast_S_S2000000 : (⟨S_, .i32⟩ : BufTy).Contents (Elt F) → (⟨S2000000, .i32⟩ : BufTy).Contents (Elt F)),
    StableHlo.binary main_arg5 main_v14 main_v15 (cmpi .slt : (⟨S2000000, .i32⟩ : BufTy).Contents (Elt F) → (⟨S2000000, .i32⟩ : BufTy).Contents (Elt F) → (⟨S2000000, .i1⟩ : BufTy).Contents (Elt F)),
    StableHlo.nullary main_c_2 (constantI S_ 32 100000#32),
    StableHlo.unary main_c_2 main_v16 (broadcastInDim S2000000 ![] bcast_S_S2000000 : (⟨S_, .i32⟩ : BufTy).Contents (Elt F) → (⟨S2000000, .i32⟩ : BufTy).Contents (Elt F)),
    StableHlo.binary main_arg5 main_v16 main_v17 (addi : (⟨S2000000, .i32⟩ : BufTy).Contents (Elt F) → (⟨S2000000, .i32⟩ : BufTy).Contents (Elt F) → (⟨S2000000, .i32⟩ : BufTy).Contents (Elt F)),
    StableHlo.ternary main_v15 main_v17 main_arg5 main_v18 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v18 main_v19 (broadcastInDim S2000000x1 ![0] bcast_S2000000_S2000000x1_0 : (⟨S2000000, .i32⟩ : BufTy).Contents (Elt F) → (⟨S2000000x1, .i32⟩ : BufTy).Contents (Elt F)),
    StableHlo.binary main_arg0 main_v19 main_v20 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_v13 main_v21 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v21 main_v20 main_v22 (mulf : (⟨S2000000x64, .f32⟩ : BufTy).Contents (Elt F) → (⟨S2000000x64, .f32⟩ : BufTy).Contents (Elt F) → (⟨S2000000x64, .f32⟩ : BufTy).Contents (Elt F)),
    StableHlo.nullary main_cst_3 (constant S_ .f32 0x00000000#32),
    StableHlo.unary main_cst_3 main_v23 (broadcastInDim S50000x64 ![] bcast_S_S50000x64 : (⟨S_, .f32⟩ : BufTy).Contents (Elt F) → (⟨S50000x64, .f32⟩ : BufTy).Contents (Elt F)),
    StableHlo.unary main_arg6 main_v24 (broadcastInDim S2000000x1 ![0] bcast_S2000000_S2000000x1_0 : (⟨S2000000, .i32⟩ : BufTy).Contents (Elt F) → (⟨S2000000x1, .i32⟩ : BufTy).Contents (Elt F)),
    StableHlo.ternary main_v23 main_v24 main_v22 main_v25 ((fun x i u => Host.scatterAdd scatter_S50000x64_S2000000x1_S2000000x64_1_0_0_1 x i u) : (⟨S50000x64, .f32⟩ : BufTy).Contents (Elt F) → (⟨S2000000x1, .i32⟩ : BufTy).Contents (Elt F) → (⟨S2000000x64, .f32⟩ : BufTy).Contents (Elt F) → (⟨S50000x64, .f32⟩ : BufTy).Contents (Elt F)) ]

/-- Operations 32 … 42: the two row-wise joins, and the first layer's product with its weight matrix plus its bias, through the rectifier's slope. -/
abbrev pc2 : List (HloOp τ sig (Elt F)) :=
  [ StableHlo.binary main_v12 main_v25 main_v26 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.binary main_arg0 main_arg1 main_v27 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.unary main_arg3 main_v28 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v28 main_v29 rfl shapeCasts_S1x64x64_S64x64,
    StableHlo.binary main_v26 main_v29 main_v30 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg4 main_v31 ((extractStridedSlice S1x64 ![0, 0] · slices_S3x64_S1x64_0_0) : (⟨S3x64, .f32⟩ : BufTy).Contents (Elt F) → (⟨S1x64, .f32⟩ : BufTy).Contents (Elt F)),
    StableHlo.reshape main_v31 main_v32 rfl shapeCasts_S1x64_S64,
    StableHlo.unary main_v32 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S150000x64 ![0, 1] bcast_S1x64_S150000x64_0_1 : (⟨S1x64, .f32⟩ : BufTy).Contents (Elt F) → (⟨S150000x64, .f32⟩ : BufTy).Contents (Elt F)),
    StableHlo.binary main_v30 main_v34 main_v35 (addf : (⟨S150000x64, .f32⟩ : BufTy).Contents (Elt F) → (⟨S150000x64, .f32⟩ : BufTy).Contents (Elt F) → (⟨S150000x64, .f32⟩ : BufTy).Contents (Elt F)),
    StableHlo.nullary main_cst_4 (constant S_ .f32 0x3E4CCCCD#32) ]

/-- Operations 43 … 49: the first layer's leaky rectifier, its select included. -/
abbrev pc3 : List (HloOp τ sig (Elt F)) :=
  [ StableHlo.TRef.nullary main_call0.cst (constant S_ .f32 0x00000000#32),
    StableHlo.TRef.unary main_call0.cst main_call0.v0 (broadcastInDim S150000x64 ![] bcast_S_S150000x64),
    StableHlo.TRef.binary (.of main_v35 : StableHlo.TRef sig ⟨S150000x64, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S150000x64 ![] bcast_S_S150000x64),
    StableHlo.TRef.binary main_call0.v3 (.of main_v35 : StableHlo.TRef sig ⟨S150000x64, .f32⟩) main_call0.v4 mulf,
    StableHlo.TRef.ternary main_call0.v1 (.of main_v35 : StableHlo.TRef sig ⟨S150000x64, .f32⟩) main_call0.v4 main_call0.call0.v0 select ]

/-- Operations 50 … 65: the first layer's row normalisation, and the second layer's product and bias row. -/
abbrev pc4 : List (HloOp τ sig (Elt F)) :=
  [ StableHlo.binary main_v36 main_v36 main_v37 (mulf : (⟨S150000x64, .f32⟩ : BufTy).Contents (Elt F) → (⟨S150000x64, .f32⟩ : BufTy).Contents (Elt F) → (⟨S150000x64, .f32⟩ : BufTy).Contents (Elt F)),
    StableHlo.nullary main_cst_5 (constant S_ .f32 0x00000000#32),
    StableHlo.binary main_v37 main_cst_5 main_v38 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v38 main_v39 (broadcastInDim S150000x1 ![0] bcast_S150000_S150000x1_0 : (⟨S150000, .f32⟩ : BufTy).Contents (Elt F) → (⟨S150000x1, .f32⟩ : BufTy).Contents (Elt F)),
    StableHlo.unary main_v39 main_v40 (Host.sqrt : (⟨S150000x1, .f32⟩ : BufTy).Contents (Elt F) → (⟨S150000x1, .f32⟩ : BufTy).Contents (Elt F)),
    StableHlo.nullary main_cst_6 (constant S_ .f32 0x2B8CBCCC#32),
    StableHlo.unary main_cst_6 main_v41 (broadcastInDim S150000x1 ![] bcast_S_S150000x1 : (⟨S_, .f32⟩ : BufTy).Contents (Elt F) → (⟨S150000x1, .f32⟩ : BufTy).Contents (Elt F)),
    StableHlo.binary main_v40 main_v41 main_v42 (maximumf : (⟨S150000x1, .f32⟩ : BufTy).Contents (Elt F) → (⟨S150000x1, .f32⟩ : BufTy).Contents (Elt F) → (⟨S150000x1, .f32⟩ : BufTy).Contents (Elt F)),
    StableHlo.unary main_v42 main_v43 (broadcastInDim S150000x64 ![0, 1] bcast_S150000x1_S150000x64_0_1 : (⟨S150000x1, .f32⟩ : BufTy).Contents (Elt F) → (⟨S150000x64, .f32⟩ : BufTy).Contents (Elt F)),
    StableHlo.binary main_v36 main_v43 main_v44 (Host.divf : (⟨S150000x64, .f32⟩ : BufTy).Contents (Elt F) → (⟨S150000x64, .f32⟩ : BufTy).Contents (Elt F) → (⟨S150000x64, .f32⟩ : BufTy).Contents (Elt F)),
    StableHlo.unary main_arg3 main_v45 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v45 main_v46 rfl shapeCasts_S1x64x64_S64x64,
    StableHlo.binary main_v26 main_v46 main_v47 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg4 main_v48 ((extractStridedSlice S1x64 ![1, 0] · slices_S3x64_S1x64_1_0) : (⟨S3x64, .f32⟩ : BufTy).Contents (Elt F) → (⟨S1x64, .f32⟩ : BufTy).Contents (Elt F)),
    StableHlo.reshape main_v48 main_v49 rfl shapeCasts_S1x64_S64,
    StableHlo.unary main_v49 main_v50 (broadcastInDim S1x64 ![1] bcast_S64_S1x64_1 : (⟨S64, .f32⟩ : BufTy).Contents (Elt F) → (⟨S1x64, .f32⟩ : BufTy).Contents (Elt F)) ]

/-- Operations 66 … 68: the second layer's bias added, and the rectifier's slope. -/
abbrev pc5 : List (HloOp τ sig (Elt F)) :=
  [ StableHlo.unary main_v50 main_v51 (broadcastInDim S150000x64 ![0, 1] bcast_S1x64_S150000x64_0_1 : (⟨S1x64, .f32⟩ : BufTy).Contents (Elt F) → (⟨S150000x64, .f32⟩ : BufTy).Contents (Elt F)),
    StableHlo.binary main_v47 main_v51 main_v52 (addf : (⟨S150000x64, .f32⟩ : BufTy).Contents (Elt F) → (⟨S150000x64, .f32⟩ : BufTy).Contents (Elt F) → (⟨S150000x64, .f32⟩ : BufTy).Contents (Elt F)),
    StableHlo.nullary main_cst_7 (constant S_ .f32 0x3E4CCCCD#32) ]

/-- Operations 69 … 75: the second layer's leaky rectifier, its select included. -/
abbrev pc6 : List (HloOp τ sig (Elt F)) :=
  [ StableHlo.TRef.nullary main_call1.cst (constant S_ .f32 0x00000000#32),
    StableHlo.TRef.unary main_call1.cst main_call1.v0 (broadcastInDim S150000x64 ![] bcast_S_S150000x64),
    StableHlo.TRef.binary (.of main_v52 : StableHlo.TRef sig ⟨S150000x64, .f32⟩) main_call1.v0 main_call1.v1 (cmpf .oge),
    StableHlo.TRef.unary (.of main_cst_7 : StableHlo.TRef sig ⟨S_, .f32⟩) main_call1.v2 id,
    StableHlo.TRef.unary main_call1.v2 main_call1.v3 (broadcastInDim S150000x64 ![] bcast_S_S150000x64),
    StableHlo.TRef.binary main_call1.v3 (.of main_v52 : StableHlo.TRef sig ⟨S150000x64, .f32⟩) main_call1.v4 mulf,
    StableHlo.TRef.ternary main_call1.v1 (.of main_v52 : StableHlo.TRef sig ⟨S150000x64, .f32⟩) main_call1.v4 main_call1.call0.v0 select ]

/-- Operations 76 … 94: the second layer's row normalisation, and the third layer's product plus bias, through the rectifier's slope. -/
abbrev pc7 : List (HloOp τ sig (Elt F)) :=
  [ StableHlo.binary main_v53 main_v53 main_v54 (mulf : (⟨S150000x64, .f32⟩ : BufTy).Contents (Elt F) → (⟨S150000x64, .f32⟩ : BufTy).Contents (Elt F) → (⟨S150000x64, .f32⟩ : BufTy).Contents (Elt F)),
    StableHlo.nullary main_cst_8 (constant S_ .f32 0x00000000#32),
    StableHlo.binary main_v54 main_cst_8 main_v55 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v55 main_v56 (broadcastInDim S150000x1 ![0] bcast_S150000_S150000x1_0 : (⟨S150000, .f32⟩ : BufTy).Contents (Elt F) → (⟨S150000x1, .f32⟩ : BufTy).Contents (Elt F)),
    StableHlo.unary main_v56 main_v57 (Host.sqrt : (⟨S150000x1, .f32⟩ : BufTy).Contents (Elt F) → (⟨S150000x1, .f32⟩ : BufTy).Contents (Elt F)),
    StableHlo.nullary main_cst_9 (constant S_ .f32 0x2B8CBCCC#32),
    StableHlo.unary main_cst_9 main_v58 (broadcastInDim S150000x1 ![] bcast_S_S150000x1 : (⟨S_, .f32⟩ : BufTy).Contents (Elt F) → (⟨S150000x1, .f32⟩ : BufTy).Contents (Elt F)),
    StableHlo.binary main_v57 main_v58 main_v59 (maximumf : (⟨S150000x1, .f32⟩ : BufTy).Contents (Elt F) → (⟨S150000x1, .f32⟩ : BufTy).Contents (Elt F) → (⟨S150000x1, .f32⟩ : BufTy).Contents (Elt F)),
    StableHlo.unary main_v59 main_v60 (broadcastInDim S150000x64 ![0, 1] bcast_S150000x1_S150000x64_0_1 : (⟨S150000x1, .f32⟩ : BufTy).Contents (Elt F) → (⟨S150000x64, .f32⟩ : BufTy).Contents (Elt F)),
    StableHlo.binary main_v53 main_v60 main_v61 (Host.divf : (⟨S150000x64, .f32⟩ : BufTy).Contents (Elt F) → (⟨S150000x64, .f32⟩ : BufTy).Contents (Elt F) → (⟨S150000x64, .f32⟩ : BufTy).Contents (Elt F)),
    StableHlo.unary main_arg3 main_v62 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v62 main_v63 rfl shapeCasts_S1x64x64_S64x64,
    StableHlo.binary main_v26 main_v63 main_v64 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg4 main_v65 ((extractStridedSlice S1x64 ![2, 0] · slices_S3x64_S1x64_2_0) : (⟨S3x64, .f32⟩ : BufTy).Contents (Elt F) → (⟨S1x64, .f32⟩ : BufTy).Contents (Elt F)),
    StableHlo.reshape main_v65 main_v66 rfl shapeCasts_S1x64_S64,
    StableHlo.unary main_v66 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S150000x64 ![0, 1] bcast_S1x64_S150000x64_0_1 : (⟨S1x64, .f32⟩ : BufTy).Contents (Elt F) → (⟨S150000x64, .f32⟩ : BufTy).Contents (Elt F)),
    StableHlo.binary main_v64 main_v68 main_v69 (addf : (⟨S150000x64, .f32⟩ : BufTy).Contents (Elt F) → (⟨S150000x64, .f32⟩ : BufTy).Contents (Elt F) → (⟨S150000x64, .f32⟩ : BufTy).Contents (Elt F)),
    StableHlo.nullary main_cst_10 (constant S_ .f32 0x3E4CCCCD#32) ]

/-- Operations 95 … 101: the third layer's leaky rectifier, its select included. -/
abbrev pc8 : List (HloOp τ sig (Elt F)) :=
  [ StableHlo.TRef.nullary main_call2.cst (constant S_ .f32 0x00000000#32),
    StableHlo.TRef.unary main_call2.cst main_call2.v0 (broadcastInDim S150000x64 ![] bcast_S_S150000x64),
    StableHlo.TRef.binary (.of main_v69 : StableHlo.TRef sig ⟨S150000x64, .f32⟩) main_call2.v0 main_call2.v1 (cmpf .oge),
    StableHlo.TRef.unary (.of main_cst_10 : StableHlo.TRef sig ⟨S_, .f32⟩) main_call2.v2 id,
    StableHlo.TRef.unary main_call2.v2 main_call2.v3 (broadcastInDim S150000x64 ![] bcast_S_S150000x64),
    StableHlo.TRef.binary main_call2.v3 (.of main_v69 : StableHlo.TRef sig ⟨S150000x64, .f32⟩) main_call2.v4 mulf,
    StableHlo.TRef.ternary main_call2.v1 (.of main_v69 : StableHlo.TRef sig ⟨S150000x64, .f32⟩) main_call2.v4 main_call2.call0.v0 select ]

/-- Operations 102 … 114: the third layer's row normalisation, the four blocks joined column-wise, and the table's two row ranges. -/
abbrev pc9 : List (HloOp τ sig (Elt F)) :=
  [ StableHlo.binary main_v70 main_v70 main_v71 (mulf : (⟨S150000x64, .f32⟩ : BufTy).Contents (Elt F) → (⟨S150000x64, .f32⟩ : BufTy).Contents (Elt F) → (⟨S150000x64, .f32⟩ : BufTy).Contents (Elt F)),
    StableHlo.nullary main_cst_11 (constant S_ .f32 0x00000000#32),
    StableHlo.binary main_v71 main_cst_11 main_v72 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v72 main_v73 (broadcastInDim S150000x1 ![0] bcast_S150000_S150000x1_0 : (⟨S150000, .f32⟩ : BufTy).Contents (Elt F) → (⟨S150000x1, .f32⟩ : BufTy).Contents (Elt F)),
    StableHlo.unary main_v73 main_v74 (Host.sqrt : (⟨S150000x1, .f32⟩ : BufTy).Contents (Elt F) → (⟨S150000x1, .f32⟩ : BufTy).Contents (Elt F)),
    StableHlo.nullary main_cst_12 (constant S_ .f32 0x2B8CBCCC#32),
    StableHlo.unary main_cst_12 main_v75 (broadcastInDim S150000x1 ![] bcast_S_S150000x1 : (⟨S_, .f32⟩ : BufTy).Contents (Elt F) → (⟨S150000x1, .f32⟩ : BufTy).Contents (Elt F)),
    StableHlo.binary main_v74 main_v75 main_v76 (maximumf : (⟨S150000x1, .f32⟩ : BufTy).Contents (Elt F) → (⟨S150000x1, .f32⟩ : BufTy).Contents (Elt F) → (⟨S150000x1, .f32⟩ : BufTy).Contents (Elt F)),
    StableHlo.unary main_v76 main_v77 (broadcastInDim S150000x64 ![0, 1] bcast_S150000x1_S150000x64_0_1 : (⟨S150000x1, .f32⟩ : BufTy).Contents (Elt F) → (⟨S150000x64, .f32⟩ : BufTy).Contents (Elt F)),
    StableHlo.binary main_v70 main_v77 main_v78 (Host.divf : (⟨S150000x64, .f32⟩ : BufTy).Contents (Elt F) → (⟨S150000x64, .f32⟩ : BufTy).Contents (Elt F) → (⟨S150000x64, .f32⟩ : BufTy).Contents (Elt F)),
    StableHlo.nary ![main_v27, main_v44, main_v61, main_v78] main_v79 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.unary main_v79 main_v80 ((extractStridedSlice S100000x256 ![0, 0] · slices_S150000x256_S100000x256_0_0) : (⟨S150000x256, .f32⟩ : BufTy).Contents (Elt F) → (⟨S100000x256, .f32⟩ : BufTy).Contents (Elt F)),
    StableHlo.unary main_v79 main_v81 ((extractStridedSlice S50000x256 ![100000, 0] · slices_S150000x256_S50000x256_100000_0) : (⟨S150000x256, .f32⟩ : BufTy).Contents (Elt F) → (⟨S50000x256, .f32⟩ : BufTy).Contents (Elt F)) ]

/-- Operations 115 … 137: the three index vectors wrapped into range and the first two row gathers, through the third index's offset. -/
abbrev pc10 : List (HloOp τ sig (Elt F)) :=
  [ StableHlo.nullary main_c_13 (constantI S_ 32 0#32),
    StableHlo.unary main_c_13 main_v82 (broadcastInDim S4096 ![] bcast_S_S4096 : (⟨S_, .i32⟩ : BufTy).Contents (Elt F) → (⟨S4096, .i32⟩ : BufTy).Contents (Elt F)),
    StableHlo.binary main_arg7 main_v82 main_v83 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 100000#32),
    StableHlo.unary main_c_14 main_v84 (broadcastInDim S4096 ![] bcast_S_S4096 : (⟨S_, .i32⟩ : BufTy).Contents (Elt F) → (⟨S4096, .i32⟩ : BufTy).Contents (Elt F)),
    StableHlo.binary main_arg7 main_v84 main_v85 (addi : (⟨S4096, .i32⟩ : BufTy).Contents (Elt F) → (⟨S4096, .i32⟩ : BufTy).Contents (Elt F) → (⟨S4096, .i32⟩ : BufTy).Contents (Elt F)),
    StableHlo.ternary main_v83 main_v85 main_arg7 main_v86 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v86 main_v87 (broadcastInDim S4096x1 ![0] bcast_S4096_S4096x1_0 : (⟨S4096, .i32⟩ : BufTy).Contents (Elt F) → (⟨S4096x1, .i32⟩ : BufTy).Contents (Elt F)),
    StableHlo.binary main_v80 main_v87 main_v88 ((fun x i => Host.gather gather_S100000x256_S4096x1_S4096x256_1_0_n_n_0_1_1256 x i) : (⟨S100000x256, .f32⟩ : BufTy).Contents (Elt F) → (⟨S4096x1, .i32⟩ : BufTy).Contents (Elt F) → (⟨S4096x256, .f32⟩ : BufTy).Contents (Elt F)),
    StableHlo.nullary main_c_15 (constantI S_ 32 0#32),
    StableHlo.unary main_c_15 main_v89 (broadcastInDim S4096 ![] bcast_S_S4096 : (⟨S_, .i32⟩ : BufTy).Contents (Elt F) → (⟨S4096, .i32⟩ : BufTy).Contents (Elt F)),
    StableHlo.binary main_arg8 main_v89 main_v90 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 50000#32),
    StableHlo.unary main_c_16 main_v91 (broadcastInDim S4096 ![] bcast_S_S4096 : (⟨S_, .i32⟩ : BufTy).Contents (Elt F) → (⟨S4096, .i32⟩ : BufTy).Contents (Elt F)),
    StableHlo.binary main_arg8 main_v91 main_v92 (addi : (⟨S4096, .i32⟩ : BufTy).Contents (Elt F) → (⟨S4096, .i32⟩ : BufTy).Contents (Elt F) → (⟨S4096, .i32⟩ : BufTy).Contents (Elt F)),
    StableHlo.ternary main_v90 main_v92 main_arg8 main_v93 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v93 main_v94 (broadcastInDim S4096x1 ![0] bcast_S4096_S4096x1_0 : (⟨S4096, .i32⟩ : BufTy).Contents (Elt F) → (⟨S4096x1, .i32⟩ : BufTy).Contents (Elt F)),
    StableHlo.binary main_v81 main_v94 main_v95 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.nullary main_c_17 (constantI S_ 32 0#32),
    StableHlo.unary main_c_17 main_v96 (broadcastInDim S4096 ![] bcast_S_S4096 : (⟨S_, .i32⟩ : BufTy).Contents (Elt F) → (⟨S4096, .i32⟩ : BufTy).Contents (Elt F)),
    StableHlo.binary main_arg9 main_v96 main_v97 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 50000#32),
    StableHlo.unary main_c_18 main_v98 (broadcastInDim S4096 ![] bcast_S_S4096 : (⟨S_, .i32⟩ : BufTy).Contents (Elt F) → (⟨S4096, .i32⟩ : BufTy).Contents (Elt F)) ]

/-- Operations 138 … 148: the third row gather, the two row-wise inner products and their difference. -/
abbrev pc11 : List (HloOp τ sig (Elt F)) :=
  [ StableHlo.binary main_arg9 main_v98 main_v99 (addi : (⟨S4096, .i32⟩ : BufTy).Contents (Elt F) → (⟨S4096, .i32⟩ : BufTy).Contents (Elt F) → (⟨S4096, .i32⟩ : BufTy).Contents (Elt F)),
    StableHlo.ternary main_v97 main_v99 main_arg9 main_v100 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v100 main_v101 (broadcastInDim S4096x1 ![0] bcast_S4096_S4096x1_0 : (⟨S4096, .i32⟩ : BufTy).Contents (Elt F) → (⟨S4096x1, .i32⟩ : BufTy).Contents (Elt F)),
    StableHlo.binary main_v81 main_v101 main_v102 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.binary main_v88 main_v95 main_v103 (mulf : (⟨S4096x256, .f32⟩ : BufTy).Contents (Elt F) → (⟨S4096x256, .f32⟩ : BufTy).Contents (Elt F) → (⟨S4096x256, .f32⟩ : BufTy).Contents (Elt F)),
    StableHlo.nullary main_cst_19 (constant S_ .f32 0x00000000#32),
    StableHlo.binary main_v103 main_cst_19 main_v104 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.binary main_v88 main_v102 main_v105 (mulf : (⟨S4096x256, .f32⟩ : BufTy).Contents (Elt F) → (⟨S4096x256, .f32⟩ : BufTy).Contents (Elt F) → (⟨S4096x256, .f32⟩ : BufTy).Contents (Elt F)),
    StableHlo.nullary main_cst_20 (constant S_ .f32 0x00000000#32),
    StableHlo.binary main_v105 main_cst_20 main_v106 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.binary main_v104 main_v106 main_v107 (subf : (⟨S4096, .f32⟩ : BufTy).Contents (Elt F) → (⟨S4096, .f32⟩ : BufTy).Contents (Elt F) → (⟨S4096, .f32⟩ : BufTy).Contents (Elt F)) ]

/-- Operations 149 … 164: the log-sigmoid of the difference, its softplus included. -/
abbrev pc12 : List (HloOp τ sig (Elt F)) :=
  [ StableHlo.TRef.unary (.of main_v107 : StableHlo.TRef sig ⟨S4096, .f32⟩) main_call3.v0 Host.negf,
    StableHlo.TRef.nullary main_call3.call0.cst (constant S_ .f32 0x00000000#32),
    StableHlo.TRef.unary main_call3.call0.cst main_call3.call0.v0 (broadcastInDim S4096 ![] bcast_S_S4096),
    StableHlo.TRef.binary main_call3.v0 main_call3.call0.v0 main_call3.call0.v1 maximumf,
    StableHlo.TRef.unary main_call3.call0.cst main_call3.call0.v2 (broadcastInDim S4096 ![] bcast_S_S4096),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S4096 ![] bcast_S_S4096),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf ]

/-- Operations 165 … 187: the mean of the negated log-sigmoid, the three sums of squares, and the weighted total. -/
abbrev pc13 : List (HloOp τ sig (Elt F)) :=
  [ StableHlo.nullary main_cst_21 (constant S_ .f32 0x00000000#32),
    StableHlo.binary main_v108 main_cst_21 main_v109 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_22 (constant S_ .f32 0x45800000#32),
    StableHlo.binary main_v109 main_cst_22 main_v110 (Host.divf : (⟨S_, .f32⟩ : BufTy).Contents (Elt F) → (⟨S_, .f32⟩ : BufTy).Contents (Elt F) → (⟨S_, .f32⟩ : BufTy).Contents (Elt F)),
    StableHlo.unary main_v110 main_v111 (Host.negf : (⟨S_, .f32⟩ : BufTy).Contents (Elt F) → (⟨S_, .f32⟩ : BufTy).Contents (Elt F)),
    StableHlo.binary main_v88 main_v88 main_v112 (mulf : (⟨S4096x256, .f32⟩ : BufTy).Contents (Elt F) → (⟨S4096x256, .f32⟩ : BufTy).Contents (Elt F) → (⟨S4096x256, .f32⟩ : BufTy).Contents (Elt F)),
    StableHlo.nullary main_cst_23 (constant S_ .f32 0x00000000#32),
    StableHlo.binary main_v112 main_cst_23 main_v113 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.binary main_v95 main_v95 main_v114 (mulf : (⟨S4096x256, .f32⟩ : BufTy).Contents (Elt F) → (⟨S4096x256, .f32⟩ : BufTy).Contents (Elt F) → (⟨S4096x256, .f32⟩ : BufTy).Contents (Elt F)),
    StableHlo.nullary main_cst_24 (constant S_ .f32 0x00000000#32),
    StableHlo.binary main_v114 main_cst_24 main_v115 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.binary main_v113 main_v115 main_v116 (addf : (⟨S_, .f32⟩ : BufTy).Contents (Elt F) → (⟨S_, .f32⟩ : BufTy).Contents (Elt F) → (⟨S_, .f32⟩ : BufTy).Contents (Elt F)),
    StableHlo.binary main_v102 main_v102 main_v117 (mulf : (⟨S4096x256, .f32⟩ : BufTy).Contents (Elt F) → (⟨S4096x256, .f32⟩ : BufTy).Contents (Elt F) → (⟨S4096x256, .f32⟩ : BufTy).Contents (Elt F)),
    StableHlo.nullary main_cst_25 (constant S_ .f32 0x00000000#32),
    StableHlo.binary main_v117 main_cst_25 main_v118 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.binary main_v116 main_v118 main_v119 (addf : (⟨S_, .f32⟩ : BufTy).Contents (Elt F) → (⟨S_, .f32⟩ : BufTy).Contents (Elt F) → (⟨S_, .f32⟩ : BufTy).Contents (Elt F)),
    StableHlo.nullary main_cst_26 (constant S_ .f32 0x40000000#32),
    StableHlo.binary main_v119 main_cst_26 main_v120 (Host.divf : (⟨S_, .f32⟩ : BufTy).Contents (Elt F) → (⟨S_, .f32⟩ : BufTy).Contents (Elt F) → (⟨S_, .f32⟩ : BufTy).Contents (Elt F)),
    StableHlo.nullary main_cst_27 (constant S_ .f32 0x38D1B717#32),
    StableHlo.binary main_cst_27 main_v120 main_v121 (mulf : (⟨S_, .f32⟩ : BufTy).Contents (Elt F) → (⟨S_, .f32⟩ : BufTy).Contents (Elt F) → (⟨S_, .f32⟩ : BufTy).Contents (Elt F)),
    StableHlo.nullary main_cst_28 (constant S_ .f32 0x45800000#32),
    StableHlo.binary main_v121 main_cst_28 main_v122 (Host.divf : (⟨S_, .f32⟩ : BufTy).Contents (Elt F) → (⟨S_, .f32⟩ : BufTy).Contents (Elt F) → (⟨S_, .f32⟩ : BufTy).Contents (Elt F)),
    StableHlo.binary main_v111 main_v122 main_v123 (addf : (⟨S_, .f32⟩ : BufTy).Contents (Elt F) → (⟨S_, .f32⟩ : BufTy).Contents (Elt F) → (⟨S_, .f32⟩ : BufTy).Contents (Elt F)) ]

/-- Operations 32 … 114, the second of the three pieces: the three layers, from the join of the two aggregated tables through the two row ranges of the joined table. -/
abbrev opsMid : List (HloOp τ sig (Elt F)) :=
  [ StableHlo.binary main_v12 main_v25 main_v26 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.binary main_arg0 main_arg1 main_v27 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.unary main_arg3 main_v28 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v28 main_v29 rfl shapeCasts_S1x64x64_S64x64,
    StableHlo.binary main_v26 main_v29 main_v30 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg4 main_v31 ((extractStridedSlice S1x64 ![0, 0] · slices_S3x64_S1x64_0_0) : (⟨S3x64, .f32⟩ : BufTy).Contents (Elt F) → (⟨S1x64, .f32⟩ : BufTy).Contents (Elt F)),
    StableHlo.reshape main_v31 main_v32 rfl shapeCasts_S1x64_S64,
    StableHlo.unary main_v32 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S150000x64 ![0, 1] bcast_S1x64_S150000x64_0_1 : (⟨S1x64, .f32⟩ : BufTy).Contents (Elt F) → (⟨S150000x64, .f32⟩ : BufTy).Contents (Elt F)),
    StableHlo.binary main_v30 main_v34 main_v35 (addf : (⟨S150000x64, .f32⟩ : BufTy).Contents (Elt F) → (⟨S150000x64, .f32⟩ : BufTy).Contents (Elt F) → (⟨S150000x64, .f32⟩ : BufTy).Contents (Elt F)),
    StableHlo.nullary main_cst_4 (constant S_ .f32 0x3E4CCCCD#32),
    StableHlo.TRef.nullary main_call0.cst (constant S_ .f32 0x00000000#32),
    StableHlo.TRef.unary main_call0.cst main_call0.v0 (broadcastInDim S150000x64 ![] bcast_S_S150000x64),
    StableHlo.TRef.binary (.of main_v35 : StableHlo.TRef sig ⟨S150000x64, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S150000x64 ![] bcast_S_S150000x64),
    StableHlo.TRef.binary main_call0.v3 (.of main_v35 : StableHlo.TRef sig ⟨S150000x64, .f32⟩) main_call0.v4 mulf,
    StableHlo.TRef.ternary main_call0.v1 (.of main_v35 : StableHlo.TRef sig ⟨S150000x64, .f32⟩) main_call0.v4 main_call0.call0.v0 select,
    StableHlo.binary main_v36 main_v36 main_v37 (mulf : (⟨S150000x64, .f32⟩ : BufTy).Contents (Elt F) → (⟨S150000x64, .f32⟩ : BufTy).Contents (Elt F) → (⟨S150000x64, .f32⟩ : BufTy).Contents (Elt F)),
    StableHlo.nullary main_cst_5 (constant S_ .f32 0x00000000#32),
    StableHlo.binary main_v37 main_cst_5 main_v38 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v38 main_v39 (broadcastInDim S150000x1 ![0] bcast_S150000_S150000x1_0 : (⟨S150000, .f32⟩ : BufTy).Contents (Elt F) → (⟨S150000x1, .f32⟩ : BufTy).Contents (Elt F)),
    StableHlo.unary main_v39 main_v40 (Host.sqrt : (⟨S150000x1, .f32⟩ : BufTy).Contents (Elt F) → (⟨S150000x1, .f32⟩ : BufTy).Contents (Elt F)),
    StableHlo.nullary main_cst_6 (constant S_ .f32 0x2B8CBCCC#32),
    StableHlo.unary main_cst_6 main_v41 (broadcastInDim S150000x1 ![] bcast_S_S150000x1 : (⟨S_, .f32⟩ : BufTy).Contents (Elt F) → (⟨S150000x1, .f32⟩ : BufTy).Contents (Elt F)),
    StableHlo.binary main_v40 main_v41 main_v42 (maximumf : (⟨S150000x1, .f32⟩ : BufTy).Contents (Elt F) → (⟨S150000x1, .f32⟩ : BufTy).Contents (Elt F) → (⟨S150000x1, .f32⟩ : BufTy).Contents (Elt F)),
    StableHlo.unary main_v42 main_v43 (broadcastInDim S150000x64 ![0, 1] bcast_S150000x1_S150000x64_0_1 : (⟨S150000x1, .f32⟩ : BufTy).Contents (Elt F) → (⟨S150000x64, .f32⟩ : BufTy).Contents (Elt F)),
    StableHlo.binary main_v36 main_v43 main_v44 (Host.divf : (⟨S150000x64, .f32⟩ : BufTy).Contents (Elt F) → (⟨S150000x64, .f32⟩ : BufTy).Contents (Elt F) → (⟨S150000x64, .f32⟩ : BufTy).Contents (Elt F)),
    StableHlo.unary main_arg3 main_v45 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v45 main_v46 rfl shapeCasts_S1x64x64_S64x64,
    StableHlo.binary main_v26 main_v46 main_v47 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg4 main_v48 ((extractStridedSlice S1x64 ![1, 0] · slices_S3x64_S1x64_1_0) : (⟨S3x64, .f32⟩ : BufTy).Contents (Elt F) → (⟨S1x64, .f32⟩ : BufTy).Contents (Elt F)),
    StableHlo.reshape main_v48 main_v49 rfl shapeCasts_S1x64_S64,
    StableHlo.unary main_v49 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S150000x64 ![0, 1] bcast_S1x64_S150000x64_0_1 : (⟨S1x64, .f32⟩ : BufTy).Contents (Elt F) → (⟨S150000x64, .f32⟩ : BufTy).Contents (Elt F)),
    StableHlo.binary main_v47 main_v51 main_v52 (addf : (⟨S150000x64, .f32⟩ : BufTy).Contents (Elt F) → (⟨S150000x64, .f32⟩ : BufTy).Contents (Elt F) → (⟨S150000x64, .f32⟩ : BufTy).Contents (Elt F)),
    StableHlo.nullary main_cst_7 (constant S_ .f32 0x3E4CCCCD#32),
    StableHlo.TRef.nullary main_call1.cst (constant S_ .f32 0x00000000#32),
    StableHlo.TRef.unary main_call1.cst main_call1.v0 (broadcastInDim S150000x64 ![] bcast_S_S150000x64),
    StableHlo.TRef.binary (.of main_v52 : StableHlo.TRef sig ⟨S150000x64, .f32⟩) main_call1.v0 main_call1.v1 (cmpf .oge),
    StableHlo.TRef.unary (.of main_cst_7 : StableHlo.TRef sig ⟨S_, .f32⟩) main_call1.v2 id,
    StableHlo.TRef.unary main_call1.v2 main_call1.v3 (broadcastInDim S150000x64 ![] bcast_S_S150000x64),
    StableHlo.TRef.binary main_call1.v3 (.of main_v52 : StableHlo.TRef sig ⟨S150000x64, .f32⟩) main_call1.v4 mulf,
    StableHlo.TRef.ternary main_call1.v1 (.of main_v52 : StableHlo.TRef sig ⟨S150000x64, .f32⟩) main_call1.v4 main_call1.call0.v0 select,
    StableHlo.binary main_v53 main_v53 main_v54 (mulf : (⟨S150000x64, .f32⟩ : BufTy).Contents (Elt F) → (⟨S150000x64, .f32⟩ : BufTy).Contents (Elt F) → (⟨S150000x64, .f32⟩ : BufTy).Contents (Elt F)),
    StableHlo.nullary main_cst_8 (constant S_ .f32 0x00000000#32),
    StableHlo.binary main_v54 main_cst_8 main_v55 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v55 main_v56 (broadcastInDim S150000x1 ![0] bcast_S150000_S150000x1_0 : (⟨S150000, .f32⟩ : BufTy).Contents (Elt F) → (⟨S150000x1, .f32⟩ : BufTy).Contents (Elt F)),
    StableHlo.unary main_v56 main_v57 (Host.sqrt : (⟨S150000x1, .f32⟩ : BufTy).Contents (Elt F) → (⟨S150000x1, .f32⟩ : BufTy).Contents (Elt F)),
    StableHlo.nullary main_cst_9 (constant S_ .f32 0x2B8CBCCC#32),
    StableHlo.unary main_cst_9 main_v58 (broadcastInDim S150000x1 ![] bcast_S_S150000x1 : (⟨S_, .f32⟩ : BufTy).Contents (Elt F) → (⟨S150000x1, .f32⟩ : BufTy).Contents (Elt F)),
    StableHlo.binary main_v57 main_v58 main_v59 (maximumf : (⟨S150000x1, .f32⟩ : BufTy).Contents (Elt F) → (⟨S150000x1, .f32⟩ : BufTy).Contents (Elt F) → (⟨S150000x1, .f32⟩ : BufTy).Contents (Elt F)),
    StableHlo.unary main_v59 main_v60 (broadcastInDim S150000x64 ![0, 1] bcast_S150000x1_S150000x64_0_1 : (⟨S150000x1, .f32⟩ : BufTy).Contents (Elt F) → (⟨S150000x64, .f32⟩ : BufTy).Contents (Elt F)),
    StableHlo.binary main_v53 main_v60 main_v61 (Host.divf : (⟨S150000x64, .f32⟩ : BufTy).Contents (Elt F) → (⟨S150000x64, .f32⟩ : BufTy).Contents (Elt F) → (⟨S150000x64, .f32⟩ : BufTy).Contents (Elt F)),
    StableHlo.unary main_arg3 main_v62 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v62 main_v63 rfl shapeCasts_S1x64x64_S64x64,
    StableHlo.binary main_v26 main_v63 main_v64 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg4 main_v65 ((extractStridedSlice S1x64 ![2, 0] · slices_S3x64_S1x64_2_0) : (⟨S3x64, .f32⟩ : BufTy).Contents (Elt F) → (⟨S1x64, .f32⟩ : BufTy).Contents (Elt F)),
    StableHlo.reshape main_v65 main_v66 rfl shapeCasts_S1x64_S64,
    StableHlo.unary main_v66 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S150000x64 ![0, 1] bcast_S1x64_S150000x64_0_1 : (⟨S1x64, .f32⟩ : BufTy).Contents (Elt F) → (⟨S150000x64, .f32⟩ : BufTy).Contents (Elt F)),
    StableHlo.binary main_v64 main_v68 main_v69 (addf : (⟨S150000x64, .f32⟩ : BufTy).Contents (Elt F) → (⟨S150000x64, .f32⟩ : BufTy).Contents (Elt F) → (⟨S150000x64, .f32⟩ : BufTy).Contents (Elt F)),
    StableHlo.nullary main_cst_10 (constant S_ .f32 0x3E4CCCCD#32),
    StableHlo.TRef.nullary main_call2.cst (constant S_ .f32 0x00000000#32),
    StableHlo.TRef.unary main_call2.cst main_call2.v0 (broadcastInDim S150000x64 ![] bcast_S_S150000x64),
    StableHlo.TRef.binary (.of main_v69 : StableHlo.TRef sig ⟨S150000x64, .f32⟩) main_call2.v0 main_call2.v1 (cmpf .oge),
    StableHlo.TRef.unary (.of main_cst_10 : StableHlo.TRef sig ⟨S_, .f32⟩) main_call2.v2 id,
    StableHlo.TRef.unary main_call2.v2 main_call2.v3 (broadcastInDim S150000x64 ![] bcast_S_S150000x64),
    StableHlo.TRef.binary main_call2.v3 (.of main_v69 : StableHlo.TRef sig ⟨S150000x64, .f32⟩) main_call2.v4 mulf,
    StableHlo.TRef.ternary main_call2.v1 (.of main_v69 : StableHlo.TRef sig ⟨S150000x64, .f32⟩) main_call2.v4 main_call2.call0.v0 select,
    StableHlo.binary main_v70 main_v70 main_v71 (mulf : (⟨S150000x64, .f32⟩ : BufTy).Contents (Elt F) → (⟨S150000x64, .f32⟩ : BufTy).Contents (Elt F) → (⟨S150000x64, .f32⟩ : BufTy).Contents (Elt F)),
    StableHlo.nullary main_cst_11 (constant S_ .f32 0x00000000#32),
    StableHlo.binary main_v71 main_cst_11 main_v72 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v72 main_v73 (broadcastInDim S150000x1 ![0] bcast_S150000_S150000x1_0 : (⟨S150000, .f32⟩ : BufTy).Contents (Elt F) → (⟨S150000x1, .f32⟩ : BufTy).Contents (Elt F)),
    StableHlo.unary main_v73 main_v74 (Host.sqrt : (⟨S150000x1, .f32⟩ : BufTy).Contents (Elt F) → (⟨S150000x1, .f32⟩ : BufTy).Contents (Elt F)),
    StableHlo.nullary main_cst_12 (constant S_ .f32 0x2B8CBCCC#32),
    StableHlo.unary main_cst_12 main_v75 (broadcastInDim S150000x1 ![] bcast_S_S150000x1 : (⟨S_, .f32⟩ : BufTy).Contents (Elt F) → (⟨S150000x1, .f32⟩ : BufTy).Contents (Elt F)),
    StableHlo.binary main_v74 main_v75 main_v76 (maximumf : (⟨S150000x1, .f32⟩ : BufTy).Contents (Elt F) → (⟨S150000x1, .f32⟩ : BufTy).Contents (Elt F) → (⟨S150000x1, .f32⟩ : BufTy).Contents (Elt F)),
    StableHlo.unary main_v76 main_v77 (broadcastInDim S150000x64 ![0, 1] bcast_S150000x1_S150000x64_0_1 : (⟨S150000x1, .f32⟩ : BufTy).Contents (Elt F) → (⟨S150000x64, .f32⟩ : BufTy).Contents (Elt F)),
    StableHlo.binary main_v70 main_v77 main_v78 (Host.divf : (⟨S150000x64, .f32⟩ : BufTy).Contents (Elt F) → (⟨S150000x64, .f32⟩ : BufTy).Contents (Elt F) → (⟨S150000x64, .f32⟩ : BufTy).Contents (Elt F)),
    StableHlo.nary ![main_v27, main_v44, main_v61, main_v78] main_v79 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    StableHlo.unary main_v79 main_v80 ((extractStridedSlice S100000x256 ![0, 0] · slices_S150000x256_S100000x256_0_0) : (⟨S150000x256, .f32⟩ : BufTy).Contents (Elt F) → (⟨S100000x256, .f32⟩ : BufTy).Contents (Elt F)),
    StableHlo.unary main_v79 main_v81 ((extractStridedSlice S50000x256 ![100000, 0] · slices_S150000x256_S50000x256_100000_0) : (⟨S150000x256, .f32⟩ : BufTy).Contents (Elt F) → (⟨S50000x256, .f32⟩ : BufTy).Contents (Elt F)) ]

/-- Operations 115 … 187, the third piece: the scoring of the sampled rows. -/
abbrev opsTail : List (HloOp τ sig (Elt F)) :=
  [ StableHlo.nullary main_c_13 (constantI S_ 32 0#32),
    StableHlo.unary main_c_13 main_v82 (broadcastInDim S4096 ![] bcast_S_S4096 : (⟨S_, .i32⟩ : BufTy).Contents (Elt F) → (⟨S4096, .i32⟩ : BufTy).Contents (Elt F)),
    StableHlo.binary main_arg7 main_v82 main_v83 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 100000#32),
    StableHlo.unary main_c_14 main_v84 (broadcastInDim S4096 ![] bcast_S_S4096 : (⟨S_, .i32⟩ : BufTy).Contents (Elt F) → (⟨S4096, .i32⟩ : BufTy).Contents (Elt F)),
    StableHlo.binary main_arg7 main_v84 main_v85 (addi : (⟨S4096, .i32⟩ : BufTy).Contents (Elt F) → (⟨S4096, .i32⟩ : BufTy).Contents (Elt F) → (⟨S4096, .i32⟩ : BufTy).Contents (Elt F)),
    StableHlo.ternary main_v83 main_v85 main_arg7 main_v86 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v86 main_v87 (broadcastInDim S4096x1 ![0] bcast_S4096_S4096x1_0 : (⟨S4096, .i32⟩ : BufTy).Contents (Elt F) → (⟨S4096x1, .i32⟩ : BufTy).Contents (Elt F)),
    StableHlo.binary main_v80 main_v87 main_v88 ((fun x i => Host.gather gather_S100000x256_S4096x1_S4096x256_1_0_n_n_0_1_1256 x i) : (⟨S100000x256, .f32⟩ : BufTy).Contents (Elt F) → (⟨S4096x1, .i32⟩ : BufTy).Contents (Elt F) → (⟨S4096x256, .f32⟩ : BufTy).Contents (Elt F)),
    StableHlo.nullary main_c_15 (constantI S_ 32 0#32),
    StableHlo.unary main_c_15 main_v89 (broadcastInDim S4096 ![] bcast_S_S4096 : (⟨S_, .i32⟩ : BufTy).Contents (Elt F) → (⟨S4096, .i32⟩ : BufTy).Contents (Elt F)),
    StableHlo.binary main_arg8 main_v89 main_v90 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 50000#32),
    StableHlo.unary main_c_16 main_v91 (broadcastInDim S4096 ![] bcast_S_S4096 : (⟨S_, .i32⟩ : BufTy).Contents (Elt F) → (⟨S4096, .i32⟩ : BufTy).Contents (Elt F)),
    StableHlo.binary main_arg8 main_v91 main_v92 (addi : (⟨S4096, .i32⟩ : BufTy).Contents (Elt F) → (⟨S4096, .i32⟩ : BufTy).Contents (Elt F) → (⟨S4096, .i32⟩ : BufTy).Contents (Elt F)),
    StableHlo.ternary main_v90 main_v92 main_arg8 main_v93 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v93 main_v94 (broadcastInDim S4096x1 ![0] bcast_S4096_S4096x1_0 : (⟨S4096, .i32⟩ : BufTy).Contents (Elt F) → (⟨S4096x1, .i32⟩ : BufTy).Contents (Elt F)),
    StableHlo.binary main_v81 main_v94 main_v95 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.nullary main_c_17 (constantI S_ 32 0#32),
    StableHlo.unary main_c_17 main_v96 (broadcastInDim S4096 ![] bcast_S_S4096 : (⟨S_, .i32⟩ : BufTy).Contents (Elt F) → (⟨S4096, .i32⟩ : BufTy).Contents (Elt F)),
    StableHlo.binary main_arg9 main_v96 main_v97 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 50000#32),
    StableHlo.unary main_c_18 main_v98 (broadcastInDim S4096 ![] bcast_S_S4096 : (⟨S_, .i32⟩ : BufTy).Contents (Elt F) → (⟨S4096, .i32⟩ : BufTy).Contents (Elt F)),
    StableHlo.binary main_arg9 main_v98 main_v99 (addi : (⟨S4096, .i32⟩ : BufTy).Contents (Elt F) → (⟨S4096, .i32⟩ : BufTy).Contents (Elt F) → (⟨S4096, .i32⟩ : BufTy).Contents (Elt F)),
    StableHlo.ternary main_v97 main_v99 main_arg9 main_v100 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v100 main_v101 (broadcastInDim S4096x1 ![0] bcast_S4096_S4096x1_0 : (⟨S4096, .i32⟩ : BufTy).Contents (Elt F) → (⟨S4096x1, .i32⟩ : BufTy).Contents (Elt F)),
    StableHlo.binary main_v81 main_v101 main_v102 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.binary main_v88 main_v95 main_v103 (mulf : (⟨S4096x256, .f32⟩ : BufTy).Contents (Elt F) → (⟨S4096x256, .f32⟩ : BufTy).Contents (Elt F) → (⟨S4096x256, .f32⟩ : BufTy).Contents (Elt F)),
    StableHlo.nullary main_cst_19 (constant S_ .f32 0x00000000#32),
    StableHlo.binary main_v103 main_cst_19 main_v104 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.binary main_v88 main_v102 main_v105 (mulf : (⟨S4096x256, .f32⟩ : BufTy).Contents (Elt F) → (⟨S4096x256, .f32⟩ : BufTy).Contents (Elt F) → (⟨S4096x256, .f32⟩ : BufTy).Contents (Elt F)),
    StableHlo.nullary main_cst_20 (constant S_ .f32 0x00000000#32),
    StableHlo.binary main_v105 main_cst_20 main_v106 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.binary main_v104 main_v106 main_v107 (subf : (⟨S4096, .f32⟩ : BufTy).Contents (Elt F) → (⟨S4096, .f32⟩ : BufTy).Contents (Elt F) → (⟨S4096, .f32⟩ : BufTy).Contents (Elt F)),
    StableHlo.TRef.unary (.of main_v107 : StableHlo.TRef sig ⟨S4096, .f32⟩) main_call3.v0 Host.negf,
    StableHlo.TRef.nullary main_call3.call0.cst (constant S_ .f32 0x00000000#32),
    StableHlo.TRef.unary main_call3.call0.cst main_call3.call0.v0 (broadcastInDim S4096 ![] bcast_S_S4096),
    StableHlo.TRef.binary main_call3.v0 main_call3.call0.v0 main_call3.call0.v1 maximumf,
    StableHlo.TRef.unary main_call3.call0.cst main_call3.call0.v2 (broadcastInDim S4096 ![] bcast_S_S4096),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S4096 ![] bcast_S_S4096),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.nullary main_cst_21 (constant S_ .f32 0x00000000#32),
    StableHlo.binary main_v108 main_cst_21 main_v109 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_22 (constant S_ .f32 0x45800000#32),
    StableHlo.binary main_v109 main_cst_22 main_v110 (Host.divf : (⟨S_, .f32⟩ : BufTy).Contents (Elt F) → (⟨S_, .f32⟩ : BufTy).Contents (Elt F) → (⟨S_, .f32⟩ : BufTy).Contents (Elt F)),
    StableHlo.unary main_v110 main_v111 (Host.negf : (⟨S_, .f32⟩ : BufTy).Contents (Elt F) → (⟨S_, .f32⟩ : BufTy).Contents (Elt F)),
    StableHlo.binary main_v88 main_v88 main_v112 (mulf : (⟨S4096x256, .f32⟩ : BufTy).Contents (Elt F) → (⟨S4096x256, .f32⟩ : BufTy).Contents (Elt F) → (⟨S4096x256, .f32⟩ : BufTy).Contents (Elt F)),
    StableHlo.nullary main_cst_23 (constant S_ .f32 0x00000000#32),
    StableHlo.binary main_v112 main_cst_23 main_v113 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.binary main_v95 main_v95 main_v114 (mulf : (⟨S4096x256, .f32⟩ : BufTy).Contents (Elt F) → (⟨S4096x256, .f32⟩ : BufTy).Contents (Elt F) → (⟨S4096x256, .f32⟩ : BufTy).Contents (Elt F)),
    StableHlo.nullary main_cst_24 (constant S_ .f32 0x00000000#32),
    StableHlo.binary main_v114 main_cst_24 main_v115 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.binary main_v113 main_v115 main_v116 (addf : (⟨S_, .f32⟩ : BufTy).Contents (Elt F) → (⟨S_, .f32⟩ : BufTy).Contents (Elt F) → (⟨S_, .f32⟩ : BufTy).Contents (Elt F)),
    StableHlo.binary main_v102 main_v102 main_v117 (mulf : (⟨S4096x256, .f32⟩ : BufTy).Contents (Elt F) → (⟨S4096x256, .f32⟩ : BufTy).Contents (Elt F) → (⟨S4096x256, .f32⟩ : BufTy).Contents (Elt F)),
    StableHlo.nullary main_cst_25 (constant S_ .f32 0x00000000#32),
    StableHlo.binary main_v117 main_cst_25 main_v118 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.binary main_v116 main_v118 main_v119 (addf : (⟨S_, .f32⟩ : BufTy).Contents (Elt F) → (⟨S_, .f32⟩ : BufTy).Contents (Elt F) → (⟨S_, .f32⟩ : BufTy).Contents (Elt F)),
    StableHlo.nullary main_cst_26 (constant S_ .f32 0x40000000#32),
    StableHlo.binary main_v119 main_cst_26 main_v120 (Host.divf : (⟨S_, .f32⟩ : BufTy).Contents (Elt F) → (⟨S_, .f32⟩ : BufTy).Contents (Elt F) → (⟨S_, .f32⟩ : BufTy).Contents (Elt F)),
    StableHlo.nullary main_cst_27 (constant S_ .f32 0x38D1B717#32),
    StableHlo.binary main_cst_27 main_v120 main_v121 (mulf : (⟨S_, .f32⟩ : BufTy).Contents (Elt F) → (⟨S_, .f32⟩ : BufTy).Contents (Elt F) → (⟨S_, .f32⟩ : BufTy).Contents (Elt F)),
    StableHlo.nullary main_cst_28 (constant S_ .f32 0x45800000#32),
    StableHlo.binary main_v121 main_cst_28 main_v122 (Host.divf : (⟨S_, .f32⟩ : BufTy).Contents (Elt F) → (⟨S_, .f32⟩ : BufTy).Contents (Elt F) → (⟨S_, .f32⟩ : BufTy).Contents (Elt F)),
    StableHlo.binary main_v111 main_v122 main_v123 (addf : (⟨S_, .f32⟩ : BufTy).Contents (Elt F) → (⟨S_, .f32⟩ : BufTy).Contents (Elt F) → (⟨S_, .f32⟩ : BufTy).Contents (Elt F)) ]

/-- All 188 operations, in order. -/
abbrev ops : List (HloOp τ sig (Elt F)) := opsHead ++ opsMid ++ opsTail

theorem ops_split : (ops : List (HloOp τ sig (Elt F))) = opsHead ++ opsMid ++ opsTail := rfl

/-- The second piece is its eight stretches, cut at the applications of the outlined functions. -/
theorem opsMid_eq : (opsMid : List (HloOp τ sig (Elt F))) = pc2 ++ pc3 ++ pc4 ++ pc5 ++ pc6 ++ pc7 ++ pc8 ++ pc9 := rfl

/-- The third piece is its four stretches. -/
theorem opsTail_eq : (opsTail : List (HloOp τ sig (Elt F))) = pc10 ++ pc11 ++ pc12 ++ pc13 := rfl

/-- The three windows in which the entry function is printed, as operations. -/
abbrev ops0 : List (HloOp τ sig (Elt F)) := opsHead ++ pc2 ++ pc3 ++ pc4
abbrev ops1 : List (HloOp τ sig (Elt F)) := pc5 ++ pc6 ++ pc7 ++ pc8 ++ pc9 ++ pc10
abbrev ops2 : List (HloOp τ sig (Elt F)) := pc11 ++ pc12 ++ pc13

theorem ops_windows : (ops : List (HloOp τ sig (Elt F))) = ops0 ++ ops1 ++ ops2 := by
  rw [ops_split, opsMid_eq, opsTail_eq]
  simp only [List.append_assoc]

/-! ## The entry function is the list run in order -/

/-- The first window: its plain stretch, the first rectifier's operations, and the stretch after it, the last in tail
    position. Both sides unfold to the same chain of steps. -/
theorem part0_eq (c : Dev nD) : main_part0 (F := F) c = Pipeline.chainK [seq (opsHead ++ pc2), seq pc3] (seq pc4) := by
  chain_rfl

/-- The second window, cut at its two rectifiers. -/
theorem part1_eq (c : Dev nD) : main_part1 (F := F) c = Pipeline.chainK [seq pc5, seq pc6, seq pc7, seq pc8] (seq (pc9 ++ pc10)) := by
  chain_rfl

/-- The third window, cut at the log-sigmoid; it ends the function. -/
theorem part2_eq (c : Dev nD) : main_part2 (F := F) c = Pipeline.chain [seq pc11, seq pc12, seq pc13] := by
  chain_rfl

/-- The entry function runs the 188 operations in order: the three windows one after the other, each the run of its
    stretches, and running two lists one after the other is running their concatenation. -/
theorem main_eq (c : Dev nD) : main (F := F) c = seq ops := by
  show (main_part0 (F := F) c >>= fun _ => main_part1 (F := F) c >>= fun _ => main_part2 (F := F) c) = _
  rw [part0_eq, part1_eq, part2_eq, ops_split, opsMid_eq, opsTail_eq]
  simp only [Pipeline.chainK, Pipeline.chain_cons, Pipeline.chain_nil, seq_append, bind_assoc, bind_pure_unit]

/-! ## Every execution ends at the fold of the operations -/

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

/-- A property of every operation of two lists holds of every operation of their concatenation. -/
theorem forall_app {p : HloOp τ sig (Elt F) → Prop} {a b : List (HloOp τ sig (Elt F))} (ha : a.Forall p) (hb : b.Forall p) :
    (a ++ b).Forall p := List.forall_append.mpr ⟨ha, hb⟩

/-- Each operation of the piece touches the TensorCore's buffers only. -/
theorem opsHead_sub : (opsHead : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- Each operation of the piece touches the TensorCore's buffers only. -/
theorem opsMid_sub : (opsMid : List (HloOp τ sig (Elt F))).Forall fun op => op.bufs ⊆ tcRefs τ sig :=
  ⟨binary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., nary_bufs_sub .., unary_bufs_sub .., unary_bufs_sub ..⟩

/-- Each operation of the piece touches the TensorCore's buffers only. -/
theorem opsTail_sub : (opsTail : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., nullary_bufs_sub .., binary_bufs_sub .., unary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub ..⟩

theorem ops_sub : (ops : List (HloOp τ sig (Elt F))).Forall fun op => op.bufs ⊆ tcRefs τ sig :=
  forall_app (forall_app opsHead_sub opsMid_sub) opsTail_sub

/-- Each operation of the piece determines everything it writes. -/
theorem opsHead_fresh : (opsHead : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation of the piece determines everything it writes. -/
theorem opsMid_fresh : (opsMid : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Each operation of the piece determines everything it writes. -/
theorem opsTail_fresh : (opsTail : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp (forall_app (forall_app opsHead_fresh opsMid_fresh) opsTail_fresh)

/-- On every device, for any float values, from any memory with zero counters: every weakly fair execution of the
    entry function terminates, and every final state has each TensorCore buffer at the fold of the 188 operations'
    results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each piece writes -/

/-- The buffers the first piece writes, in the order of its operations. -/
abbrev wlHead : List (Ref sig .tc) :=
  [main_v0, main_c, main_v1, main_v2, main_c_0, main_v3, main_v4, main_v5, main_v6, main_v7, main_v8, main_v9, main_cst, main_v10, main_v11, main_v12, main_v13, main_c_1, main_v14, main_v15, main_c_2, main_v16, main_v17, main_v18, main_v19, main_v20, main_v21, main_v22, main_cst_3, main_v23, main_v24, main_v25]

/-- The buffers the second piece writes, in the order of its operations. -/
abbrev wlMid : List (Ref sig .tc) :=
  [main_v26, main_v27, main_v28, main_v29, main_v30, main_v31, main_v32, main_v33, main_v34, main_v35, main_cst_4, main_call0_cst, main_call0_v0, main_call0_v1, main_call0_v2, main_call0_v3, main_call0_v4, main_v36, main_v37, main_cst_5, main_v38, main_v39, main_v40, main_cst_6, main_v41, main_v42, main_v43, main_v44, main_v45, main_v46, main_v47, main_v48, main_v49, main_v50, main_v51, main_v52, main_cst_7, main_call1_cst, main_call1_v0, main_call1_v1, main_call1_v2, main_call1_v3, main_call1_v4, main_v53, main_v54, main_cst_8, main_v55, main_v56, main_v57, main_cst_9, main_v58, main_v59, main_v60, main_v61, main_v62, main_v63, main_v64, main_v65, main_v66, main_v67, main_v68, main_v69, main_cst_10, main_call2_cst, main_call2_v0, main_call2_v1, main_call2_v2, main_call2_v3, main_call2_v4, main_v70, main_v71, main_cst_11, main_v72, main_v73, main_v74, main_cst_12, main_v75, main_v76, main_v77, main_v78, main_v79, main_v80, main_v81]

/-- The buffers the third piece writes, in the order of its operations. -/
abbrev wlTail : List (Ref sig .tc) :=
  [main_c_13, main_v82, main_v83, main_c_14, main_v84, main_v85, main_v86, main_v87, main_v88, main_c_15, main_v89, main_v90, main_c_16, main_v91, main_v92, main_v93, main_v94, main_v95, main_c_17, main_v96, main_v97, main_c_18, main_v98, main_v99, main_v100, main_v101, main_v102, main_v103, main_cst_19, main_v104, main_v105, main_cst_20, main_v106, main_v107, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v108, main_cst_21, main_v109, main_cst_22, main_v110, main_v111, main_v112, main_cst_23, main_v113, main_v114, main_cst_24, main_v115, main_v116, main_v117, main_cst_25, main_v118, main_v119, main_cst_26, main_v120, main_cst_27, main_v121, main_cst_28, main_v122, main_v123]

/-- Position by position, the operation of the first piece writes exactly the listed buffer. -/
theorem writesHead : Cert.RefSSA.Writes (opsHead : List (HloOp τ sig (Elt F))) wlHead := by
  repeat (first | exact List.Forall₂.nil | refine List.Forall₂.cons rfl ?_)

/-- Position by position, the operation of the second piece writes exactly the listed buffer. -/
theorem writesMid : Cert.RefSSA.Writes (opsMid : List (HloOp τ sig (Elt F))) wlMid := by
  repeat (first | exact List.Forall₂.nil | refine List.Forall₂.cons rfl ?_)

/-- Position by position, the operation of the third piece writes exactly the listed buffer. -/
theorem writesTail : Cert.RefSSA.Writes (opsTail : List (HloOp τ sig (Elt F))) wlTail := by
  repeat (first | exact List.Forall₂.nil | refine List.Forall₂.cons rfl ?_)

/-! ## The inputs keep their contents -/

/-- A buffer none of the three pieces writes holds after the whole line what it held before it. -/
theorem after_ops_keep {r : Ref sig .tc} (h1 : r ∉ wlHead) (h2 : r ∉ wlMid) (h3 : r ∉ wlTail) (V : Valuation τ sig (Elt F)) :
    after ops V (r : DevRef τ sig) = V (r : DevRef τ sig) := by
  rw [ops_split, Cert.RefSSA.after_app, Cert.RefSSA.after_app]
  exact (Cert.RefSSA.after_keep writesTail h3 _).trans ((Cert.RefSSA.after_keep writesMid h2 _).trans (Cert.RefSSA.after_keep writesHead h1 V))

theorem arg0_keep (V : Valuation τ sig (Elt F)) : after ops V (main_arg0 : DevRef τ sig) = V (main_arg0 : DevRef τ sig) :=
  after_ops_keep (by decide) (by decide) (by decide) V

theorem arg1_keep (V : Valuation τ sig (Elt F)) : after ops V (main_arg1 : DevRef τ sig) = V (main_arg1 : DevRef τ sig) :=
  after_ops_keep (by decide) (by decide) (by decide) V

theorem arg2_keep (V : Valuation τ sig (Elt F)) : after ops V (main_arg2 : DevRef τ sig) = V (main_arg2 : DevRef τ sig) :=
  after_ops_keep (by decide) (by decide) (by decide) V

theorem arg3_keep (V : Valuation τ sig (Elt F)) : after ops V (main_arg3 : DevRef τ sig) = V (main_arg3 : DevRef τ sig) :=
  after_ops_keep (by decide) (by decide) (by decide) V

theorem arg4_keep (V : Valuation τ sig (Elt F)) : after ops V (main_arg4 : DevRef τ sig) = V (main_arg4 : DevRef τ sig) :=
  after_ops_keep (by decide) (by decide) (by decide) V

theorem arg5_keep (V : Valuation τ sig (Elt F)) : after ops V (main_arg5 : DevRef τ sig) = V (main_arg5 : DevRef τ sig) :=
  after_ops_keep (by decide) (by decide) (by decide) V

theorem arg6_keep (V : Valuation τ sig (Elt F)) : after ops V (main_arg6 : DevRef τ sig) = V (main_arg6 : DevRef τ sig) :=
  after_ops_keep (by decide) (by decide) (by decide) V

theorem arg7_keep (V : Valuation τ sig (Elt F)) : after ops V (main_arg7 : DevRef τ sig) = V (main_arg7 : DevRef τ sig) :=
  after_ops_keep (by decide) (by decide) (by decide) V

theorem arg8_keep (V : Valuation τ sig (Elt F)) : after ops V (main_arg8 : DevRef τ sig) = V (main_arg8 : DevRef τ sig) :=
  after_ops_keep (by decide) (by decide) (by decide) V

theorem arg9_keep (V : Valuation τ sig (Elt F)) : after ops V (main_arg9 : DevRef τ sig) = V (main_arg9 : DevRef τ sig) :=
  after_ops_keep (by decide) (by decide) (by decide) V

end Cert.ReferenceIdeal.Hand

end
-- ==== Proof.LibJoin4.lean ====
/-
  A join of four arrays of one shape along an axis, read at an index.

  The joined axis is cut into four stretches of the pieces' common extent `K`. An index whose coordinate on that axis is
  `g * K + c` with `c < K` lies in stretch `g`, and reads piece `g` at the same coordinates off the axis and `c` on it.
-/
import Idealize.ShloMosaic.Lib.Pipeline.Value

namespace Cert.LibJoin4

open Idealize.ShloMosaic

/-- Piece `g` of a four-way join, at the index `i` that agrees with `j` off the joined axis and sits `g * K` below it on
    that axis. -/
theorem join4_apply {t s : Shape} {α : Type} (a : Fin t.rank) (y0 y1 y2 y3 : s.Idx → α)
    (h : Shape.Concatenates (([⟨s, y0⟩, ⟨s, y1⟩, ⟨s, y2⟩, ⟨s, y3⟩] : List ((s : Shape) × (s.Idx → α))).map (·.1)) t a)
    (hr : s.rank = t.rank) (K : ℕ) (hK : s.size (a.cast hr.symm) = K) (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, y0⟩, ⟨s, y1⟩, ⟨s, y2⟩, ⟨s, y3⟩] h j = (![y0, y1, y2, y3] g) i := by
  match g, ha with
  | ⟨0, _⟩, ha =>
    have ha' : 0 * K + (i (a.cast hr.symm)).val = (j a).val := ha
    exact concatenate_apply_piece a _ h j 0 (by show (0 : ℕ) < 4; omega) s y0 rfl hr 0 rfl i hi (by omega)
  | ⟨1, _⟩, ha =>
    have ha' : 1 * K + (i (a.cast hr.symm)).val = (j a).val := ha
    exact concatenate_apply_piece a _ h j 1 (by show (1 : ℕ) < 4; omega) s y1 rfl hr K (by simp [dif_pos hr, hK]) i hi (by omega)
  | ⟨2, _⟩, ha =>
    have ha' : 2 * K + (i (a.cast hr.symm)).val = (j a).val := ha
    exact concatenate_apply_piece a _ h j 2 (by show (2 : ℕ) < 4; omega) s y2 rfl hr (K + K) (by simp [dif_pos hr, hK]) i hi (by omega)
  | ⟨3, _⟩, ha =>
    have ha' : 3 * K + (i (a.cast hr.symm)).val = (j a).val := ha
    exact concatenate_apply_piece a _ h j 3 (by show (3 : ℕ) < 4; omega) s y3 rfl hr (K + (K + K)) (by simp [dif_pos hr, hK]) i hi (by omega)

end Cert.LibJoin4
-- ==== Proof.LibRowLogSoftmax.lean ====
/-
  The logarithm of the softmax along the rows of a matrix, over the extended reals: with m the largest entry of row p
  (the fold of max over the row, from the word of minus infinity), the entry (p, q) is
  (v (p, q) - m) - log (sum over k of exp (v (p, k) - m)).

  Three readings of it. A vector unit reduces each row to its maximum and to its sum, re-lays each of the two vectors as
  one column and spreads the column along the rows. The host reduces with the same two bodies, takes one more maximum
  against minus infinity (which changes nothing: the fold already starts there), starts its sum from the zero word (which
  adds nothing), and broadcasts in two steps. And a band of consecutive rows of the result is the same function of that
  band of rows of v: a row of the result depends on the same row of v only.
-/
import proofs.«171917_j27255862461048_2_alg».proof.Proof.LibKeepdims
import proofs.«171917_j27255862461048_2_alg».proof.Proof.LibColumn

noncomputable section

namespace Cert.RowLogSoftmax

open Idealize.ShloMosaic Idealize.ShloMosaic.ValueIdx

/-- The largest entry of row p: the fold of max over the row, from the value of the word of minus infinity. -/
def rowMax {M N : ℕ} (v : FVec Ideal ⟨2, ![M, N]⟩ .f32) (p : Fin M) : EReal :=
  (Finset.univ : Finset (Fin N)).fold max (Ideal.ofBits .f32 0xFF800000#32) (fun k : Fin N => v (ix2 p k))

/-- (v (p, q) - m) - log (sum over k of exp (v (p, k) - m)), m the largest entry of row p. -/
def logSoftmax {M N : ℕ} (v : FVec Ideal ⟨2, ![M, N]⟩ .f32) : FVec Ideal ⟨2, ![M, N]⟩ .f32 :=
  fun i => (v i - rowMax v (i 0)) - Ideal.log (∑ k : Fin N, Ideal.exp (v (ix2 (i 0) k) - rowMax v (i 0)))

theorem logSoftmax_apply {M N : ℕ} (v : FVec Ideal ⟨2, ![M, N]⟩ .f32) (p : Fin M) (q : Fin N) :
    logSoftmax v (ix2 p q)
      = (v (ix2 p q) - rowMax v p) - Ideal.log (∑ k : Fin N, Ideal.exp (v (ix2 p k) - rowMax v p)) := rfl

/-! ## The vector unit's form -/

/-- A vector re-laid as one column and spread along the rows reads, at (p, q), the vector at p. -/
theorem column_spread {T N : ℕ} (u : FVec Ideal ⟨1, ![T]⟩ .f32) (hc : (⟨1, ![T]⟩ : Shape).ShapeCasts ⟨2, ![T, 1]⟩)
    (hb : (⟨2, ![T, 1]⟩ : Shape).Broadcasts ⟨2, ![T, N]⟩) (p : Fin T) (q : Fin N) :
    broadcastTo ⟨2, ![T, N]⟩ (shapeCast ⟨2, ![T, 1]⟩ u hc) hb (ix2 p q) = u (ix1 p) :=
  (Cert.LibColumn.broadcastTo_a1_ab_apply _ hb p q).trans (Cert.LibColumn.shapeCast_a_a1_apply u hc p 0)

/-- Each entry less its row's maximum, the maximum taken by a lane reduction and spread back as a column. -/
theorem unit_shift {T N : ℕ} (x0 : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hc : (⟨1, ![T]⟩ : Shape).ShapeCasts ⟨2, ![T, 1]⟩) (hb : (⟨2, ![T, 1]⟩ : Shape).Broadcasts ⟨2, ![T, N]⟩)
    (p : Fin T) (k : Fin N) :
    subf x0 (broadcastTo ⟨2, ![T, N]⟩ (shapeCast ⟨2, ![T, 1]⟩
        (multiReduction .maximumf [1] ⟨1, ![T]⟩ x0 0xFF800000#32 hr hφ hmax) hc) hb) (ix2 p k)
      = x0 (ix2 p k) - rowMax x0 p := by
  rw [subf_apply, column_spread]
  exact congrArg (x0 (ix2 p k) - ·) (Cert.LibKeepdims.max_last2_apply x0 _ hr hφ hmax p)

/-- The vector unit's form: the operand through an identity re-lay; the row maximum and the row sum by lane reductions,
    each re-laid as a column and spread along the rows; the logarithm taken on the column. -/
theorem unit_form {T N : ℕ} (x0 : FVec Ideal ⟨2, ![T, N]⟩ .f32)
    (hs : (⟨2, ![T, N]⟩ : Shape).ShapeCasts ⟨2, ![T, N]⟩)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    subf (subf (shapeCast ⟨2, ![T, N]⟩ x0 hs) (broadcastTo ⟨2, ![T, N]⟩ (shapeCast ⟨2, ![T, 1]⟩
          (multiReduction .maximumf [1] ⟨1, ![T]⟩ (shapeCast ⟨2, ![T, N]⟩ x0 hs) 0xFF800000#32 hr hφ hmax) hc) hb))
        (broadcastTo ⟨2, ![T, N]⟩ (log (shapeCast ⟨2, ![T, 1]⟩
          (multiReduction .add [1] ⟨1, ![T]⟩
            (exp (subf (shapeCast ⟨2, ![T, N]⟩ x0 hs) (broadcastTo ⟨2, ![T, N]⟩ (shapeCast ⟨2, ![T, 1]⟩
              (multiReduction .maximumf [1] ⟨1, ![T]⟩ (shapeCast ⟨2, ![T, N]⟩ x0 hs) 0xFF800000#32 hr hφ hmax) hc) hb)))
            0x00000000#32 hr hφ hadd) hc)) hb)
      = logSoftmax x0 := by
  rw [shapeCast_self]
  funext j
  obtain ⟨p, q, rfl⟩ : ∃ (p : Fin T) (q : Fin N), j = ix2 p q := ⟨j 0, j 1, eq_ix2 j⟩
  rw [logSoftmax_apply, subf_apply, unit_shift x0 hr hφ hmax hc hb p q, Cert.LibColumn.broadcastTo_a1_ab_apply]
  refine congrArg (fun z => x0 (ix2 p q) - rowMax x0 p - z) ?_
  rw [Cert.LibKeepdims.log_apply, Cert.LibColumn.shapeCast_a_a1_apply, Cert.LibKeepdims.sum_last2_apply]
  refine congrArg Ideal.log (Finset.sum_congr rfl fun k _ => ?_)
  rw [Cert.LibKeepdims.exp_apply, unit_shift x0 hr hφ hmax hc hb p k]

/-! ## The host's form -/

/-- A scalar broadcast to every entry reads, anywhere, the scalar. -/
theorem splat_apply {s : Shape} (x : (⟨0, ![]⟩ : Shape).Idx → EReal) (h : (⟨0, ![]⟩ : Shape).BroadcastsInDim s ![])
    (i : s.Idx) : broadcastInDim s ![] h x i = x ix0 :=
  broadcastInDim_apply _ h x i ix0 (fun a => a.elim0)

/-- A vector broadcast to one column reads, at (p, u), the vector at p. -/
theorem column_apply {a : ℕ} (x : (⟨1, ![a]⟩ : Shape).Idx → EReal)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- One column broadcast along the rows reads, at (p, c), the column at p. -/
theorem spread_apply {a b : ℕ} (v : (⟨2, ![a, 1]⟩ : Shape).Idx → EReal)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- The host's logarithm and exponential, at an index. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The host's row maximum, and one more maximum against minus infinity, is the row's maximum: the fold starts at the
    value it is compared with once more. -/
theorem host_rowMax {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![]) (p : Fin M) :
    maximumf (broadcastInDim ⟨1, ![M]⟩ ![] hS (constant (F := Ideal) ⟨0, ![]⟩ .f32 0xFF800000#32))
        (Host.reduce (FloatOps.maximumf (F := Ideal) (φ := .f32)) v (constant (F := Ideal) ⟨0, ![]⟩ .f32 0xFF800000#32) hrt hu)
        (ix1 p)
      = rowMax v p := by
  have hf : (v ∘ hr.lift (ix1 p)) = fun k : Fin N => v (ix2 p k) :=
    funext fun k => congrArg v (Cert.LibKeepdims.lift_last2 hr p k)
  rw [maximumf_apply, splat_apply]
  refine (congrArg (max (Ideal.ofBits .f32 0xFF800000#32))
    ((Host.reduce_eq_fold_single (FloatOps.maximumf (F := Ideal) (φ := .f32)) v _ hrt hr hu (ix1 p)).trans
      (congrArg (fun f => Finset.fold max (Ideal.ofBits .f32 0xFF800000#32) f (Finset.univ : Finset (Fin N))) hf))).trans ?_
  exact max_eq_right ((Finset.le_fold_max _).mpr (Or.inl le_rfl))

/-- The host's row sum from the zero word is the row's sum. -/
theorem host_rowSum {M N : ℕ} (x : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel) (p : Fin M) :
    Host.reduceAdd (F := Ideal) x (constant (F := Ideal) ⟨0, ![]⟩ .f32 0x00000000#32) hrt hu (ix1 p)
      = ∑ k : Fin N, x (ix2 p k) := by
  simp only [Host.reduceAdd, Ideal.hostReduceAdd_def]
  rw [Ideal.hostReduceAdd_single hrt hr, constant_apply, Ideal.ofBits_zero_f32, zero_add]
  exact Finset.sum_congr rfl fun k _ => congrArg x (Cert.LibKeepdims.lift_last2 hr p k)

/-- Each entry less its row's maximum, in the host's form. -/
theorem host_shift {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) (p : Fin M) (k : Fin N) :
    subf v (broadcastInDim ⟨2, ![M, N]⟩ ![0, 1] h01 (broadcastInDim ⟨2, ![M, 1]⟩ ![0] h0
        (maximumf (broadcastInDim ⟨1, ![M]⟩ ![] hS (constant (F := Ideal) ⟨0, ![]⟩ .f32 0xFF800000#32))
          (Host.reduce (FloatOps.maximumf (F := Ideal) (φ := .f32)) v (constant (F := Ideal) ⟨0, ![]⟩ .f32 0xFF800000#32) hrt hu))))
        (ix2 p k)
      = v (ix2 p k) - rowMax v p := by
  rw [subf_apply, spread_apply, column_apply, host_rowMax v hrt hr hu hS p]

/-- The host's form of the whole function. -/
theorem host_form {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) :
    subf (subf v (broadcastInDim ⟨2, ![M, N]⟩ ![0, 1] h01 (broadcastInDim ⟨2, ![M, 1]⟩ ![0] h0
          (maximumf (broadcastInDim ⟨1, ![M]⟩ ![] hS (constant (F := Ideal) ⟨0, ![]⟩ .f32 0xFF800000#32))
            (Host.reduce (FloatOps.maximumf (F := Ideal) (φ := .f32)) v (constant (F := Ideal) ⟨0, ![]⟩ .f32 0xFF800000#32) hrt hu)))))
        (broadcastInDim ⟨2, ![M, N]⟩ ![0, 1] h01 (Host.log (F := Ideal) (broadcastInDim ⟨2, ![M, 1]⟩ ![0] h0
          (Host.reduceAdd (F := Ideal)
            (Host.exp (F := Ideal) (subf v (broadcastInDim ⟨2, ![M, N]⟩ ![0, 1] h01 (broadcastInDim ⟨2, ![M, 1]⟩ ![0] h0
              (maximumf (broadcastInDim ⟨1, ![M]⟩ ![] hS (constant (F := Ideal) ⟨0, ![]⟩ .f32 0xFF800000#32))
                (Host.reduce (FloatOps.maximumf (F := Ideal) (φ := .f32)) v (constant (F := Ideal) ⟨0, ![]⟩ .f32 0xFF800000#32) hrt hu))))))
            (constant (F := Ideal) ⟨0, ![]⟩ .f32 0x00000000#32) hrt hu))))
      = logSoftmax v := by
  funext j
  obtain ⟨p, q, rfl⟩ : ∃ (p : Fin M) (q : Fin N), j = ix2 p q := ⟨j 0, j 1, eq_ix2 j⟩
  rw [logSoftmax_apply, subf_apply, host_shift v hrt hr hu hS h0 h01 p q, spread_apply]
  refine congrArg (fun z => v (ix2 p q) - rowMax v p - z) ?_
  rw [hostLog_apply, column_apply, host_rowSum _ hrt hr hu p]
  refine congrArg Ideal.log (Finset.sum_congr rfl fun k _ => ?_)
  rw [hostExp_apply, host_shift v hrt hr hu hS h0 h01 p k]

/-! ## A band of rows -/

/-- Rows r, …, r + T − 1 of the result: when x holds those rows of V, the entry of the block's result at y is the entry of
    the whole result at the index whose row is r plus y's row and whose column is y's. -/
theorem logSoftmax_rows {M N T : ℕ} (V : FVec Ideal ⟨2, ![M, N]⟩ .f32) (x : FVec Ideal ⟨2, ![T, N]⟩ .f32) (r : ℕ)
    (hx : ∀ (p : Fin T) (k : Fin N) (hp : r + p.val < M), x (ix2 p k) = V (ix2 ⟨r + p.val, hp⟩ k))
    (y : (⟨2, ![T, N]⟩ : Shape).Idx) (i : (⟨2, ![M, N]⟩ : Shape).Idx)
    (hi0 : (i 0).val = r + (y 0).val) (hi1 : (i 1).val = (y 1).val) :
    logSoftmax x y = logSoftmax V i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  have hrow : ∀ k : Fin N, x (ix2 p k) = V (ix2 p' k) := fun k => by rw [hx p k (h0 ▸ p'.isLt), ← hp']
  have hm : rowMax x p = rowMax V p' :=
    congrArg (fun f => Finset.fold max (Ideal.ofBits .f32 0xFF800000#32) f (Finset.univ : Finset (Fin N))) (funext hrow)
  rw [logSoftmax_apply, logSoftmax_apply, hm]
  simp only [hrow]

end Cert.RowLogSoftmax

end
-- ==== Proof.RefLayers.lean ====
/-
  The dense part of the reference as one term, and that term read at an index.

  The reference stacks the 100000 user aggregates on the 50000 item aggregates into one matrix of 150000 rows, and the
  two embedding matrices likewise. For each of the three layers it takes that layer's weight matrix and bias row out of
  the stacked parameters, multiplies the aggregates by the weights, adds the bias row down the rows, applies the leaky
  rectifier (slope the float 0.2) as a select on the comparison with zero, and divides each row by the larger of its
  Euclidean length and the float 1e-12. The four matrices (embeddings, then the three normalized layers) are laid side by
  side into 256 columns, and the first 100000 rows and the last 50000 rows are cut out.

  Read at row p and column q, the first cut is the specified result of the user embeddings and user aggregates, and the
  second cut that of the item embeddings and item aggregates: a row of the result depends on the same row of the
  stacked inputs only, and row p of a stack is row p of its upper block, row 100000 + p of it row p of its lower block.
-/
import proofs.«171917_j27255862461048_2_alg».proof.Proof.Gen.ReferenceIdeal
import proofs.«171917_j27255862461048_2_alg».proof.Proof.Spec
import proofs.«171917_j27255862461048_2_alg».proof.Proof.LibJoin4
import proofs.«171917_j27255862461048_2_alg».proof.Proof.LibRowLogSoftmax
import Idealize.ShloMosaic.Lib.IdealHost
import Idealize.ShloMosaic.Lib.ValueLayout

noncomputable section

namespace Cert.ReferenceIdeal.Layers

open Idealize.ShloMosaic Idealize.ShloMosaic.ValueIdx
open Cert.ReferenceIdeal Cert.ReferenceIdeal.Facts₀

/-! ## The program's operations, in its order -/

/-- Rows 0..99999 from P, rows 100000..149999 from Q. -/
def stack (P : FVec Ideal S100000x64 .f32) (Q : FVec Ideal S50000x64 .f32) : FVec Ideal S150000x64 .f32 :=
  concatenate S150000x64 0 [⟨S100000x64, P⟩, ⟨S50000x64, Q⟩] concatenates_S100000x64_S50000x64_S150000x64_d0

/-- One layer's activation: the weight matrix and the bias row cut out of the stacked parameters at the offsets o3 and
    o2, the product of the aggregates with the weights, the bias row added down the rows, the leaky rectifier as a select
    on the comparison with a broadcast zero between the sum and its product with the broadcast slope. -/
def act (o3 : Fin S3x64x64.rank → ℕ) (h3 : S3x64x64.Slices o3 S1x64x64) (o2 : Fin S3x64.rank → ℕ) (h2 : S3x64.Slices o2 S1x64)
    (A : FVec Ideal S150000x64 .f32) (W : FVec Ideal S3x64x64 .f32) (b : FVec Ideal S3x64 .f32) : FVec Ideal S150000x64 .f32 :=
  let w1 : FVec Ideal S1x64x64 .f32 := extractStridedSlice S1x64x64 o3 W h3
  let w : FVec Ideal S64x64 .f32 := shapeCast S64x64 w1 shapeCasts_S1x64x64_S64x64
  let d : FVec Ideal S150000x64 .f32 := Host.dotGeneral (F := Ideal) dot_S150000x64_S64x64_S150000x64_1_0_0_1_n_n none A w
  let b1 : FVec Ideal S1x64 .f32 := extractStridedSlice S1x64 o2 b h2
  let bv : FVec Ideal S64 .f32 := shapeCast S64 b1 shapeCasts_S1x64_S64
  let br : FVec Ideal S1x64 .f32 := broadcastInDim S1x64 ![1] bcast_S64_S1x64_1 bv
  let bb : FVec Ideal S150000x64 .f32 := broadcastInDim S150000x64 ![0, 1] bcast_S1x64_S150000x64_0_1 br
  let y : FVec Ideal S150000x64 .f32 := addf d bb
  let slope : FVec Ideal S_ .f32 := constant (F := Ideal) S_ .f32 0x3E4CCCCD#32
  let zero : FVec Ideal S_ .f32 := constant (F := Ideal) S_ .f32 0x00000000#32
  let zeros : FVec Ideal S150000x64 .f32 := broadcastInDim S150000x64 ![] bcast_S_S150000x64 zero
  let ge : IVec S150000x64 1 := cmpf .oge y zeros
  let slope' : FVec Ideal S_ .f32 := id slope
  let slopes : FVec Ideal S150000x64 .f32 := broadcastInDim S150000x64 ![] bcast_S_S150000x64 slope'
  let scaled : FVec Ideal S150000x64 .f32 := mulf slopes y
  select ge y scaled

/-- Each row divided by the larger of its Euclidean length and the float 1e-12: the squares, their row sums from zero, the
    sums as one column, its square root, the maximum with the broadcast constant, the column spread along the rows, the
    quotient. -/
def normalise (s : FVec Ideal S150000x64 .f32) : FVec Ideal S150000x64 .f32 :=
  let sq : FVec Ideal S150000x64 .f32 := mulf s s
  let zero : FVec Ideal S_ .f32 := constant (F := Ideal) S_ .f32 0x00000000#32
  let sums : FVec Ideal S150000 .f32 := Host.reduceAdd (F := Ideal) sq zero reducesTo_S150000x64_S150000_d1 h_S_
  let col : FVec Ideal S150000x1 .f32 := broadcastInDim S150000x1 ![0] bcast_S150000_S150000x1_0 sums
  let len : FVec Ideal S150000x1 .f32 := Host.sqrt (F := Ideal) col
  let eps : FVec Ideal S_ .f32 := constant (F := Ideal) S_ .f32 0x2B8CBCCC#32
  let epss : FVec Ideal S150000x1 .f32 := broadcastInDim S150000x1 ![] bcast_S_S150000x1 eps
  let clamped : FVec Ideal S150000x1 .f32 := maximumf len epss
  let spread : FVec Ideal S150000x64 .f32 := broadcastInDim S150000x64 ![0, 1] bcast_S150000x1_S150000x64_0_1 clamped
  Host.divf (F := Ideal) s spread

/-- The four matrices side by side: columns 0..63 from y0, 64..127 from y1, 128..191 from y2, 192..255 from y3. -/
def join (y0 y1 y2 y3 : FVec Ideal S150000x64 .f32) : FVec Ideal S150000x256 .f32 :=
  concatenate S150000x256 1 [⟨S150000x64, y0⟩, ⟨S150000x64, y1⟩, ⟨S150000x64, y2⟩, ⟨S150000x64, y3⟩]
    concatenates_S150000x64_S150000x64_S150000x64_S150000x64_S150000x256_d1

/-- The program's operations %28 … %44, one line each: layer 0 of the aggregates v26. -/
def layer0 (v26 : FVec Ideal S150000x64 .f32) (W : FVec Ideal S3x64x64 .f32) (b : FVec Ideal S3x64 .f32) : FVec Ideal S150000x64 .f32 :=
  let v28 : FVec Ideal S1x64x64 .f32 := extractStridedSlice S1x64x64 ![0, 0, 0] W slices_S3x64x64_S1x64x64_0_0_0
  let v29 : FVec Ideal S64x64 .f32 := shapeCast S64x64 v28 shapeCasts_S1x64x64_S64x64
  let v30 : FVec Ideal S150000x64 .f32 := Host.dotGeneral (F := Ideal) dot_S150000x64_S64x64_S150000x64_1_0_0_1_n_n none v26 v29
  let v31 : FVec Ideal S1x64 .f32 := extractStridedSlice S1x64 ![0, 0] b slices_S3x64_S1x64_0_0
  let v32 : FVec Ideal S64 .f32 := shapeCast S64 v31 shapeCasts_S1x64_S64
  let v33 : FVec Ideal S1x64 .f32 := broadcastInDim S1x64 ![1] bcast_S64_S1x64_1 v32
  let v34 : FVec Ideal S150000x64 .f32 := broadcastInDim S150000x64 ![0, 1] bcast_S1x64_S150000x64_0_1 v33
  let v35 : FVec Ideal S150000x64 .f32 := addf v30 v34
  let cst_4 : FVec Ideal S_ .f32 := constant (F := Ideal) S_ .f32 0x3E4CCCCD#32
  let call0_cst : FVec Ideal S_ .f32 := constant (F := Ideal) S_ .f32 0x00000000#32
  let call0_v0 : FVec Ideal S150000x64 .f32 := broadcastInDim S150000x64 ![] bcast_S_S150000x64 call0_cst
  let call0_v1 : IVec S150000x64 1 := cmpf .oge v35 call0_v0
  let call0_v2 : FVec Ideal S_ .f32 := id cst_4
  let call0_v3 : FVec Ideal S150000x64 .f32 := broadcastInDim S150000x64 ![] bcast_S_S150000x64 call0_v2
  let call0_v4 : FVec Ideal S150000x64 .f32 := mulf call0_v3 v35
  let v36 : FVec Ideal S150000x64 .f32 := select call0_v1 v35 call0_v4
  let v37 : FVec Ideal S150000x64 .f32 := mulf v36 v36
  let cst_5 : FVec Ideal S_ .f32 := constant (F := Ideal) S_ .f32 0x00000000#32
  let v38 : FVec Ideal S150000 .f32 := Host.reduceAdd (F := Ideal) v37 cst_5 reducesTo_S150000x64_S150000_d1 h_S_
  let v39 : FVec Ideal S150000x1 .f32 := broadcastInDim S150000x1 ![0] bcast_S150000_S150000x1_0 v38
  let v40 : FVec Ideal S150000x1 .f32 := Host.sqrt (F := Ideal) v39
  let cst_6 : FVec Ideal S_ .f32 := constant (F := Ideal) S_ .f32 0x2B8CBCCC#32
  let v41 : FVec Ideal S150000x1 .f32 := broadcastInDim S150000x1 ![] bcast_S_S150000x1 cst_6
  let v42 : FVec Ideal S150000x1 .f32 := maximumf v40 v41
  let v43 : FVec Ideal S150000x64 .f32 := broadcastInDim S150000x64 ![0, 1] bcast_S150000x1_S150000x64_0_1 v42
  let v44 : FVec Ideal S150000x64 .f32 := Host.divf (F := Ideal) v36 v43
  v44

/-- The program's operations %45 … %61, one line each: layer 1 of the aggregates v26. -/
def layer1 (v26 : FVec Ideal S150000x64 .f32) (W : FVec Ideal S3x64x64 .f32) (b : FVec Ideal S3x64 .f32) : FVec Ideal S150000x64 .f32 :=
  let v45 : FVec Ideal S1x64x64 .f32 := extractStridedSlice S1x64x64 ![1, 0, 0] W slices_S3x64x64_S1x64x64_1_0_0
  let v46 : FVec Ideal S64x64 .f32 := shapeCast S64x64 v45 shapeCasts_S1x64x64_S64x64
  let v47 : FVec Ideal S150000x64 .f32 := Host.dotGeneral (F := Ideal) dot_S150000x64_S64x64_S150000x64_1_0_0_1_n_n none v26 v46
  let v48 : FVec Ideal S1x64 .f32 := extractStridedSlice S1x64 ![1, 0] b slices_S3x64_S1x64_1_0
  let v49 : FVec Ideal S64 .f32 := shapeCast S64 v48 shapeCasts_S1x64_S64
  let v50 : FVec Ideal S1x64 .f32 := broadcastInDim S1x64 ![1] bcast_S64_S1x64_1 v49
  let v51 : FVec Ideal S150000x64 .f32 := broadcastInDim S150000x64 ![0, 1] bcast_S1x64_S150000x64_0_1 v50
  let v52 : FVec Ideal S150000x64 .f32 := addf v47 v51
  let cst_7 : FVec Ideal S_ .f32 := constant (F := Ideal) S_ .f32 0x3E4CCCCD#32
  let call1_cst : FVec Ideal S_ .f32 := constant (F := Ideal) S_ .f32 0x00000000#32
  let call1_v0 : FVec Ideal S150000x64 .f32 := broadcastInDim S150000x64 ![] bcast_S_S150000x64 call1_cst
  let call1_v1 : IVec S150000x64 1 := cmpf .oge v52 call1_v0
  let call1_v2 : FVec Ideal S_ .f32 := id cst_7
  let call1_v3 : FVec Ideal S150000x64 .f32 := broadcastInDim S150000x64 ![] bcast_S_S150000x64 call1_v2
  let call1_v4 : FVec Ideal S150000x64 .f32 := mulf call1_v3 v52
  let v53 : FVec Ideal S150000x64 .f32 := select call1_v1 v52 call1_v4
  let v54 : FVec Ideal S150000x64 .f32 := mulf v53 v53
  let cst_8 : FVec Ideal S_ .f32 := constant (F := Ideal) S_ .f32 0x00000000#32
  let v55 : FVec Ideal S150000 .f32 := Host.reduceAdd (F := Ideal) v54 cst_8 reducesTo_S150000x64_S150000_d1 h_S_
  let v56 : FVec Ideal S150000x1 .f32 := broadcastInDim S150000x1 ![0] bcast_S150000_S150000x1_0 v55
  let v57 : FVec Ideal S150000x1 .f32 := Host.sqrt (F := Ideal) v56
  let cst_9 : FVec Ideal S_ .f32 := constant (F := Ideal) S_ .f32 0x2B8CBCCC#32
  let v58 : FVec Ideal S150000x1 .f32 := broadcastInDim S150000x1 ![] bcast_S_S150000x1 cst_9
  let v59 : FVec Ideal S150000x1 .f32 := maximumf v57 v58
  let v60 : FVec Ideal S150000x64 .f32 := broadcastInDim S150000x64 ![0, 1] bcast_S150000x1_S150000x64_0_1 v59
  let v61 : FVec Ideal S150000x64 .f32 := Host.divf (F := Ideal) v53 v60
  v61

/-- The program's operations %62 … %78, one line each: layer 2 of the aggregates v26. -/
def layer2 (v26 : FVec Ideal S150000x64 .f32) (W : FVec Ideal S3x64x64 .f32) (b : FVec Ideal S3x64 .f32) : FVec Ideal S150000x64 .f32 :=
  let v62 : FVec Ideal S1x64x64 .f32 := extractStridedSlice S1x64x64 ![2, 0, 0] W slices_S3x64x64_S1x64x64_2_0_0
  let v63 : FVec Ideal S64x64 .f32 := shapeCast S64x64 v62 shapeCasts_S1x64x64_S64x64
  let v64 : FVec Ideal S150000x64 .f32 := Host.dotGeneral (F := Ideal) dot_S150000x64_S64x64_S150000x64_1_0_0_1_n_n none v26 v63
  let v65 : FVec Ideal S1x64 .f32 := extractStridedSlice S1x64 ![2, 0] b slices_S3x64_S1x64_2_0
  let v66 : FVec Ideal S64 .f32 := shapeCast S64 v65 shapeCasts_S1x64_S64
  let v67 : FVec Ideal S1x64 .f32 := broadcastInDim S1x64 ![1] bcast_S64_S1x64_1 v66
  let v68 : FVec Ideal S150000x64 .f32 := broadcastInDim S150000x64 ![0, 1] bcast_S1x64_S150000x64_0_1 v67
  let v69 : FVec Ideal S150000x64 .f32 := addf v64 v68
  let cst_10 : FVec Ideal S_ .f32 := constant (F := Ideal) S_ .f32 0x3E4CCCCD#32
  let call2_cst : FVec Ideal S_ .f32 := constant (F := Ideal) S_ .f32 0x00000000#32
  let call2_v0 : FVec Ideal S150000x64 .f32 := broadcastInDim S150000x64 ![] bcast_S_S150000x64 call2_cst
  let call2_v1 : IVec S150000x64 1 := cmpf .oge v69 call2_v0
  let call2_v2 : FVec Ideal S_ .f32 := id cst_10
  let call2_v3 : FVec Ideal S150000x64 .f32 := broadcastInDim S150000x64 ![] bcast_S_S150000x64 call2_v2
  let call2_v4 : FVec Ideal S150000x64 .f32 := mulf call2_v3 v69
  let v70 : FVec Ideal S150000x64 .f32 := select call2_v1 v69 call2_v4
  let v71 : FVec Ideal S150000x64 .f32 := mulf v70 v70
  let cst_11 : FVec Ideal S_ .f32 := constant (F := Ideal) S_ .f32 0x00000000#32
  let v72 : FVec Ideal S150000 .f32 := Host.reduceAdd (F := Ideal) v71 cst_11 reducesTo_S150000x64_S150000_d1 h_S_
  let v73 : FVec Ideal S150000x1 .f32 := broadcastInDim S150000x1 ![0] bcast_S150000_S150000x1_0 v72
  let v74 : FVec Ideal S150000x1 .f32 := Host.sqrt (F := Ideal) v73
  let cst_12 : FVec Ideal S_ .f32 := constant (F := Ideal) S_ .f32 0x2B8CBCCC#32
  let v75 : FVec Ideal S150000x1 .f32 := broadcastInDim S150000x1 ![] bcast_S_S150000x1 cst_12
  let v76 : FVec Ideal S150000x1 .f32 := maximumf v74 v75
  let v77 : FVec Ideal S150000x64 .f32 := broadcastInDim S150000x64 ![0, 1] bcast_S150000x1_S150000x64_0_1 v76
  let v78 : FVec Ideal S150000x64 .f32 := Host.divf (F := Ideal) v70 v77
  v78

/-- The reference's operations from the stacking of the aggregates (%26) to the four-way join (%79) in the program's
    order: the two stackings, the three layers (each the program's seventeen operations, the rectifier's and the select's
    bodies in place of their calls), the join. -/
def total (X0 : FVec Ideal S100000x64 .f32) (X1 : FVec Ideal S50000x64 .f32) (A0 : FVec Ideal S100000x64 .f32)
    (A1 : FVec Ideal S50000x64 .f32) (W : FVec Ideal S3x64x64 .f32) (b : FVec Ideal S3x64 .f32) : FVec Ideal S150000x256 .f32 :=
  let v26 : FVec Ideal S150000x64 .f32 := concatenate S150000x64 0 [⟨S100000x64, A0⟩, ⟨S50000x64, A1⟩] concatenates_S100000x64_S50000x64_S150000x64_d0
  let v27 : FVec Ideal S150000x64 .f32 := concatenate S150000x64 0 [⟨S100000x64, X0⟩, ⟨S50000x64, X1⟩] concatenates_S100000x64_S50000x64_S150000x64_d0
  let v44 : FVec Ideal S150000x64 .f32 := layer0 v26 W b
  let v61 : FVec Ideal S150000x64 .f32 := layer1 v26 W b
  let v78 : FVec Ideal S150000x64 .f32 := layer2 v26 W b
  concatenate S150000x256 1 [⟨S150000x64, v27⟩, ⟨S150000x64, v44⟩, ⟨S150000x64, v61⟩, ⟨S150000x64, v78⟩]
    concatenates_S150000x64_S150000x64_S150000x64_S150000x64_S150000x256_d1

/-- The first 100000 rows. -/
def users (X0 : FVec Ideal S100000x64 .f32) (X1 : FVec Ideal S50000x64 .f32) (A0 : FVec Ideal S100000x64 .f32)
    (A1 : FVec Ideal S50000x64 .f32) (W : FVec Ideal S3x64x64 .f32) (b : FVec Ideal S3x64 .f32) : FVec Ideal S100000x256 .f32 :=
  extractStridedSlice S100000x256 ![0, 0] (total X0 X1 A0 A1 W b) slices_S150000x256_S100000x256_0_0

/-- The last 50000 rows. -/
def items (X0 : FVec Ideal S100000x64 .f32) (X1 : FVec Ideal S50000x64 .f32) (A0 : FVec Ideal S100000x64 .f32)
    (A1 : FVec Ideal S50000x64 .f32) (W : FVec Ideal S3x64x64 .f32) (b : FVec Ideal S3x64 .f32) : FVec Ideal S50000x256 .f32 :=
  extractStridedSlice S50000x256 ![100000, 0] (total X0 X1 A0 A1 W b) slices_S150000x256_S50000x256_100000_0

/-- The same term with each layer's stretch of operations named. -/
theorem total_eq (X0 : FVec Ideal S100000x64 .f32) (X1 : FVec Ideal S50000x64 .f32) (A0 : FVec Ideal S100000x64 .f32)
    (A1 : FVec Ideal S50000x64 .f32) (W : FVec Ideal S3x64x64 .f32) (b : FVec Ideal S3x64 .f32) :
    total X0 X1 A0 A1 W b = join (stack X0 X1)
      (normalise (act ![0, 0, 0] slices_S3x64x64_S1x64x64_0_0_0 ![0, 0] slices_S3x64_S1x64_0_0 (stack A0 A1) W b))
      (normalise (act ![1, 0, 0] slices_S3x64x64_S1x64x64_1_0_0 ![1, 0] slices_S3x64_S1x64_1_0 (stack A0 A1) W b))
      (normalise (act ![2, 0, 0] slices_S3x64x64_S1x64x64_2_0_0 ![2, 0] slices_S3x64_S1x64_2_0 (stack A0 A1) W b)) := rfl

/-! ## Reading the pieces at an index -/

/-- Row r < 100000 of a stack is that row of its upper block. -/
theorem stack_upper (P : FVec Ideal S100000x64 .f32) (Q : FVec Ideal S50000x64 .f32) (r : Fin 150000) (p : Fin 100000)
    (hp : r.val = p.val) (k : Fin 64) : stack P Q (ix2 r k) = P (ix2 p k) :=
  concatenate_pair_apply_left (0 : Fin S150000x64.rank) P Q concatenates_S100000x64_S50000x64_S150000x64_d0 (ix2 r k) rfl (ix2 p k)
    (fun a => match a with
      | ⟨0, _⟩ => hp.symm
      | ⟨1, _⟩ => rfl)

/-- Row 100000 + p of a stack is row p of its lower block. -/
theorem stack_lower (P : FVec Ideal S100000x64 .f32) (Q : FVec Ideal S50000x64 .f32) (r : Fin 150000) (p : Fin 50000)
    (hp : r.val = 100000 + p.val) (k : Fin 64) : stack P Q (ix2 r k) = Q (ix2 p k) :=
  concatenate_pair_apply_right (0 : Fin S150000x64.rank) P Q concatenates_S100000x64_S50000x64_S150000x64_d0 (ix2 r k) rfl rfl (ix2 p k)
    (fun a ha => match a, ha with
      | ⟨0, _⟩, ha => absurd rfl ha
      | ⟨1, _⟩, _ => rfl)
    (by show p.val + 100000 = r.val; omega)

/-- The weight matrix cut out at layer l and viewed as a matrix reads, at (k, j), the stacked weights at (l, k, j). -/
theorem weight_apply (l : Fin 3) (h3 : S3x64x64.Slices ![l.val, 0, 0] S1x64x64) (W : FVec Ideal S3x64x64 .f32) (k j : Fin 64) :
    shapeCast S64x64 (extractStridedSlice S1x64x64 ![l.val, 0, 0] W h3) shapeCasts_S1x64x64_S64x64 (ix2 k j) = W (ix3 l k j) :=
  (shapeCast_dropUnit_apply ![64, 64] (extractStridedSlice S1x64x64 ![l.val, 0, 0] W h3) shapeCasts_S1x64x64_S64x64 (ix2 k j)).trans
    (extractStridedSlice_apply ![l.val, 0, 0] W h3 _ (ix3 l k j) (fun a => match a with
      | ⟨0, _⟩ => (Nat.add_zero _).symm
      | ⟨1, _⟩ => (Nat.zero_add _).symm
      | ⟨2, _⟩ => (Nat.zero_add _).symm))

/-- The bias row cut out at layer l and viewed as a vector reads, at j, the stacked biases at (l, j). -/
theorem bias_apply (l : Fin 3) (h2 : S3x64.Slices ![l.val, 0] S1x64) (b : FVec Ideal S3x64 .f32) (j : Fin 64) :
    shapeCast S64 (extractStridedSlice S1x64 ![l.val, 0] b h2) shapeCasts_S1x64_S64 (ix1 j) = b (ix2 l j) :=
  (shapeCast_dropUnit_apply ![64] (extractStridedSlice S1x64 ![l.val, 0] b h2) shapeCasts_S1x64_S64 (ix1 j)).trans
    (extractStridedSlice_apply ![l.val, 0] b h2 _ (ix2 l j) (fun a => match a with
      | ⟨0, _⟩ => (Nat.add_zero _).symm
      | ⟨1, _⟩ => (Nat.zero_add _).symm))

/-- The layer's operations are the bias added to the product and the rectifier applied: the host's form of that function. -/
theorem act_eq (o3 : Fin S3x64x64.rank → ℕ) (h3 : S3x64x64.Slices o3 S1x64x64) (o2 : Fin S3x64.rank → ℕ) (h2 : S3x64.Slices o2 S1x64)
    (A : FVec Ideal S150000x64 .f32) (W : FVec Ideal S3x64x64 .f32) (b : FVec Ideal S3x64 .f32) :
    act o3 h3 o2 h2 A W b = Cert.LibBiasLeaky.biasLeaky 0x3E4CCCCD#32
      (Host.dotGeneral (F := Ideal) dot_S150000x64_S64x64_S150000x64_1_0_0_1_n_n none A
        (shapeCast S64x64 (extractStridedSlice S1x64x64 o3 W h3) shapeCasts_S1x64x64_S64x64))
      (shapeCast S64 (extractStridedSlice S1x64 o2 b h2) shapeCasts_S1x64_S64) :=
  Cert.LibBiasLeaky.host_form 0x3E4CCCCD#32
    (Host.dotGeneral (F := Ideal) dot_S150000x64_S64x64_S150000x64_1_0_0_1_n_n none A
      (shapeCast S64x64 (extractStridedSlice S1x64x64 o3 W h3) shapeCasts_S1x64x64_S64x64))
    (shapeCast S64 (extractStridedSlice S1x64 o2 b h2) shapeCasts_S1x64_S64)
    bcast_S64_S1x64_1 bcast_S1x64_S150000x64_0_1 bcast_S_S150000x64

/-- The product of the aggregates with a matrix, at (r, j): the sum over k of the aggregates at (r, k) times the matrix
    at (k, j). -/
theorem dot_apply (A : FVec Ideal S150000x64 .f32) (w : FVec Ideal S64x64 .f32) (r : Fin 150000) (j : Fin 64) :
    Host.dotGeneral (F := Ideal) dot_S150000x64_S64x64_S150000x64_1_0_0_1_n_n none A w (ix2 r j)
      = ∑ k : Fin 64, A (ix2 r k) * w (ix2 k j) := by
  simp only [Host.dotGeneral]
  rw [Ideal.dotGeneral_apply]
  exact Cert.LibPlainDot.plain_sum dot_S150000x64_S64x64_S150000x64_1_0_0_1_n_n rfl rfl rfl rfl rfl rfl A w r j

/-- Layer l's activation at (r, j): the specified activation of row r of the aggregates. -/
theorem act_apply (o : ℕ) (ho : o < 3) (h3 : S3x64x64.Slices ![o, 0, 0] S1x64x64) (h2 : S3x64.Slices ![o, 0] S1x64)
    (A : FVec Ideal S150000x64 .f32) (W : FVec Ideal S3x64x64 .f32) (b : FVec Ideal S3x64 .f32) (r : Fin 150000) (j : Fin 64) :
    act ![o, 0, 0] h3 ![o, 0] h2 A W b (ix2 r j)
      = Cert.Gcn.actRow (fun k => A (ix2 r k)) (fun k j => W (ix3 (⟨o, ho⟩ : Fin 3) k j)) (fun j => b (ix2 (⟨o, ho⟩ : Fin 3) j)) j := by
  rw [act_eq, Cert.LibBiasLeaky.biasLeaky_apply, dot_apply, bias_apply ⟨o, ho⟩ h2 b j]
  refine congrArg (Cert.LibBiasLeaky.leaky 0x3E4CCCCD#32) ?_
  refine congrArg (· + b (ix2 (⟨o, ho⟩ : Fin 3) j)) ?_
  exact Finset.sum_congr rfl fun k _ => congrArg (A (ix2 r k) * ·) (weight_apply ⟨o, ho⟩ h3 W k j)

/-- The normalization's operations as one term. -/
theorem normalise_eq (s : FVec Ideal S150000x64 .f32) :
    normalise s = Host.divf (F := Ideal) s (broadcastInDim S150000x64 ![0, 1] bcast_S150000x1_S150000x64_0_1
      (maximumf (Host.sqrt (F := Ideal) (broadcastInDim S150000x1 ![0] bcast_S150000_S150000x1_0
          (Host.reduceAdd (F := Ideal) (mulf s s) (constant (F := Ideal) S_ .f32 0x00000000#32) reducesTo_S150000x64_S150000_d1 h_S_)))
        (broadcastInDim S150000x1 ![] bcast_S_S150000x1 (constant (F := Ideal) S_ .f32 0x2B8CBCCC#32)))) := rfl

/-- The host's square root at an index. -/
theorem hostSqrt_apply {t : Shape} (x : FVec Ideal t .f32) (i : t.Idx) : Host.sqrt (F := Ideal) x i = Ideal.sqrt (x i) := rfl

/-- A normalized row: each entry divided by the specified clamped length of its row. -/
theorem normalise_apply (s : FVec Ideal S150000x64 .f32) (r : Fin 150000) (j : Fin 64) :
    normalise s (ix2 r j) = Ideal.div (s (ix2 r j)) (Cert.Gcn.rowLen (fun j => s (ix2 r j))) := by
  have hr : S150000x64.Reduces [1] S150000 := by decide
  rw [normalise_eq, hostDivf_apply, Cert.RowLogSoftmax.spread_apply, maximumf_apply, hostSqrt_apply,
    Cert.RowLogSoftmax.column_apply, Cert.RowLogSoftmax.splat_apply]
  unfold Cert.Gcn.rowLen
  refine congrArg (fun z => Ideal.div (s (ix2 r j)) (max (Ideal.sqrt z) (Ideal.ofBits .f32 0x2B8CBCCC#32))) ?_
  exact Cert.RowLogSoftmax.host_rowSum (mulf s s) reducesTo_S150000x64_S150000_d1 hr h_S_ r

/-! ## The join and the two cuts -/

/-- Piece g of the four-way join at (r, q), for q = 64 g + c. -/
theorem join_apply (y0 y1 y2 y3 : FVec Ideal S150000x64 .f32) (r : Fin 150000) (q : Fin 256) (g : Fin 4) (c : Fin 64)
    (hq : g.val * 64 + c.val = q.val) : join y0 y1 y2 y3 (ix2 r q) = (![y0, y1, y2, y3] g) (ix2 r c) :=
  Cert.LibJoin4.join4_apply (t := S150000x256) (s := S150000x64) (1 : Fin S150000x256.rank) y0 y1 y2 y3
    concatenates_S150000x64_S150000x64_S150000x64_S150000x64_S150000x256_d1 rfl 64 rfl (ix2 r q) g (ix2 r c)
    (fun a ha => match a, ha with
      | ⟨0, _⟩, _ => rfl
      | ⟨1, _⟩, ha => absurd rfl ha)
    hq

/-- A normalized layer at (r, c): the specified quotient for layer l of row r. -/
theorem layer_apply (o : ℕ) (ho : o < 3) (h3 : S3x64x64.Slices ![o, 0, 0] S1x64x64) (h2 : S3x64.Slices ![o, 0] S1x64)
    (A : FVec Ideal S150000x64 .f32) (W : FVec Ideal S3x64x64 .f32) (b : FVec Ideal S3x64 .f32) (r : Fin 150000) (c : Fin 64) :
    normalise (act ![o, 0, 0] h3 ![o, 0] h2 A W b) (ix2 r c)
      = Ideal.div (Cert.Gcn.actRow (fun k => A (ix2 r k)) (fun k j => W (ix3 (⟨o, ho⟩ : Fin 3) k j)) (fun j => b (ix2 (⟨o, ho⟩ : Fin 3) j)) c)
          (Cert.Gcn.rowLen (Cert.Gcn.actRow (fun k => A (ix2 r k)) (fun k j => W (ix3 (⟨o, ho⟩ : Fin 3) k j)) (fun j => b (ix2 (⟨o, ho⟩ : Fin 3) j)))) := by
  rw [normalise_apply, act_apply o ho h3 h2 A W b r c]
  refine congrArg (fun f => Ideal.div _ (Cert.Gcn.rowLen f)) ?_
  exact funext fun j => act_apply o ho h3 h2 A W b r j

/-- The joined matrix at (r, q): the specified output row of row r of the stacked embeddings and aggregates. -/
theorem row_apply (Xs As : FVec Ideal S150000x64 .f32) (W : FVec Ideal S3x64x64 .f32) (b : FVec Ideal S3x64 .f32)
    (r : Fin 150000) (q : Fin 256) :
    join Xs
        (normalise (act ![0, 0, 0] slices_S3x64x64_S1x64x64_0_0_0 ![0, 0] slices_S3x64_S1x64_0_0 As W b))
        (normalise (act ![1, 0, 0] slices_S3x64x64_S1x64x64_1_0_0 ![1, 0] slices_S3x64_S1x64_1_0 As W b))
        (normalise (act ![2, 0, 0] slices_S3x64x64_S1x64x64_2_0_0 ![2, 0] slices_S3x64_S1x64_2_0 As W b)) (ix2 r q)
      = Cert.Gcn.outRow (fun k => Xs (ix2 r k))
          (fun l => Cert.Gcn.actRow (fun k => As (ix2 r k)) (fun k j => W (ix3 l k j)) (fun j => b (ix2 l j))) q := by
  have hq := q.isLt
  unfold Cert.Gcn.outRow
  by_cases h0 : q.val < 64
  · rw [dif_pos h0]
    exact join_apply _ _ _ _ r q 0 ⟨q.val, h0⟩ (by show 0 * 64 + q.val = q.val; omega)
  · rw [dif_neg h0]
    have hc : (Cert.Gcn.within q).val = q.val % 64 := rfl
    have hg : q.val / 64 = 1 ∨ q.val / 64 = 2 ∨ q.val / 64 = 3 := by omega
    rcases hg with hg | hg | hg
    · have hl : Cert.Gcn.layerOf q = (⟨0, by omega⟩ : Fin 3) := Fin.ext (by show q.val / 64 - 1 = 0; omega)
      rw [hl]
      refine (join_apply _ _ _ _ r q 1 (Cert.Gcn.within q) (by show 1 * 64 + (Cert.Gcn.within q).val = q.val; omega)).trans ?_
      exact layer_apply 0 (by omega) _ _ As W b r (Cert.Gcn.within q)
    · have hl : Cert.Gcn.layerOf q = (⟨1, by omega⟩ : Fin 3) := Fin.ext (by show q.val / 64 - 1 = 1; omega)
      rw [hl]
      refine (join_apply _ _ _ _ r q 2 (Cert.Gcn.within q) (by show 2 * 64 + (Cert.Gcn.within q).val = q.val; omega)).trans ?_
      exact layer_apply 1 (by omega) _ _ As W b r (Cert.Gcn.within q)
    · have hl : Cert.Gcn.layerOf q = (⟨2, by omega⟩ : Fin 3) := Fin.ext (by show q.val / 64 - 1 = 2; omega)
      rw [hl]
      refine (join_apply _ _ _ _ r q 3 (Cert.Gcn.within q) (by show 3 * 64 + (Cert.Gcn.within q).val = q.val; omega)).trans ?_
      exact layer_apply 2 (by omega) _ _ As W b r (Cert.Gcn.within q)

/-- The first 100000 rows are the specified result of the user embeddings and user aggregates. -/
theorem users_eq (X0 : FVec Ideal S100000x64 .f32) (X1 : FVec Ideal S50000x64 .f32) (A0 : FVec Ideal S100000x64 .f32)
    (A1 : FVec Ideal S50000x64 .f32) (W : FVec Ideal S3x64x64 .f32) (b : FVec Ideal S3x64 .f32) :
    users X0 X1 A0 A1 W b = Cert.Gcn.result (M := 100000) X0 A0 W b := by
  funext i
  obtain ⟨p, q, rfl⟩ : ∃ (p : Fin 100000) (q : Fin 256), i = ix2 p q := ⟨i 0, i 1, eq_ix2 i⟩
  have hr : p.val < 150000 := by have := p.isLt; omega
  rw [Cert.Gcn.result_apply]
  refine (slice2_axis0_apply 0 (total X0 X1 A0 A1 W b) slices_S150000x256_S100000x256_0_0 p q ⟨p.val, hr⟩
    (Nat.zero_add _).symm).trans ?_
  rw [total_eq]
  refine (row_apply (stack X0 X1) (stack A0 A1) W b ⟨p.val, hr⟩ q).trans ?_
  have hX : (fun k => stack X0 X1 (ix2 (⟨p.val, hr⟩ : Fin 150000) k)) = fun k => X0 (ix2 p k) :=
    funext fun k => stack_upper X0 X1 ⟨p.val, hr⟩ p rfl k
  have hA : (fun k => stack A0 A1 (ix2 (⟨p.val, hr⟩ : Fin 150000) k)) = fun k => A0 (ix2 p k) :=
    funext fun k => stack_upper A0 A1 ⟨p.val, hr⟩ p rfl k
  rw [hX, hA]

/-- The last 50000 rows are the specified result of the item embeddings and item aggregates. -/
theorem items_eq (X0 : FVec Ideal S100000x64 .f32) (X1 : FVec Ideal S50000x64 .f32) (A0 : FVec Ideal S100000x64 .f32)
    (A1 : FVec Ideal S50000x64 .f32) (W : FVec Ideal S3x64x64 .f32) (b : FVec Ideal S3x64 .f32) :
    items X0 X1 A0 A1 W b = Cert.Gcn.result (M := 50000) X1 A1 W b := by
  funext i
  obtain ⟨p, q, rfl⟩ : ∃ (p : Fin 50000) (q : Fin 256), i = ix2 p q := ⟨i 0, i 1, eq_ix2 i⟩
  have hr : 100000 + p.val < 150000 := by have := p.isLt; omega
  rw [Cert.Gcn.result_apply]
  refine (slice2_axis0_apply 100000 (total X0 X1 A0 A1 W b) slices_S150000x256_S50000x256_100000_0 p q ⟨100000 + p.val, hr⟩
    rfl).trans ?_
  rw [total_eq]
  refine (row_apply (stack X0 X1) (stack A0 A1) W b ⟨100000 + p.val, hr⟩ q).trans ?_
  have hX : (fun k => stack X0 X1 (ix2 (⟨100000 + p.val, hr⟩ : Fin 150000) k)) = fun k => X1 (ix2 p k) :=
    funext fun k => stack_lower X0 X1 ⟨100000 + p.val, hr⟩ p rfl k
  have hA : (fun k => stack A0 A1 (ix2 (⟨100000 + p.val, hr⟩ : Fin 150000) k)) = fun k => A1 (ix2 p k) :=
    funext fun k => stack_lower A0 A1 ⟨100000 + p.val, hr⟩ p rfl k
  rw [hX, hA]

end Cert.ReferenceIdeal.Layers

end
-- ==== Proof.RefMid.lean ====
/-
  The second piece of the reference's straight line of host operations — the three layers — read as one term.

  The piece is 83 operations, each writing one buffer that no other operation of it writes, and each operand is either
  not written by the piece or written earlier in it. So what the piece leaves in an operation's result buffer is the
  operation's function of what the piece leaves in its operands' buffers, and the piece is read one operation at a time:
  the two stackings of the aggregated and of the embedding tables; for each of the three layers the sixteen operations up
  to the leaky rectifier's select (the activation) and the ten that divide each row by its clamped Euclidean length; the
  four-way join; and the two row ranges cut out of the joined table. The results are the terms of the dense part of the
  reference: the first 100000 rows and the last 50000 rows of the joined table, as functions of the piece's inputs (the
  two embedding tables, the two aggregated tables, the stacked weights and the stacked biases).
-/
import proofs.«171917_j27255862461048_2_alg».proof.Proof.RefRun
import proofs.«171917_j27255862461048_2_alg».proof.Proof.RefLayers

noncomputable section

namespace Cert.ReferenceIdeal.Hand

open Cert.ReferenceIdeal Cert.ReferenceIdeal.Gen Idealize.ShloMosaic Idealize.ShloMosaic.TcCoe Idealize.SL.Sem Idealize.ShloMosaic.StableHlo

section
variable (V : Valuation τ sig (Elt Ideal))

/-! ## The buffers the piece reads and does not write -/

theorem mid_in_v12 : after opsMid V (Proc.devRef .tc main_v12) = V (Proc.devRef .tc main_v12) :=
  Cert.RefSSA.after_keep writesMid (by decide) V
theorem mid_in_v25 : after opsMid V (Proc.devRef .tc main_v25) = V (Proc.devRef .tc main_v25) :=
  Cert.RefSSA.after_keep writesMid (by decide) V
theorem mid_in_arg0 : after opsMid V (Proc.devRef .tc main_arg0) = V (Proc.devRef .tc main_arg0) :=
  Cert.RefSSA.after_keep writesMid (by decide) V
theorem mid_in_arg1 : after opsMid V (Proc.devRef .tc main_arg1) = V (Proc.devRef .tc main_arg1) :=
  Cert.RefSSA.after_keep writesMid (by decide) V
theorem mid_in_arg3 : after opsMid V (Proc.devRef .tc main_arg3) = V (Proc.devRef .tc main_arg3) :=
  Cert.RefSSA.after_keep writesMid (by decide) V
theorem mid_in_arg4 : after opsMid V (Proc.devRef .tc main_arg4) = V (Proc.devRef .tc main_arg4) :=
  Cert.RefSSA.after_keep writesMid (by decide) V

/-! ## The two stacked tables -/

/-- The user aggregates on the item aggregates. -/
theorem mid_v26 : after opsMid V (Proc.devRef .tc main_v26) = (Cert.ReferenceIdeal.Layers.stack (V (Proc.devRef .tc main_v12)) (V (Proc.devRef .tc main_v25))) :=
  Cert.RefSSA.ssa_binary writesMid V 0 rfl (by decide) (by decide) (by decide) _ _ (mid_in_v12 V) (mid_in_v25 V)

/-- The user embeddings on the item embeddings. -/
theorem mid_v27 : after opsMid V (Proc.devRef .tc main_v27)
    = Cert.ReferenceIdeal.Layers.stack (V (Proc.devRef .tc main_arg0)) (V (Proc.devRef .tc main_arg1)) :=
  Cert.RefSSA.ssa_binary writesMid V 1 rfl (by decide) (by decide) (by decide) _ _ (mid_in_arg0 V) (mid_in_arg1 V)

/-! ## The three layers -/

/-- Layer 0's activation: operations 2 … 17 of the piece, one at a time. -/
theorem mid_v36 : after opsMid V (Proc.devRef .tc main_v36) = (Cert.ReferenceIdeal.Layers.act ![0, 0, 0] slices_S3x64x64_S1x64x64_0_0_0 ![0, 0] slices_S3x64_S1x64_0_0 (Cert.ReferenceIdeal.Layers.stack (V (Proc.devRef .tc main_v12)) (V (Proc.devRef .tc main_v25))) (V (Proc.devRef .tc main_arg3)) (V (Proc.devRef .tc main_arg4))) := by
  have e_v26 := mid_v26 V
  have e_arg3 := mid_in_arg3 V
  have e_arg4 := mid_in_arg4 V
  have e_v28 := Cert.RefSSA.ssa_unary writesMid V 2 rfl (by decide) (by decide) _ e_arg3
  have e_v29 := Cert.RefSSA.ssa_reshape writesMid V 3 rfl (by decide) (by decide) _ e_v28
  have e_v30 := Cert.RefSSA.ssa_binary writesMid V 4 rfl (by decide) (by decide) (by decide) _ _ e_v26 e_v29
  have e_v31 := Cert.RefSSA.ssa_unary writesMid V 5 rfl (by decide) (by decide) _ e_arg4
  have e_v32 := Cert.RefSSA.ssa_reshape writesMid V 6 rfl (by decide) (by decide) _ e_v31
  have e_v33 := Cert.RefSSA.ssa_unary writesMid V 7 rfl (by decide) (by decide) _ e_v32
  have e_v34 := Cert.RefSSA.ssa_unary writesMid V 8 rfl (by decide) (by decide) _ e_v33
  have e_v35 := Cert.RefSSA.ssa_binary writesMid V 9 rfl (by decide) (by decide) (by decide) _ _ e_v30 e_v34
  have e_cst_4 := Cert.RefSSA.ssa_nullary writesMid V 10 rfl (by decide)
  have e_call0_cst := Cert.RefSSA.ssa_nullary writesMid V 11 rfl (by decide)
  have e_call0_v0 := Cert.RefSSA.ssa_unary writesMid V 12 rfl (by decide) (by decide) _ e_call0_cst
  have e_call0_v1 := Cert.RefSSA.ssa_binary writesMid V 13 rfl (by decide) (by decide) (by decide) _ _ e_v35 e_call0_v0
  have e_call0_v2 := Cert.RefSSA.ssa_unary writesMid V 14 rfl (by decide) (by decide) _ e_cst_4
  have e_call0_v3 := Cert.RefSSA.ssa_unary writesMid V 15 rfl (by decide) (by decide) _ e_call0_v2
  have e_call0_v4 := Cert.RefSSA.ssa_binary writesMid V 16 rfl (by decide) (by decide) (by decide) _ _ e_call0_v3 e_v35
  have e_v36 := Cert.RefSSA.ssa_ternary writesMid V 17 rfl (by decide) (by decide) (by decide) (by decide) _ _ _ e_call0_v1 e_v35 e_call0_v4
  exact e_v36

/-- Layer 0's rows divided by their clamped lengths: operations 18 … 27 of the piece. -/
theorem mid_v44 : after opsMid V (Proc.devRef .tc main_v44) = Cert.ReferenceIdeal.Layers.normalise (Cert.ReferenceIdeal.Layers.act ![0, 0, 0] slices_S3x64x64_S1x64x64_0_0_0 ![0, 0] slices_S3x64_S1x64_0_0 (Cert.ReferenceIdeal.Layers.stack (V (Proc.devRef .tc main_v12)) (V (Proc.devRef .tc main_v25))) (V (Proc.devRef .tc main_arg3)) (V (Proc.devRef .tc main_arg4))) := by
  have e_v36 := mid_v36 V
  have e_v37 := Cert.RefSSA.ssa_binary writesMid V 18 rfl (by decide) (by decide) (by decide) _ _ e_v36 e_v36
  have e_cst_5 := Cert.RefSSA.ssa_nullary writesMid V 19 rfl (by decide)
  have e_v38 := Cert.RefSSA.ssa_binary writesMid V 20 rfl (by decide) (by decide) (by decide) _ _ e_v37 e_cst_5
  have e_v39 := Cert.RefSSA.ssa_unary writesMid V 21 rfl (by decide) (by decide) _ e_v38
  have e_v40 := Cert.RefSSA.ssa_unary writesMid V 22 rfl (by decide) (by decide) _ e_v39
  have e_cst_6 := Cert.RefSSA.ssa_nullary writesMid V 23 rfl (by decide)
  have e_v41 := Cert.RefSSA.ssa_unary writesMid V 24 rfl (by decide) (by decide) _ e_cst_6
  have e_v42 := Cert.RefSSA.ssa_binary writesMid V 25 rfl (by decide) (by decide) (by decide) _ _ e_v40 e_v41
  have e_v43 := Cert.RefSSA.ssa_unary writesMid V 26 rfl (by decide) (by decide) _ e_v42
  have e_v44 := Cert.RefSSA.ssa_binary writesMid V 27 rfl (by decide) (by decide) (by decide) _ _ e_v36 e_v43
  exact e_v44

/-- Layer 1's activation: operations 28 … 43 of the piece, one at a time. -/
theorem mid_v53 : after opsMid V (Proc.devRef .tc main_v53) = (Cert.ReferenceIdeal.Layers.act ![1, 0, 0] slices_S3x64x64_S1x64x64_1_0_0 ![1, 0] slices_S3x64_S1x64_1_0 (Cert.ReferenceIdeal.Layers.stack (V (Proc.devRef .tc main_v12)) (V (Proc.devRef .tc main_v25))) (V (Proc.devRef .tc main_arg3)) (V (Proc.devRef .tc main_arg4))) := by
  have e_v26 := mid_v26 V
  have e_arg3 := mid_in_arg3 V
  have e_arg4 := mid_in_arg4 V
  have e_v45 := Cert.RefSSA.ssa_unary writesMid V 28 rfl (by decide) (by decide) _ e_arg3
  have e_v46 := Cert.RefSSA.ssa_reshape writesMid V 29 rfl (by decide) (by decide) _ e_v45
  have e_v47 := Cert.RefSSA.ssa_binary writesMid V 30 rfl (by decide) (by decide) (by decide) _ _ e_v26 e_v46
  have e_v48 := Cert.RefSSA.ssa_unary writesMid V 31 rfl (by decide) (by decide) _ e_arg4
  have e_v49 := Cert.RefSSA.ssa_reshape writesMid V 32 rfl (by decide) (by decide) _ e_v48
  have e_v50 := Cert.RefSSA.ssa_unary writesMid V 33 rfl (by decide) (by decide) _ e_v49
  have e_v51 := Cert.RefSSA.ssa_unary writesMid V 34 rfl (by decide) (by decide) _ e_v50
  have e_v52 := Cert.RefSSA.ssa_binary writesMid V 35 rfl (by decide) (by decide) (by decide) _ _ e_v47 e_v51
  have e_cst_7 := Cert.RefSSA.ssa_nullary writesMid V 36 rfl (by decide)
  have e_call1_cst := Cert.RefSSA.ssa_nullary writesMid V 37 rfl (by decide)
  have e_call1_v0 := Cert.RefSSA.ssa_unary writesMid V 38 rfl (by decide) (by decide) _ e_call1_cst
  have e_call1_v1 := Cert.RefSSA.ssa_binary writesMid V 39 rfl (by decide) (by decide) (by decide) _ _ e_v52 e_call1_v0
  have e_call1_v2 := Cert.RefSSA.ssa_unary writesMid V 40 rfl (by decide) (by decide) _ e_cst_7
  have e_call1_v3 := Cert.RefSSA.ssa_unary writesMid V 41 rfl (by decide) (by decide) _ e_call1_v2
  have e_call1_v4 := Cert.RefSSA.ssa_binary writesMid V 42 rfl (by decide) (by decide) (by decide) _ _ e_call1_v3 e_v52
  have e_v53 := Cert.RefSSA.ssa_ternary writesMid V 43 rfl (by decide) (by decide) (by decide) (by decide) _ _ _ e_call1_v1 e_v52 e_call1_v4
  exact e_v53

/-- Layer 1's rows divided by their clamped lengths: operations 44 … 53 of the piece. -/
theorem mid_v61 : after opsMid V (Proc.devRef .tc main_v61) = Cert.ReferenceIdeal.Layers.normalise (Cert.ReferenceIdeal.Layers.act ![1, 0, 0] slices_S3x64x64_S1x64x64_1_0_0 ![1, 0] slices_S3x64_S1x64_1_0 (Cert.ReferenceIdeal.Layers.stack (V (Proc.devRef .tc main_v12)) (V (Proc.devRef .tc main_v25))) (V (Proc.devRef .tc main_arg3)) (V (Proc.devRef .tc main_arg4))) := by
  have e_v53 := mid_v53 V
  have e_v54 := Cert.RefSSA.ssa_binary writesMid V 44 rfl (by decide) (by decide) (by decide) _ _ e_v53 e_v53
  have e_cst_8 := Cert.RefSSA.ssa_nullary writesMid V 45 rfl (by decide)
  have e_v55 := Cert.RefSSA.ssa_binary writesMid V 46 rfl (by decide) (by decide) (by decide) _ _ e_v54 e_cst_8
  have e_v56 := Cert.RefSSA.ssa_unary writesMid V 47 rfl (by decide) (by decide) _ e_v55
  have e_v57 := Cert.RefSSA.ssa_unary writesMid V 48 rfl (by decide) (by decide) _ e_v56
  have e_cst_9 := Cert.RefSSA.ssa_nullary writesMid V 49 rfl (by decide)
  have e_v58 := Cert.RefSSA.ssa_unary writesMid V 50 rfl (by decide) (by decide) _ e_cst_9
  have e_v59 := Cert.RefSSA.ssa_binary writesMid V 51 rfl (by decide) (by decide) (by decide) _ _ e_v57 e_v58
  have e_v60 := Cert.RefSSA.ssa_unary writesMid V 52 rfl (by decide) (by decide) _ e_v59
  have e_v61 := Cert.RefSSA.ssa_binary writesMid V 53 rfl (by decide) (by decide) (by decide) _ _ e_v53 e_v60
  exact e_v61

/-- Layer 2's activation: operations 54 … 69 of the piece, one at a time. -/
theorem mid_v70 : after opsMid V (Proc.devRef .tc main_v70) = (Cert.ReferenceIdeal.Layers.act ![2, 0, 0] slices_S3x64x64_S1x64x64_2_0_0 ![2, 0] slices_S3x64_S1x64_2_0 (Cert.ReferenceIdeal.Layers.stack (V (Proc.devRef .tc main_v12)) (V (Proc.devRef .tc main_v25))) (V (Proc.devRef .tc main_arg3)) (V (Proc.devRef .tc main_arg4))) := by
  have e_v26 := mid_v26 V
  have e_arg3 := mid_in_arg3 V
  have e_arg4 := mid_in_arg4 V
  have e_v62 := Cert.RefSSA.ssa_unary writesMid V 54 rfl (by decide) (by decide) _ e_arg3
  have e_v63 := Cert.RefSSA.ssa_reshape writesMid V 55 rfl (by decide) (by decide) _ e_v62
  have e_v64 := Cert.RefSSA.ssa_binary writesMid V 56 rfl (by decide) (by decide) (by decide) _ _ e_v26 e_v63
  have e_v65 := Cert.RefSSA.ssa_unary writesMid V 57 rfl (by decide) (by decide) _ e_arg4
  have e_v66 := Cert.RefSSA.ssa_reshape writesMid V 58 rfl (by decide) (by decide) _ e_v65
  have e_v67 := Cert.RefSSA.ssa_unary writesMid V 59 rfl (by decide) (by decide) _ e_v66
  have e_v68 := Cert.RefSSA.ssa_unary writesMid V 60 rfl (by decide) (by decide) _ e_v67
  have e_v69 := Cert.RefSSA.ssa_binary writesMid V 61 rfl (by decide) (by decide) (by decide) _ _ e_v64 e_v68
  have e_cst_10 := Cert.RefSSA.ssa_nullary writesMid V 62 rfl (by decide)
  have e_call2_cst := Cert.RefSSA.ssa_nullary writesMid V 63 rfl (by decide)
  have e_call2_v0 := Cert.RefSSA.ssa_unary writesMid V 64 rfl (by decide) (by decide) _ e_call2_cst
  have e_call2_v1 := Cert.RefSSA.ssa_binary writesMid V 65 rfl (by decide) (by decide) (by decide) _ _ e_v69 e_call2_v0
  have e_call2_v2 := Cert.RefSSA.ssa_unary writesMid V 66 rfl (by decide) (by decide) _ e_cst_10
  have e_call2_v3 := Cert.RefSSA.ssa_unary writesMid V 67 rfl (by decide) (by decide) _ e_call2_v2
  have e_call2_v4 := Cert.RefSSA.ssa_binary writesMid V 68 rfl (by decide) (by decide) (by decide) _ _ e_call2_v3 e_v69
  have e_v70 := Cert.RefSSA.ssa_ternary writesMid V 69 rfl (by decide) (by decide) (by decide) (by decide) _ _ _ e_call2_v1 e_v69 e_call2_v4
  exact e_v70

/-- Layer 2's rows divided by their clamped lengths: operations 70 … 79 of the piece. -/
theorem mid_v78 : after opsMid V (Proc.devRef .tc main_v78) = Cert.ReferenceIdeal.Layers.normalise (Cert.ReferenceIdeal.Layers.act ![2, 0, 0] slices_S3x64x64_S1x64x64_2_0_0 ![2, 0] slices_S3x64_S1x64_2_0 (Cert.ReferenceIdeal.Layers.stack (V (Proc.devRef .tc main_v12)) (V (Proc.devRef .tc main_v25))) (V (Proc.devRef .tc main_arg3)) (V (Proc.devRef .tc main_arg4))) := by
  have e_v70 := mid_v70 V
  have e_v71 := Cert.RefSSA.ssa_binary writesMid V 70 rfl (by decide) (by decide) (by decide) _ _ e_v70 e_v70
  have e_cst_11 := Cert.RefSSA.ssa_nullary writesMid V 71 rfl (by decide)
  have e_v72 := Cert.RefSSA.ssa_binary writesMid V 72 rfl (by decide) (by decide) (by decide) _ _ e_v71 e_cst_11
  have e_v73 := Cert.RefSSA.ssa_unary writesMid V 73 rfl (by decide) (by decide) _ e_v72
  have e_v74 := Cert.RefSSA.ssa_unary writesMid V 74 rfl (by decide) (by decide) _ e_v73
  have e_cst_12 := Cert.RefSSA.ssa_nullary writesMid V 75 rfl (by decide)
  have e_v75 := Cert.RefSSA.ssa_unary writesMid V 76 rfl (by decide) (by decide) _ e_cst_12
  have e_v76 := Cert.RefSSA.ssa_binary writesMid V 77 rfl (by decide) (by decide) (by decide) _ _ e_v74 e_v75
  have e_v77 := Cert.RefSSA.ssa_unary writesMid V 78 rfl (by decide) (by decide) _ e_v76
  have e_v78 := Cert.RefSSA.ssa_binary writesMid V 79 rfl (by decide) (by decide) (by decide) _ _ e_v70 e_v77
  exact e_v78

/-! ## The joined table and its two row ranges -/

/-- The four tables side by side are the dense part of the reference as one term. -/
theorem mid_v79 : after opsMid V (Proc.devRef .tc main_v79) = Cert.ReferenceIdeal.Layers.total (V (Proc.devRef .tc main_arg0)) (V (Proc.devRef .tc main_arg1)) (V (Proc.devRef .tc main_v12)) (V (Proc.devRef .tc main_v25)) (V (Proc.devRef .tc main_arg3)) (V (Proc.devRef .tc main_arg4)) := by
  have e_v27 := mid_v27 V
  have e_v44 := mid_v44 V
  have e_v61 := mid_v61 V
  have e_v78 := mid_v78 V
  have e_v79 := Cert.RefSSA.ssa_nary4 writesMid V 80 rfl (by decide) (by decide) (by decide) (by decide) (by decide) _ _ _ _ e_v27 e_v44 e_v61 e_v78
  rw [Cert.ReferenceIdeal.Layers.total_eq]
  exact e_v79

/-- The first 100000 rows of the joined table. -/
theorem mid_v80 : after opsMid V (Proc.devRef .tc main_v80) = Cert.ReferenceIdeal.Layers.users (V (Proc.devRef .tc main_arg0)) (V (Proc.devRef .tc main_arg1)) (V (Proc.devRef .tc main_v12)) (V (Proc.devRef .tc main_v25)) (V (Proc.devRef .tc main_arg3)) (V (Proc.devRef .tc main_arg4)) :=
  Cert.RefSSA.ssa_unary writesMid V 81 rfl (by decide) (by decide) _ (mid_v79 V)

/-- The last 50000 rows of the joined table. -/
theorem mid_v81 : after opsMid V (Proc.devRef .tc main_v81) = Cert.ReferenceIdeal.Layers.items (V (Proc.devRef .tc main_arg0)) (V (Proc.devRef .tc main_arg1)) (V (Proc.devRef .tc main_v12)) (V (Proc.devRef .tc main_v25)) (V (Proc.devRef .tc main_arg3)) (V (Proc.devRef .tc main_arg4)) :=
  Cert.RefSSA.ssa_unary writesMid V 82 rfl (by decide) (by decide) _ (mid_v79 V)

end

end Cert.ReferenceIdeal.Hand

end
-- ==== Proof.RefValue.lean ====
/-
  The value the reference program leaves in its results.

  The line of 188 operations is read in its three consecutive pieces: the fold over the whole line is the fold over the
  third piece of the fold over the second of the fold over the first, and each piece leaves untouched every buffer it
  does not write — the inputs, and the results of an earlier piece that a later piece reads. The first piece leaves in its
  two results the two weighted sums of neighbours' rows, as functions of the inputs; the third leaves in the scalar result
  the loss, as a function of the two tables the second piece leaves and of the three index arrays. The second piece's two
  tables are the specified result of each embedding table and its aggregate, so every execution of the reference ends
  with the specified tables, the loss of them, and the inputs as they were.
-/
import proofs.«171917_j27255862461048_2_alg».proof.Proof.RefRun
import proofs.«171917_j27255862461048_2_alg».proof.Proof.HostDefs
import proofs.«171917_j27255862461048_2_alg».proof.Proof.RefLayers
import proofs.«171917_j27255862461048_2_alg».proof.Proof.RefMid

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.KernelIdeal.Parts (aggU aggI tailLoss)

section Pieces

variable {F : FTy → Type} [FloatOps F]

/-- The fold over the whole line is the folds over the three pieces, one after the other. -/
theorem after_split (V : Valuation τ sig (Elt F)) : after ops V = after opsTail (after opsMid (after opsHead V)) := by
  rw [ops_split, Cert.RefSSA.after_app, Cert.RefSSA.after_app]

/-! ### What each piece leaves untouched -/

theorem opsTail_keep_v80 (V : Valuation τ sig (Elt F)) : after opsTail V (main_v80 : DevRef τ sig) = V (main_v80 : DevRef τ sig) :=
  Cert.RefSSA.after_keep writesTail (by decide) V
theorem opsTail_keep_v81 (V : Valuation τ sig (Elt F)) : after opsTail V (main_v81 : DevRef τ sig) = V (main_v81 : DevRef τ sig) :=
  Cert.RefSSA.after_keep writesTail (by decide) V
theorem opsTail_keep_arg0 (V : Valuation τ sig (Elt F)) : after opsTail V (main_arg0 : DevRef τ sig) = V (main_arg0 : DevRef τ sig) :=
  Cert.RefSSA.after_keep writesTail (by decide) V
theorem opsTail_keep_arg1 (V : Valuation τ sig (Elt F)) : after opsTail V (main_arg1 : DevRef τ sig) = V (main_arg1 : DevRef τ sig) :=
  Cert.RefSSA.after_keep writesTail (by decide) V
theorem opsTail_keep_arg2 (V : Valuation τ sig (Elt F)) : after opsTail V (main_arg2 : DevRef τ sig) = V (main_arg2 : DevRef τ sig) :=
  Cert.RefSSA.after_keep writesTail (by decide) V
theorem opsTail_keep_arg3 (V : Valuation τ sig (Elt F)) : after opsTail V (main_arg3 : DevRef τ sig) = V (main_arg3 : DevRef τ sig) :=
  Cert.RefSSA.after_keep writesTail (by decide) V
theorem opsTail_keep_arg4 (V : Valuation τ sig (Elt F)) : after opsTail V (main_arg4 : DevRef τ sig) = V (main_arg4 : DevRef τ sig) :=
  Cert.RefSSA.after_keep writesTail (by decide) V
theorem opsTail_keep_arg5 (V : Valuation τ sig (Elt F)) : after opsTail V (main_arg5 : DevRef τ sig) = V (main_arg5 : DevRef τ sig) :=
  Cert.RefSSA.after_keep writesTail (by decide) V
theorem opsTail_keep_arg6 (V : Valuation τ sig (Elt F)) : after opsTail V (main_arg6 : DevRef τ sig) = V (main_arg6 : DevRef τ sig) :=
  Cert.RefSSA.after_keep writesTail (by decide) V
theorem opsTail_keep_arg7 (V : Valuation τ sig (Elt F)) : after opsTail V (main_arg7 : DevRef τ sig) = V (main_arg7 : DevRef τ sig) :=
  Cert.RefSSA.after_keep writesTail (by decide) V
theorem opsTail_keep_arg8 (V : Valuation τ sig (Elt F)) : after opsTail V (main_arg8 : DevRef τ sig) = V (main_arg8 : DevRef τ sig) :=
  Cert.RefSSA.after_keep writesTail (by decide) V
theorem opsTail_keep_arg9 (V : Valuation τ sig (Elt F)) : after opsTail V (main_arg9 : DevRef τ sig) = V (main_arg9 : DevRef τ sig) :=
  Cert.RefSSA.after_keep writesTail (by decide) V

theorem opsMid_keep_v12 (V : Valuation τ sig (Elt F)) : after opsMid V (main_v12 : DevRef τ sig) = V (main_v12 : DevRef τ sig) :=
  Cert.RefSSA.after_keep writesMid (by decide) V
theorem opsMid_keep_v25 (V : Valuation τ sig (Elt F)) : after opsMid V (main_v25 : DevRef τ sig) = V (main_v25 : DevRef τ sig) :=
  Cert.RefSSA.after_keep writesMid (by decide) V
theorem opsMid_keep_arg0 (V : Valuation τ sig (Elt F)) : after opsMid V (main_arg0 : DevRef τ sig) = V (main_arg0 : DevRef τ sig) :=
  Cert.RefSSA.after_keep writesMid (by decide) V
theorem opsMid_keep_arg1 (V : Valuation τ sig (Elt F)) : after opsMid V (main_arg1 : DevRef τ sig) = V (main_arg1 : DevRef τ sig) :=
  Cert.RefSSA.after_keep writesMid (by decide) V
theorem opsMid_keep_arg2 (V : Valuation τ sig (Elt F)) : after opsMid V (main_arg2 : DevRef τ sig) = V (main_arg2 : DevRef τ sig) :=
  Cert.RefSSA.after_keep writesMid (by decide) V
theorem opsMid_keep_arg3 (V : Valuation τ sig (Elt F)) : after opsMid V (main_arg3 : DevRef τ sig) = V (main_arg3 : DevRef τ sig) :=
  Cert.RefSSA.after_keep writesMid (by decide) V
theorem opsMid_keep_arg4 (V : Valuation τ sig (Elt F)) : after opsMid V (main_arg4 : DevRef τ sig) = V (main_arg4 : DevRef τ sig) :=
  Cert.RefSSA.after_keep writesMid (by decide) V
theorem opsMid_keep_arg5 (V : Valuation τ sig (Elt F)) : after opsMid V (main_arg5 : DevRef τ sig) = V (main_arg5 : DevRef τ sig) :=
  Cert.RefSSA.after_keep writesMid (by decide) V
theorem opsMid_keep_arg6 (V : Valuation τ sig (Elt F)) : after opsMid V (main_arg6 : DevRef τ sig) = V (main_arg6 : DevRef τ sig) :=
  Cert.RefSSA.after_keep writesMid (by decide) V
theorem opsMid_keep_arg7 (V : Valuation τ sig (Elt F)) : after opsMid V (main_arg7 : DevRef τ sig) = V (main_arg7 : DevRef τ sig) :=
  Cert.RefSSA.after_keep writesMid (by decide) V
theorem opsMid_keep_arg8 (V : Valuation τ sig (Elt F)) : after opsMid V (main_arg8 : DevRef τ sig) = V (main_arg8 : DevRef τ sig) :=
  Cert.RefSSA.after_keep writesMid (by decide) V
theorem opsMid_keep_arg9 (V : Valuation τ sig (Elt F)) : after opsMid V (main_arg9 : DevRef τ sig) = V (main_arg9 : DevRef τ sig) :=
  Cert.RefSSA.after_keep writesMid (by decide) V

theorem opsHead_keep_arg0 (V : Valuation τ sig (Elt F)) : after opsHead V (main_arg0 : DevRef τ sig) = V (main_arg0 : DevRef τ sig) :=
  Cert.RefSSA.after_keep writesHead (by decide) V
theorem opsHead_keep_arg1 (V : Valuation τ sig (Elt F)) : after opsHead V (main_arg1 : DevRef τ sig) = V (main_arg1 : DevRef τ sig) :=
  Cert.RefSSA.after_keep writesHead (by decide) V
theorem opsHead_keep_arg2 (V : Valuation τ sig (Elt F)) : after opsHead V (main_arg2 : DevRef τ sig) = V (main_arg2 : DevRef τ sig) :=
  Cert.RefSSA.after_keep writesHead (by decide) V
theorem opsHead_keep_arg3 (V : Valuation τ sig (Elt F)) : after opsHead V (main_arg3 : DevRef τ sig) = V (main_arg3 : DevRef τ sig) :=
  Cert.RefSSA.after_keep writesHead (by decide) V
theorem opsHead_keep_arg4 (V : Valuation τ sig (Elt F)) : after opsHead V (main_arg4 : DevRef τ sig) = V (main_arg4 : DevRef τ sig) :=
  Cert.RefSSA.after_keep writesHead (by decide) V
theorem opsHead_keep_arg5 (V : Valuation τ sig (Elt F)) : after opsHead V (main_arg5 : DevRef τ sig) = V (main_arg5 : DevRef τ sig) :=
  Cert.RefSSA.after_keep writesHead (by decide) V
theorem opsHead_keep_arg6 (V : Valuation τ sig (Elt F)) : after opsHead V (main_arg6 : DevRef τ sig) = V (main_arg6 : DevRef τ sig) :=
  Cert.RefSSA.after_keep writesHead (by decide) V
theorem opsHead_keep_arg7 (V : Valuation τ sig (Elt F)) : after opsHead V (main_arg7 : DevRef τ sig) = V (main_arg7 : DevRef τ sig) :=
  Cert.RefSSA.after_keep writesHead (by decide) V
theorem opsHead_keep_arg8 (V : Valuation τ sig (Elt F)) : after opsHead V (main_arg8 : DevRef τ sig) = V (main_arg8 : DevRef τ sig) :=
  Cert.RefSSA.after_keep writesHead (by decide) V
theorem opsHead_keep_arg9 (V : Valuation τ sig (Elt F)) : after opsHead V (main_arg9 : DevRef τ sig) = V (main_arg9 : DevRef τ sig) :=
  Cert.RefSSA.after_keep writesHead (by decide) V

/-! ### What the first and the third piece compute

The fold is unrolled one operation at a time; at the buffer read, each operation's result is its function's value when
the buffer is the one it writes and what was there otherwise, both by computation on the literal references. The
gathers, scatter-adds and sums are folds over their operands' elements and are kept closed: the equations only say which
operation feeds which. The shapes and side conditions the two sides name are the same numbers. -/

attribute [local irreducible] Host.gather Host.scatterAdd Host.reduceAdd in
set_option maxRecDepth 8192 in
/-- The first piece leaves in its first scatter's result the weighted sum onto the 100000 rows. -/
theorem head_v12 (V : Valuation τ sig (Elt F)) :
    after opsHead V (main_v12 : DevRef τ sig)
      = aggU (F := F) (V (main_arg1 : DevRef τ sig)) (V (main_arg2 : DevRef τ sig)) (V (main_arg5 : DevRef τ sig)) (V (main_arg6 : DevRef τ sig)) := by
  simp only [after_cons, after_nil]
  rfl

attribute [local irreducible] Host.gather Host.scatterAdd Host.reduceAdd in
set_option maxRecDepth 8192 in
/-- The first piece leaves in its second scatter's result the weighted sum onto the 50000 rows. -/
theorem head_v25 (V : Valuation τ sig (Elt F)) :
    after opsHead V (main_v25 : DevRef τ sig)
      = aggI (F := F) (V (main_arg0 : DevRef τ sig)) (V (main_arg2 : DevRef τ sig)) (V (main_arg5 : DevRef τ sig)) (V (main_arg6 : DevRef τ sig)) := by
  simp only [after_cons, after_nil]
  rfl

attribute [local irreducible] Host.gather Host.scatterAdd Host.reduceAdd in
set_option maxRecDepth 16384 in
set_option maxHeartbeats 1600000 in
/-- The third piece leaves in the scalar result the loss of the two tables it reads and the three index arrays. -/
theorem tail_v123 (V : Valuation τ sig (Elt F)) :
    after opsTail V (main_v123 : DevRef τ sig)
      = tailLoss (F := F) (V (main_v80 : DevRef τ sig)) (V (main_v81 : DevRef τ sig)) (V (main_arg7 : DevRef τ sig)) (V (main_arg8 : DevRef τ sig)) (V (main_arg9 : DevRef τ sig)) := by
  simp only [after_cons, after_nil]
  rfl

end Pieces

/-! ## The results of the whole line, at the extended reals -/

section Value

open Cert.ReferenceIdeal.Layers (users items users_eq items_eq)

/-- The first table the reference returns, as a function of the inputs' contents. -/
abbrev valU (a0 : FVec Ideal S100000x64 .f32) (a1 : FVec Ideal S50000x64 .f32) (a2 : FVec Ideal S2000000 .f32)
    (a3 : FVec Ideal S3x64x64 .f32) (a4 : FVec Ideal S3x64 .f32) (a5 a6 : IVec S2000000 32) : FVec Ideal S100000x256 .f32 :=
  Cert.Gcn.result (M := 100000) a0 (aggU (F := Ideal) a1 a2 a5 a6) a3 a4

/-- The second table the reference returns, as a function of the inputs' contents. -/
abbrev valI (a0 : FVec Ideal S100000x64 .f32) (a1 : FVec Ideal S50000x64 .f32) (a2 : FVec Ideal S2000000 .f32)
    (a3 : FVec Ideal S3x64x64 .f32) (a4 : FVec Ideal S3x64 .f32) (a5 a6 : IVec S2000000 32) : FVec Ideal S50000x256 .f32 :=
  Cert.Gcn.result (M := 50000) a1 (aggI (F := Ideal) a0 a2 a5 a6) a3 a4

/-- The first result: the specified rows of the first embedding table and its aggregate. -/
theorem value_v80 (V : Valuation τ sig (Elt Ideal)) : after ops V (main_v80 : DevRef τ sig)
    = (Cert.Gcn.result (M := 100000) (V (main_arg0 : DevRef τ sig)) (aggU (V (main_arg1 : DevRef τ sig)) (V (main_arg2 : DevRef τ sig)) (V (main_arg5 : DevRef τ sig)) (V (main_arg6 : DevRef τ sig))) (V (main_arg3 : DevRef τ sig)) (V (main_arg4 : DevRef τ sig))) := by
  rw [after_split, opsTail_keep_v80, mid_v80, users_eq, head_v12, opsHead_keep_arg0, opsHead_keep_arg3, opsHead_keep_arg4]

/-- The second result: the specified rows of the second embedding table and its aggregate. -/
theorem value_v81 (V : Valuation τ sig (Elt Ideal)) : after ops V (main_v81 : DevRef τ sig)
    = (Cert.Gcn.result (M := 50000) (V (main_arg1 : DevRef τ sig)) (aggI (V (main_arg0 : DevRef τ sig)) (V (main_arg2 : DevRef τ sig)) (V (main_arg5 : DevRef τ sig)) (V (main_arg6 : DevRef τ sig))) (V (main_arg3 : DevRef τ sig)) (V (main_arg4 : DevRef τ sig))) := by
  rw [after_split, opsTail_keep_v81, mid_v81, items_eq, head_v25, opsHead_keep_arg1, opsHead_keep_arg3, opsHead_keep_arg4]

/-- The scalar result: the loss of the two results above and the three index arrays. -/
theorem value_v123 (V : Valuation τ sig (Elt Ideal)) : after ops V (main_v123 : DevRef τ sig)
    = tailLoss (Cert.Gcn.result (M := 100000) (V (main_arg0 : DevRef τ sig)) (aggU (V (main_arg1 : DevRef τ sig)) (V (main_arg2 : DevRef τ sig)) (V (main_arg5 : DevRef τ sig)) (V (main_arg6 : DevRef τ sig))) (V (main_arg3 : DevRef τ sig)) (V (main_arg4 : DevRef τ sig)))
        (Cert.Gcn.result (M := 50000) (V (main_arg1 : DevRef τ sig)) (aggI (V (main_arg0 : DevRef τ sig)) (V (main_arg2 : DevRef τ sig)) (V (main_arg5 : DevRef τ sig)) (V (main_arg6 : DevRef τ sig))) (V (main_arg3 : DevRef τ sig)) (V (main_arg4 : DevRef τ sig)))
        (V (main_arg7 : DevRef τ sig)) (V (main_arg8 : DevRef τ sig)) (V (main_arg9 : DevRef τ sig)) := by
  rw [after_split, tail_v123, mid_v80, mid_v81, users_eq, items_eq, head_v12, head_v25,
    opsMid_keep_arg7, opsMid_keep_arg8, opsMid_keep_arg9, opsHead_keep_arg0, opsHead_keep_arg1, opsHead_keep_arg3, opsHead_keep_arg4,
    opsHead_keep_arg7, opsHead_keep_arg8, opsHead_keep_arg9]

/-- On every device, for any memory with zero counters: every weakly fair execution of the reference's entry function
    terminates, and in every final state the scalar result is the loss of the two specified tables and the three index
    arrays, the two table results are the specified tables of the embeddings and their aggregates, and the ten inputs
    hold what they held. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v123)
          = tailLoss (valU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
              (valI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
              (m ((c.tc : Thread nD τ).loc main_arg7)) (m ((c.tc : Thread nD τ).loc main_arg8)) (m ((c.tc : Thread nD τ).loc main_arg9))
      ∧ r.2.mem ((c.tc : Thread nD τ).loc main_v80) = valU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v81) = valI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v123).trans (value_v123 _),
     (h c main_v80).trans (value_v80 _),
     (h c main_v81).trans (value_v81 _),
     (h c main_arg0).trans (arg0_keep _),
     (h c main_arg1).trans (arg1_keep _),
     (h c main_arg2).trans (arg2_keep _),
     (h c main_arg3).trans (arg3_keep _),
     (h c main_arg4).trans (arg4_keep _),
     (h c main_arg5).trans (arg5_keep _),
     (h c main_arg6).trans (arg6_keep _),
     (h c main_arg7).trans (arg7_keep _),
     (h c main_arg8).trans (arg8_keep _),
     (h c main_arg9).trans (arg9_keep _)⟩)
    (run_main m ρ)

end Value

end Cert.ReferenceIdeal.Hand

end
-- ==== Proof.lean ====
/-
  The certificate: the fused graph-convolution kernel against its reference, at the exact extended reals.

  Both programs first form the two aggregate arrays by the same segment sums and end with the same batch loss. Between
  the two the kernel program runs one kernel region over the user rows and one over the item rows, each with the three
  layers' weights fused into one [64, 192] matrix, where the reference joins users and items into one array of 150000 rows
  and applies the three layers one after the other. A row of the result depends on the same row of the embeddings and of
  the aggregates only, column 64 l + j of the fused product is column j of layer l's product, and a change of float format
  is the identity, so the user rows and the item rows agree entry by entry; the loss is the same function of them. No law
  that fails at infinities is used, so the precondition is never opened. The three frame conjuncts: the two kernel
  programs' are the generated frame certificates; the reference's is its run read back. The idealization rewrote no
  operation, so there is nothing to preserve.
-/
import proofs.«171917_j27255862461048_2_alg».proof.Defs
import proofs.«171917_j27255862461048_2_alg».proof.Proof.Gen.Kernel
import proofs.«171917_j27255862461048_2_alg».proof.Proof.Gen.Kernel.Skeleton
import proofs.«171917_j27255862461048_2_alg».proof.Proof.Gen.Kernel.Launch
import proofs.«171917_j27255862461048_2_alg».proof.Proof.Gen.Kernel.Points
import proofs.«171917_j27255862461048_2_alg».proof.Proof.Gen.Kernel.Frame
import proofs.«171917_j27255862461048_2_alg».proof.Proof.Gen.KernelIdeal
import proofs.«171917_j27255862461048_2_alg».proof.Proof.Gen.KernelIdeal.Skeleton
import proofs.«171917_j27255862461048_2_alg».proof.Proof.Gen.KernelIdeal.Launch
import proofs.«171917_j27255862461048_2_alg».proof.Proof.Gen.KernelIdeal.Points
import proofs.«171917_j27255862461048_2_alg».proof.Proof.Gen.KernelIdeal.Frame
import proofs.«171917_j27255862461048_2_alg».proof.Proof.Gen.ReferenceIdeal
import proofs.«171917_j27255862461048_2_alg».proof.Proof.Gen.Pre_finite_inputs
import proofs.«171917_j27255862461048_2_alg».proof.Proof.KernelValue
import proofs.«171917_j27255862461048_2_alg».proof.Proof.RefValue
import Idealize.ShloMosaic.Adequacy
import Idealize.ShloMosaic.Init

set_option maxRecDepth 16384

noncomputable section

namespace Cert.Proof

open Idealize.ShloMosaic Idealize.SL.Sem

/-- The reference program runs and leaves its arguments as launched. -/
theorem frame_ref [Cert.ReferenceIdeal.Facts] [Cert.Pre_finite_inputs.Facts] : Cert.frame_ReferenceIdeal :=
  fun m ρ _ => (θ_run Cert.ReferenceIdeal.defs _ _).mono (fun _ h c => (h c).2.2.2) (Cert.ReferenceIdeal.Hand.run_value m ρ)

/-- From memories agreeing on the arguments the two programs end with equal results. -/
theorem algebraic [Cert.KernelIdeal.Facts] [Cert.ReferenceIdeal.Facts] [Cert.Pre_finite_inputs.Facts] :
    Cert.algebraic_KernelIdeal_ReferenceIdeal :=
  fun m ρ m' ρ' _ hagree => ⟨_, _, _, Cert.KernelIdeal.Hand.run_value m ρ,
    (θ_run Cert.ReferenceIdeal.defs _ _).mono (fun _ h c => by
      obtain ⟨e0, e1, e2, e3, e4, e5, e6, e7, e8, e9⟩ := hagree c
      obtain ⟨h0, h1, h2, hargs⟩ := h c
      refine ⟨h0.trans ?_, h1.trans ?_, h2.trans ?_, hargs⟩
      · rw [e0, e1, e2, e3, e4, e5, e6, e7, e8, e9] <;> rfl
      · rw [e0, e1, e2, e3, e4, e5, e6] <;> rfl
      · rw [e0, e1, e2, e3, e4, e5, e6] <;> rfl)
      (Cert.ReferenceIdeal.Hand.run_value m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref, trivial, algebraic⟩

end Cert.Proof

end
